-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S4096x2048 : Shape := ⟨2, ![4096, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S2048x2048 .f32) (main_arg3 : FVec F S4096x2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S4096x2048 : Shape := ⟨2, ![4096, 2048]⟩
abbrev S2048 : Shape := ⟨1, ![2048]⟩
abbrev S4x2048x1 : Shape := ⟨3, ![4, 2048, 1]⟩
abbrev S2048x512 : Shape := ⟨2, ![2048, 512]⟩
abbrev S1x2048x1 : Shape := ⟨3, ![1, 2048, 1]⟩
abbrev S2048x1 : Shape := ⟨2, ![2048, 1]⟩
abbrev S4x2048 : Shape := ⟨2, ![4, 2048]⟩
abbrev S1x2048 : Shape := ⟨2, ![1, 2048]⟩
abbrev S2048x128 : Shape := ⟨2, ![2048, 128]⟩
abbrev S128x1024 : Shape := ⟨2, ![128, 1024]⟩
abbrev S4x1024 : Shape := ⟨2, ![4, 1024]⟩
abbrev S1x1024 : Shape := ⟨2, ![1, 1024]⟩
abbrev S2048x1024 : Shape := ⟨2, ![2048, 1024]⟩

abbrev nBuf : Space → Nat
  | .hbm => 11
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S4096x2048, .f32⟩
  | .hbm, ⟨4, _⟩ => ⟨S2048, .f32⟩
  | .hbm, ⟨5, _⟩ => ⟨S4x2048x1, .f32⟩
  | .hbm, ⟨6, _⟩ => ⟨S4x2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x2048x1, .f32⟩
  | .local _ .vmem, ⟨7, _⟩ => ⟨S1x2048x1, .f32⟩
  | .local _ .vmem, ⟨8, _⟩ => ⟨S2048x1, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S4x1024, .f32⟩
  | .local _ .vmem, ⟨18, _⟩ => ⟨S4x1024, .f32⟩
  | .local _ .vmem, ⟨19, _⟩ => ⟨S1x1024, .f32⟩
  | .local _ .vmem, ⟨20, _⟩ => ⟨S1x1024, .f32⟩
  | .local _ .vmem, ⟨21, _⟩ => ⟨S2048x1024, .f32⟩
  | .local _ .vmem, ⟨22, _⟩ => ⟨S2048x1024, .f32⟩
  | .local _ .vmem, ⟨23, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨3, ![4, 2, 16], ![false, false, false]⟩

def k1_cond2 (i : grid1.Coords) : BitVec 1 :=
  let arg2 : BitVec 32 := BitVec.ofNat 32 (i 2).val
  let c15_i32 : BitVec 32 := 15#32
  let v25 : BitVec 1 := Scalar.cmpi .eq arg2 c15_i32
  let v26 : BitVec 32 := Scalar.extui v25
  let c0_i32_17 : BitVec 32 := 0#32
  let v27 : BitVec 1 := Scalar.cmpi .ne v26 c0_i32_17
  v27

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S4x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S2048x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  shapeCasts_S4x2048x1_S4x2048 : S4x2048x1.ShapeCasts S4x2048
  slices_S4096x2048_S2048x2048_0_0 : S4096x2048.Slices ![0, 0] S2048x2048
  slices_S4096x2048_S2048x2048_2048_0 : S4096x2048.Slices ![2048, 0] S2048x2048
  shapeCasts_S2048_S1x2048 : S2048.ShapeCasts S1x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  concatenates_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S4x1024_S2048x1024_d0 : Shape.Concatenates (S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: S4x1024 :: []) S2048x1024 0
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x2048.size a
  hwx0_0 : ∀ i : grid0.Coords, EltTy.bits .f32 = 32 ∨ (Rect.block (s := S8192x2048) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x2048.size a
  hwx0_1 : ∀ i : grid0.Coords, EltTy.bits .f32 = 32 ∨ (Rect.block (s := S8192x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x2048.size a
  hwx0_2 : ∀ i : grid0.Coords, EltTy.bits .f32 = 32 ∨ (Rect.block (s := S2048x2048) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S4x2048x1.size a
  hwx0_3 : ∀ i : grid0.Coords, EltTy.bits .f32 = 32 ∨ (Rect.block (s := S4x2048x1) S1x2048x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x2048.size a
  hwx1_0 : ∀ i : grid1.Coords, EltTy.bits .f32 = 32 ∨ (Rect.block (s := S8192x2048) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x2048.size a
  hwx1_1 : ∀ i : grid1.Coords, EltTy.bits .f32 = 32 ∨ (Rect.block (s := S8192x2048) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S2048x2048.size a
  hwx1_2 : ∀ i : grid1.Coords, EltTy.bits .f32 = 32 ∨ (Rect.block (s := S2048x2048) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S2048x2048.size a
  hwx1_3 : ∀ i : grid1.Coords, EltTy.bits .f32 = 32 ∨ (Rect.block (s := S2048x2048) S128x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x1024.size a ≤ S4x2048.size a
  hwx1_4 : ∀ i : grid1.Coords, EltTy.bits .f32 = 32 ∨ (Rect.block (s := S4x2048) S4x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x2048.size a
  hwx1_5 : ∀ i : grid1.Coords, EltTy.bits .f32 = 32 ∨ (Rect.block (s := S1x2048) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1024.size a ≤ S8192x2048.size a
  hwx1_6 : ∀ i : grid1.Coords, EltTy.bits .f32 = 32 ∨ (Rect.block (s := S8192x2048) S2048x1024.size (cc1_transform_6 i) (hinb1_6 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S4x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S2048x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S4096x2048 : Shape := ⟨2, ![4096, 2048]⟩
abbrev S2048 : Shape := ⟨1, ![2048]⟩
abbrev S8192x4096 : Shape := ⟨2, ![8192, 4096]⟩
abbrev S_ : Shape := ⟨0, ![]⟩
abbrev S1x2048 : Shape := ⟨2, ![1, 2048]⟩
abbrev S8192 : Shape := ⟨1, ![8192]⟩
abbrev S8192x1 : Shape := ⟨2, ![8192, 1]⟩
abbrev S8192x2048x1 : Shape := ⟨3, ![8192, 2048, 1]⟩
abbrev S8192x2048x2 : Shape := ⟨3, ![8192, 2048, 2]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S4096x2048, .f32⟩
  | .hbm, ⟨4, _⟩ => ⟨S2048, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S2048, .i32⟩
  | .hbm, ⟨14, _⟩ => ⟨S1x2048, .i32⟩
  | .hbm, ⟨15, _⟩ => ⟨S8192, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i32⟩
  | .hbm, ⟨20, _⟩ => ⟨S8192x2048, .i32⟩
  | .hbm, ⟨21, _⟩ => ⟨S8192x2048, .i32⟩
  | .hbm, ⟨22, _⟩ => ⟨S8192x2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S8192x2048, .i32⟩
  | .hbm, ⟨30, _⟩ => ⟨S8192x2048, .i32⟩
  | .hbm, ⟨31, _⟩ => ⟨S_, .i32⟩
  | .hbm, ⟨32, _⟩ => ⟨S8192x2048, .i32⟩
  | .hbm, ⟨33, _⟩ => ⟨S8192x2048, .i1⟩
  | .hbm, ⟨34, _⟩ => ⟨S_, .i32⟩
  | .hbm, ⟨35, _⟩ => ⟨S8192x2048, .i32⟩
  | .hbm, ⟨36, _⟩ => ⟨S8192x2048, .i1⟩
  | .hbm, ⟨37, _⟩ => ⟨S_, .i32⟩
  | .hbm, ⟨38, _⟩ => ⟨S_, .i1⟩
  | .hbm, ⟨39, _⟩ => ⟨S8192x2048, .i1⟩
  | .hbm, ⟨40, _⟩ => ⟨S8192x2048, .i1⟩
  | .hbm, ⟨41, _⟩ => ⟨S8192x2048, .i1⟩
  | .hbm, ⟨42, _⟩ => ⟨S8192x2048, .i32⟩
  | .hbm, ⟨43, _⟩ => ⟨S8192x2048, .i32⟩
  | .hbm, ⟨44, _⟩ => ⟨S8192x2048, .i32⟩
  | .hbm, ⟨45, _⟩ => ⟨S_, .i32⟩
  | .hbm, ⟨46, _⟩ => ⟨S8192x2048, .i32⟩
  | .hbm, ⟨47, _⟩ => ⟨S8192x2048, .i1⟩
  | .hbm, ⟨48, _⟩ => ⟨S_, .i32⟩
  | .hbm, ⟨49, _⟩ => ⟨S8192x2048, .i32⟩
  | .hbm, ⟨50, _⟩ => ⟨S8192x2048, .i32⟩
  | .hbm, ⟨51, _⟩ => ⟨S8192x2048, .i32⟩
  | .hbm, ⟨52, _⟩ => ⟨S_, .i32⟩
  | .hbm, ⟨53, _⟩ => ⟨S1x2048, .i32⟩
  | .hbm, ⟨54, _⟩ => ⟨S1x2048, .i1⟩
  | .hbm, ⟨55, _⟩ => ⟨S_, .i32⟩
  | .hbm, ⟨56, _⟩ => ⟨S1x2048, .i32⟩
  | .hbm, ⟨57, _⟩ => ⟨S1x2048, .i32⟩
  | .hbm, ⟨58, _⟩ => ⟨S1x2048, .i32⟩
  | .hbm, ⟨59, _⟩ => ⟨S8192x2048, .i32⟩
  | .hbm, ⟨60, _⟩ => ⟨S8192x2048x1, .i32⟩
  | .hbm, ⟨61, _⟩ => ⟨S8192x2048x1, .i32⟩
  | .hbm, ⟨62, _⟩ => ⟨S8192x2048x2, .i32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  transposes_S2048x2048_S2048x2048_1_0 : S2048x2048.Transposes [1, 0] S2048x2048
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S1x2048 : S_.BroadcastsInDim S1x2048 (![] : Fin 0 → Fin S1x2048.rank)
  bcast_S8192x2048_S8192x2048x1_0_1 : S8192x2048.BroadcastsInDim S8192x2048x1 (![0, 1] : Fin 2 → Fin S8192x2048x1.rank)
  concatenates_S8192x2048x1_S8192x2048x1_S8192x2048x2_d2 : Shape.Concatenates [S8192x2048x1, S8192x2048x1] S8192x2048x2 2
  dot_S8192x4096_S4096x2048_S8192x2048_1_0_0_1_n_n_wf : DotDims.WF S8192x4096 S4096x2048 S8192x2048 [1] [0] [0] [1] [] []
  dot_S8192x2048_S2048x2048_S8192x2048_1_0_0_1_n_n_wf : DotDims.WF S8192x2048 S2048x2048 S8192x2048 [1] [0] [0] [1] [] []
  gather_S8192x2048_S8192x2048x2_S8192x2048_n_01_n_n_01_2_11_wf : GatherDims.WF S8192x2048 S8192x2048x2 S8192x2048 [] [0, 1] [] [0, 1] [] 2 ![1, 1]

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def gather_S8192x2048_S8192x2048x2_S8192x2048_n_01_n_n_01_2_11 : GatherDims S8192x2048 S8192x2048x2 S8192x2048 where
  offsetDims := []
  collapsedSliceDims := [0, 1]
  operandBatchingDims := []
  startIndicesBatchingDims := []
  startIndexMap := [0, 1]
  indexVectorDim := 2
  sliceSizes := ![1, 1]
  wf := gather_S8192x2048_S8192x2048x2_S8192x2048_n_01_n_n_01_2_11_wf

class Facts : Prop extends Facts₀ where

variable [Facts]
-- ==== Proof.Reg0Runs.lean ====
import proofs.«176346_j20375324852317_2_alg».proof.Proof.Gen.KernelIdeal.Launch
import proofs.«176346_j20375324852317_2_alg».proof.Proof.Gen.KernelIdeal.Skeleton
import proofs.«176346_j20375324852317_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the diagonal-extraction call): what its three control cases share

The grid is 4 x 4, a point `t` being (row block `t / 4`, column block `t % 4`). The body resets its
accumulator at column block 0, adds the block's lane sums at every column block, and at column block 3
scales the accumulator and stores the output block. -/

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before_in0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before_in1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before_in2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The accumulator is reset: the column-block coordinate is 0 (the body's scalar chain, substituted). -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 4 = 0 :=
  (by decide +kernel : ∀ t : Fin grid0.N, atFirst (grid0.coords t) ↔ t.val % 4 = 0)

/-- The output block is stored: the column-block coordinate is 3. -/
abbrev atLast (i : grid0.Coords) : Prop := k0_cond2 i = 1#1
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from column block 3 the output window is idle and is not written back. -/
theorem idle3 : ∀ t : Fin cfg0.N, ¬atLast (grid0.coords t) → cfg0.idle 3 (grid0.coords t) = true := by decide +kernel
theorem noFlush3 : ∀ t : Fin cfg0.N, ¬atLast (grid0.coords t) → (cfg0.win 3).flush t = false := by decide +kernel
/-- At column block 3 it is live. -/
theorem live3 : ∀ t : Fin cfg0.N, atLast (grid0.coords t) → cfg0.idle 3 (grid0.coords t) = false := by decide +kernel

/-! ## The memrefs the body is called with -/

/-- One staging buffer of the output window, through which its contents are stated. -/
abbrev VO : View sig .tc .vmem S1x2048x1 .f32 := (Memref.whole cc0_stg3_0 : Memref sig .tc .vmem S1x2048x1 .f32).view
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)
/-- The accumulator: a whole scoped buffer of the call's own, carried from point to point. -/
abbrev accM : Memref sig .tc .vmem S2048x1 .f32 := Memref.whole cc0_scratch0
abbrev VS : View sig .tc .vmem S2048x1 .f32 := accM.view

/-- The class invariant with the accumulator split off as a memref owned at some contents; every other scoped
    buffer that is no staging buffer of this call stays unopened. -/
theorem PhiA0_eq (c : Dev nD) :
    (Pipeline.ΦA spec0 c : sProp 𝕄)
      = iprop(iprop((∃ d, owns (c : Thread nD τ) accM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, accM, owns_whole]; try rfl

end Cert.KernelIdeal.Reg0

end
-- ==== Proof.Reg0RunA.lean ====
import proofs.«176346_j20375324852317_2_alg».proof.Proof.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- COLUMN BLOCK 0 (the accumulator is reset, then added to; nothing is stored into the output). The pieces the
    body's stores leave in the accumulator (last first), WITH the proof that on whole memrefs — the three inputs at
    contents `x0 x1 x2`, the output's buffer at contents `xo` handed back untouched, the accumulator at anything —
    the body runs to the continuation holding the inputs as they were, the output's buffer as it was and the
    accumulator with its pieces written. The pieces are what the symbolic run finds. -/
noncomputable def runFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i)
    (x0 x1 x2 : Vec F S2048x512 .f32) :
    Σ' (LO : List (View.Piece (Elt F) S1x2048x1 .f32)), { LS : List (View.Piece (Elt F) S2048x1 .f32) //
      ∀ (xo : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__diag_kernel i arg2 harg2 arg3 harg3 arg4 harg4 arg5 harg5 arg6 harg6) K } := by
  refine ⟨[], ?_, fun xo E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg0

end
-- ==== Proof.Reg0RunB.lean ====
import proofs.«176346_j20375324852317_2_alg».proof.Proof.Reg0RunA

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- COLUMN BLOCKS 1 AND 2 (the accumulator is added to; nothing is stored into the output). As the first case's run,
    the accumulator now at the contents `xs` the point before left. -/
noncomputable def runMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i)
    (x0 x1 x2 : Vec F S2048x512 .f32) (xs : Vec F S2048x1 .f32) :
    Σ' (LO : List (View.Piece (Elt F) S1x2048x1 .f32)), { LS : List (View.Piece (Elt F) S2048x1 .f32) //
      ∀ (xo : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__diag_kernel i arg2 harg2 arg3 harg3 arg4 harg4 arg5 harg5 arg6 harg6) K } := by
  refine ⟨[], ?_, fun xo E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg0

end
-- ==== Proof.Reg0RunC.lean ====
import proofs.«176346_j20375324852317_2_alg».proof.Proof.Reg0RunB

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- COLUMN BLOCK 3 (the accumulator is added to, then scaled and stored into the output block). The pieces the body's
    stores leave in the output's buffer and in the accumulator (last first), WITH the proof that on whole memrefs —
    the inputs at `x0 x1 x2`, the output's buffer at anything, the accumulator at the contents `xs` the point
    before left — the body runs to the continuation holding the inputs as they were and each of the two with its
    pieces written. -/
noncomputable def runLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i)
    (x0 x1 x2 : Vec F S2048x512 .f32) (xs : Vec F S2048x1 .f32) :
    Σ' (LO : List (View.Piece (Elt F) S1x2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__diag_kernel i arg2 harg2 arg3 harg3 arg4 harg4 arg5 harg5 arg6 harg6) K } := by
  refine ⟨?_, ?_, fun E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Reg0

end
-- ==== Proof.Reg0Frame.lean ====
import proofs.«176346_j20375324852317_2_alg».proof.Proof.Reg0RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what each case leaves, the accumulation point by point, the proof data, the body obligation -/

/-! ## What each case leaves in the output's buffer and in the accumulator -/

/-- Column block 0 stores nothing into the output: no pieces (a placeholder nothing consults: the window is idle there
    and not written back). -/
def outFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) : Vec F S1x2048x1 .f32 :=
  VO.read (Elt F) (VO.writes (Elt F) VO.junk (runFirst c i arg2 harg2 arg3 harg3 arg4 harg4 arg5 harg5 arg6 harg6 hc0 hc1 x0 x1 x2).1)

/-- Its pieces for the accumulator (the reset, then the sum) cover it. -/
theorem accCoverFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) (y : S2048x1.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S2048x1.size (by sl_kernel_rfl) y

/-- What column block 0 leaves in the accumulator: its pieces read back. -/
def accFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) : Vec F S2048x1 .f32 :=
  VS.read (Elt F) (VS.writes (Elt F) VS.junk (runFirst c i arg2 harg2 arg3 harg3 arg4 harg4 arg5 harg5 arg6 harg6 hc0 hc1 x0 x1 x2).2.1)

/-- Column blocks 1 and 2 store nothing into the output either. -/
def outMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) : Vec F S1x2048x1 .f32 :=
  VO.read (Elt F) (VO.writes (Elt F) VO.junk (runMid c i arg2 harg2 arg3 harg3 arg4 harg4 arg5 harg5 arg6 harg6 hc0 hc1 x0 x1 x2 xs).1)

theorem accCoverMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) (y : S2048x1.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S2048x1.size (by sl_kernel_rfl) y

def accMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) : Vec F S2048x1 .f32 :=
  VS.read (Elt F) (VS.writes (Elt F) VS.junk (runMid c i arg2 harg2 arg3 harg3 arg4 harg4 arg5 harg5 arg6 harg6 hc0 hc1 x0 x1 x2 xs).2.1)

/-- Column block 3's one store covers the output block. -/
theorem outCoverLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) (y : S1x2048x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1x2048x1.size (by sl_kernel_rfl) y

/-- What column block 3 leaves in the output's buffer. -/
def outLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) : Vec F S1x2048x1 .f32 :=
  VO.read (Elt F) (VO.writes (Elt F) VO.junk (runLast c i arg2 harg2 arg3 harg3 arg4 harg4 arg5 harg5 arg6 harg6 hc0 hc1 x0 x1 x2 xs).1)

theorem accCoverLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) (y : S2048x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S2048x1.size (by sl_kernel_rfl) y

def accLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) : Vec F S2048x1 .f32 :=
  VS.read (Elt F) (VS.writes (Elt F) VS.junk (runLast c i arg2 harg2 arg3 harg3 arg4 harg4 arg5 harg5 arg6 harg6 hc0 hc1 x0 x1 x2 xs).2.1)

/-! ## The accumulation, point by point -/

theorem notLast_of_first (t : Fin cfg0.N) (h0 : t.val % 4 = 0) : ¬atLast (grid0.coords t) :=
  fun h => by have h3 := (atLast_iff t).mp h; omega

/-- What a point of column block 0 leaves: (output buffer, accumulator), from the point's input blocks. -/
def ptFirst (c : Dev nD) (t : Fin cfg0.N) (h0 : t.val % 4 = 0) : Vec F S1x2048x1 .f32 × Vec F S2048x1 .f32 :=
  (outFirst c (grid0.coords t) (ms0 t) (hs0 t) (ms1 t) (hs1 t) (ms2 t) (hs2 t) (ms3 t) (hs3 t) accM (Memref.isWhole_whole _) ((atFirst_iff t).mpr h0) (notLast_of_first t h0) (iblk0 V c 0 t) (iblk0 V c 1 t) (iblk0 V c 2 t),
   accFirst c (grid0.coords t) (ms0 t) (hs0 t) (ms1 t) (hs1 t) (ms2 t) (hs2 t) (ms3 t) (hs3 t) accM (Memref.isWhole_whole _) ((atFirst_iff t).mpr h0) (notLast_of_first t h0) (iblk0 V c 0 t) (iblk0 V c 1 t) (iblk0 V c 2 t))

/-- What a point of column block 1 or 2 leaves, over the accumulator `xs` the point before left. -/
def ptMid (c : Dev nD) (t : Fin cfg0.N) (h0 : ¬t.val % 4 = 0) (h1 : ¬t.val % 4 = 3) (xs : Vec F S2048x1 .f32) : Vec F S1x2048x1 .f32 × Vec F S2048x1 .f32 :=
  (outMid c (grid0.coords t) (ms0 t) (hs0 t) (ms1 t) (hs1 t) (ms2 t) (hs2 t) (ms3 t) (hs3 t) accM (Memref.isWhole_whole _) (fun h => h0 ((atFirst_iff t).mp h)) (fun h => h1 ((atLast_iff t).mp h)) (iblk0 V c 0 t) (iblk0 V c 1 t) (iblk0 V c 2 t) xs,
   accMid c (grid0.coords t) (ms0 t) (hs0 t) (ms1 t) (hs1 t) (ms2 t) (hs2 t) (ms3 t) (hs3 t) accM (Memref.isWhole_whole _) (fun h => h0 ((atFirst_iff t).mp h)) (fun h => h1 ((atLast_iff t).mp h)) (iblk0 V c 0 t) (iblk0 V c 1 t) (iblk0 V c 2 t) xs)

/-- What a point of column block 3 leaves, over the accumulator `xs` the point before left. -/
def ptLast (c : Dev nD) (t : Fin cfg0.N) (h0 : ¬t.val % 4 = 0) (h1 : t.val % 4 = 3) (xs : Vec F S2048x1 .f32) : Vec F S1x2048x1 .f32 × Vec F S2048x1 .f32 :=
  (outLast c (grid0.coords t) (ms0 t) (hs0 t) (ms1 t) (hs1 t) (ms2 t) (hs2 t) (ms3 t) (hs3 t) accM (Memref.isWhole_whole _) (fun h => h0 ((atFirst_iff t).mp h)) ((atLast_iff t).mpr h1) (iblk0 V c 0 t) (iblk0 V c 1 t) (iblk0 V c 2 t) xs,
   accLast c (grid0.coords t) (ms0 t) (hs0 t) (ms1 t) (hs1 t) (ms2 t) (hs2 t) (ms3 t) (hs3 t) accM (Memref.isWhole_whole _) (fun h => h0 ((atFirst_iff t).mp h)) ((atLast_iff t).mpr h1) (iblk0 V c 0 t) (iblk0 V c 1 t) (iblk0 V c 2 t) xs)

/-- THE ACCUMULATION: what the output's buffer and the accumulator hold after the body at position `n`: the case the
    column block selects, run at the point's input blocks, over the accumulator the point before left. -/
def outsAt0 (c : Dev nD) : (n : ℕ) → n < cfg0.N → Vec F S1x2048x1 .f32 × Vec F S2048x1 .f32
  | 0, hn => ptFirst V c ⟨0, hn⟩ (Nat.zero_mod _)
  | n + 1, hn =>
    if h0 : (n + 1) % 4 = 0 then ptFirst V c ⟨n + 1, hn⟩ h0
    else if h1 : (n + 1) % 4 = 3 then ptLast V c ⟨n + 1, hn⟩ h0 h1 (outsAt0 c n (Nat.lt_of_succ_lt hn)).2
    else ptMid V c ⟨n + 1, hn⟩ h0 h1 (outsAt0 c n (Nat.lt_of_succ_lt hn)).2

theorem outsAt0_first (c : Dev nD) (t : Fin cfg0.N) (h0 : t.val % 4 = 0) :
    outsAt0 V c t.val t.isLt = ptFirst V c t h0 := by
  obtain ⟨n, hn⟩ := t
  cases n with
  | zero => exact rfl
  | succ n => exact (dif_pos h0).trans rfl

theorem outsAt0_mid (c : Dev nD) (t : Fin cfg0.N) (h0 : ¬t.val % 4 = 0) (h1 : ¬t.val % 4 = 3) :
    outsAt0 V c t.val t.isLt = ptMid V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_last (c : Dev nD) (t : Fin cfg0.N) (h0 : ¬t.val % 4 = 0) (h1 : t.val % 4 = 3) :
    outsAt0 V c t.val t.isLt = ptLast V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region invariant -/

/-- Before position `n`: at the first point the class invariant (the accumulator at anything); afterwards the
    accumulator at what the point before left in it, the other scoped buffers unopened, the generator register at
    some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of this call on core `c`: the arrays as the region finds them (`V`); after the body at point
    `t` each input's buffer at its block and the output's at the accumulation's first component; the invariant
    `PhiS`; nothing owed; full shares. -/
def dat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk0 V c 0 t := by dsimp only [dat]
theorem after1 (c : Dev nD) (t : Fin cfg0.N) : (dat V c).after 1 t = iblk0 V c 1 t := by dsimp only [dat]
theorem after2 (c : Dev nD) (t : Fin cfg0.N) : (dat V c).after 2 t = iblk0 V c 2 t := by dsimp only [dat]
theorem after3 (c : Dev nD) (t : Fin cfg0.N) : (dat V c).after 3 t = (outsAt0 V c t.val t.isLt).1 := by dsimp only [dat]

theorem before0 (c : Dev nD) (t : Fin cfg0.N) (d) : (dat V c).before 0 t d = iblk0 V c 0 t :=
  before_in0 V (dat V c) (A_eq V c 0) (after0 V c) t d
theorem before1 (c : Dev nD) (t : Fin cfg0.N) (d) : (dat V c).before 1 t d = iblk0 V c 1 t :=
  before_in1 V (dat V c) (A_eq V c 1) (after1 V c) t d
theorem before2 (c : Dev nD) (t : Fin cfg0.N) (d) : (dat V c).before 2 t d = iblk0 V c 2 t :=
  before_in2 V (dat V c) (A_eq V c 2) (after2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the column block says which case the point is in;
    the invariant hands the body the accumulator at what the point before left (at anything at the very first point)
    and takes it back at this point's contents; away from column block 3 the output's buffer goes back untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  have hN : t.val < 16 := lt_of_lt_of_eq t.isLt (show cfg0.N = 16 from N_0)
  by_cases h0 : t.val % 4 = 0
  · have hc1 : ¬atLast (grid0.coords t) := notLast_of_first t h0
    rw [Dat.leavesExact_idle (dat V c) 3 t (idle3 t hc1) (noFlush3 t hc1)]
    rw [outsAt0_first V c t h0]
    unfold ptFirst accFirst; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬atFirst (grid0.coords t) := fun h => h0 ((atFirst_iff t).mp h)
    by_cases h1 : t.val % 4 = 3
    · have hc1 : atLast (grid0.coords t) := (atLast_iff t).mpr h1
      rw [show (dat V c).leavesExact 3 t = owns (c : Thread nD τ) (ms3 t) fullShare ((dat V c).after 3 t) from by
        unfold Dat.leavesExact; rw [live3 t hc1], after3]
      rw [outsAt0_last V c t h0 h1]
      unfold ptLast outLast accLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · have hc1 : ¬atLast (grid0.coords t) := fun h => h1 ((atLast_iff t).mp h)
      rw [Dat.leavesExact_idle (dat V c) 3 t (idle3 t hc1) (noFlush3 t hc1)]
      rw [outsAt0_mid V c t h0 h1]
      unfold ptMid accMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid0.coords t) _ _ _ _ _ _ _ _ _ _ hc0 hc1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's named contents
    are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 16 := N_0; omega)

end Cert.KernelIdeal.Reg0

end
-- ==== Proof.Reg1Runs.lean ====
/- The second pallas_call (the main kernel: grid 4 x 2 x 16, a 2048 x 1024 accumulator carried along the last grid
   axis): what its three control cases share. The windows' blocks read off the arrays as the region finds them, the
   two branch conditions in closed form over the grid, where the output window is idle, the staging and scratch
   memrefs, and the region invariant spelled buffer by buffer. Generic in the float instance. -/
import proofs.«176346_j20375324852317_2_alg».proof.Proof.Gen.KernelIdeal.Launch
import proofs.«176346_j20375324852317_2_alg».proof.Proof.Gen.KernelIdeal.Skeleton
import proofs.«176346_j20375324852317_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the region-entry contents and whose body leaves the block in place: unfetched, the block
    index has not moved. The window is uncut and never idle. -/
theorem before0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the region-entry contents and whose body leaves the block in place: unfetched, the block
    index has not moved. The window is uncut and never idle. -/
theorem before1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the region-entry contents and whose body leaves the block in place: unfetched, the block
    index has not moved. The window is uncut and never idle. -/
theorem before2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the region-entry contents and whose body leaves the block in place: unfetched, the block
    index has not moved. The window is uncut and never idle. -/
theorem before3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the region-entry contents and whose body leaves the block in place: unfetched, the block
    index has not moved. The window is uncut and never idle. -/
theorem before4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the region-entry contents and whose body leaves the block in place: unfetched, the block
    index has not moved. The window is uncut and never idle. -/
theorem before5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The accumulator is reset where the last grid coordinate is 0 (the first `scf.if`, its scalar chain substituted). -/
abbrev condFirst (i : grid1.Coords) : Prop := (Scalar.cmpi .ne (Scalar.extui (Scalar.cmpi .eq (BitVec.ofNat 32 (i 2).val) 0#32)) 0#32) = 1#1
/-- That is at the points ≡ 0 (mod 16): decided over the 128 points. -/
theorem hcondFirst : ∀ t : Fin cfg1.N, condFirst (grid1.coords t) ↔ t.val % 16 = 0 :=
  (by decide +kernel : ∀ t : Fin grid1.N, condFirst (grid1.coords t) ↔ t.val % 16 = 0)

/-- The output block is computed and stored where the last grid coordinate is 15 (the second `scf.if`). -/
abbrev condLast (i : grid1.Coords) : Prop := k1_cond2 i = 1#1
/-- That is at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

/-! ## Where the output window is idle -/

/-- Away from the last step of the accumulation the output window is idle: the body stores nothing into it, -/
theorem idleAt6 : ∀ t : Fin cfg1.N, ¬condLast (grid1.coords t) → cfg1.idle 6 (grid1.coords t) = true := by decide +kernel
/-- and the pipeline does not write its block back. -/
theorem noFlush6 : ∀ t : Fin cfg1.N, ¬condLast (grid1.coords t) → (cfg1.win 6).flush t = false := by decide +kernel
/-- At the last step it is live. -/
theorem liveAt6 : ∀ t : Fin cfg1.N, condLast (grid1.coords t) → cfg1.idle 6 (grid1.coords t) = false := by decide +kernel

/-! ## The memrefs the body is called with -/

/-- One staging buffer of the output window, through which its contents are stated (the choice does not matter). -/
abbrev VO : View sig .tc .vmem S2048x1024 .f32 := (Memref.whole cc1_stg6_0 : Memref sig .tc .vmem S2048x1024 .f32).view
/-- Window 0's current staging memref at point `t`, as the pipeline passes it, and its wholeness. -/
abbrev ms0 (t : Fin cfg1.N) : Memref sig .tc .vmem S2048x128 .f32 := win1_0.stage (cfg1.slots t 0)
abbrev hs0 (t : Fin cfg1.N) : (ms0 t).IsWhole := hstage1_0 ((cfg1.slots t 0).cast nbuf1_0)
/-- Window 1's current staging memref at point `t`, as the pipeline passes it, and its wholeness. -/
abbrev ms1 (t : Fin cfg1.N) : Memref sig .tc .vmem S2048x128 .f32 := win1_1.stage (cfg1.slots t 1)
abbrev hs1 (t : Fin cfg1.N) : (ms1 t).IsWhole := hstage1_1 ((cfg1.slots t 1).cast nbuf1_1)
/-- Window 2's current staging memref at point `t`, as the pipeline passes it, and its wholeness. -/
abbrev ms2 (t : Fin cfg1.N) : Memref sig .tc .vmem S128x1024 .f32 := win1_2.stage (cfg1.slots t 2)
abbrev hs2 (t : Fin cfg1.N) : (ms2 t).IsWhole := hstage1_2 ((cfg1.slots t 2).cast nbuf1_2)
/-- Window 3's current staging memref at point `t`, as the pipeline passes it, and its wholeness. -/
abbrev ms3 (t : Fin cfg1.N) : Memref sig .tc .vmem S128x1024 .f32 := win1_3.stage (cfg1.slots t 3)
abbrev hs3 (t : Fin cfg1.N) : (ms3 t).IsWhole := hstage1_3 ((cfg1.slots t 3).cast nbuf1_3)
/-- Window 4's current staging memref at point `t`, as the pipeline passes it, and its wholeness. -/
abbrev ms4 (t : Fin cfg1.N) : Memref sig .tc .vmem S4x1024 .f32 := win1_4.stage (cfg1.slots t 4)
abbrev hs4 (t : Fin cfg1.N) : (ms4 t).IsWhole := hstage1_4 ((cfg1.slots t 4).cast nbuf1_4)
/-- Window 5's current staging memref at point `t`, as the pipeline passes it, and its wholeness. -/
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
/-- Window 6's current staging memref at point `t`, as the pipeline passes it, and its wholeness. -/
abbrev ms6 (t : Fin cfg1.N) : Memref sig .tc .vmem S2048x1024 .f32 := win1_6.stage (cfg1.slots t 6)
abbrev hs6 (t : Fin cfg1.N) : (ms6 t).IsWhole := hstage1_6 ((cfg1.slots t 6).cast nbuf1_6)
/-- The accumulator: a whole scoped buffer of the kernel's own, passed beside the windows. -/
abbrev scM : Memref sig .tc .vmem S2048x1024 .f32 := Memref.whole cc1_scratch0
/-- The same as a view: what the accumulator holds is stated through it. -/
abbrev VS : View sig .tc .vmem S2048x1024 .f32 := scM.view

/-! ## The region invariant, buffer by buffer -/

/-- The scoped buffers of the core that this region never touches (the first pallas_call's staging buffers and its
    scratch), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant of the region: the untouched scoped buffers, the accumulator at some contents, and the
    generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  unfold Pipeline.ΦA; rw [scopedRest1_eq]; simp only [scM, owns_whole]; try rfl

end Cert.KernelIdeal.Reg1

end
-- ==== Proof.Reg1RunFirst.lean ====
/- The main kernel's body at a point whose last grid coordinate is 0: the accumulator is reset to zero and the two
   partial products of this step are added to it; the output block is not touched. -/
import proofs.«176346_j20375324852317_2_alg».proof.Proof.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the output's staging memref (`L6`) and in the accumulator (`LS`), last
    store first, with the body's triple on whole memrefs: the inputs' buffers are handed back as they were, and the
    accumulator and (where it is stored) the output's buffer with those pieces written. The pieces are found by
    running the body symbolically; each `scf.if` is decided by the case's hypotheses. -/
noncomputable def runFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) :
    Σ' (L6 : List (View.Piece (Elt F) S2048x1024 .f32)), { LS : List (View.Piece (Elt F) S2048x1024 .f32) //
      ∀ (xi6 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨[], ?_, fun xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Reg1

end
-- ==== Proof.Reg1RunMid.lean ====
/- The main kernel's body at a point whose last grid coordinate is 1..14: the two partial products of this step are
   added to the accumulator the step before left; the output block is not touched. -/
import proofs.«176346_j20375324852317_2_alg».proof.Proof.Reg1RunFirst

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the output's staging memref (`L6`) and in the accumulator (`LS`), last
    store first, with the body's triple on whole memrefs: the inputs' buffers are handed back as they were, and the
    accumulator and (where it is stored) the output's buffer with those pieces written. The pieces are found by
    running the body symbolically; each `scf.if` is decided by the case's hypotheses. -/
noncomputable def runMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    Σ' (L6 : List (View.Piece (Elt F) S2048x1024 .f32)), { LS : List (View.Piece (Elt F) S2048x1024 .f32) //
      ∀ (xi6 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨[], ?_, fun xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Reg1

end
-- ==== Proof.Reg1RunLast.lean ====
/- The main kernel's body at a point whose last grid coordinate is 15: the last two partial products are added to
   the accumulator, and the output block is stored: the accumulator plus the tiled table block plus the bias row,
   through tanh. -/
import proofs.«176346_j20375324852317_2_alg».proof.Proof.Reg1RunMid

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the output's staging memref (`L6`) and in the accumulator (`LS`), last
    store first, with the body's triple on whole memrefs: the inputs' buffers are handed back as they were, and the
    accumulator and (where it is stored) the output's buffer with those pieces written. The pieces are found by
    running the body symbolically; each `scf.if` is decided by the case's hypotheses. -/
noncomputable def runLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    Σ' (L6 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.KernelIdeal.Reg1

end
-- ==== Proof.Reg1Frame.lean ====
/- The second pallas_call's proof data: what each control case leaves in the output's staging buffer and in the
   accumulator (the found pieces read back), the same point by point along the grid, the invariant that carries the
   accumulator's contents from one point to the next, and the data the pipeline's rules take. Generic in the float
   instance. -/
import proofs.«176346_j20375324852317_2_alg».proof.Proof.Reg1RunLast

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point with last coordinate 0 nothing is stored into the output's buffer (the window is idle there and not
    written back): a placeholder nothing consults. -/
def outFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) : Vec F S2048x1024 .f32 :=
  VO.read (Elt F) (VO.writes (Elt F) VO.junk (runFirst c i arg3 harg3 arg4 harg4 arg5 harg5 arg6 harg6 arg7 harg7 arg8 harg8 arg9 harg9 arg10 harg10 hc0 hc1 x0 x1 x2 x3 x4 x5).1)

/-- Every store into the accumulator is of the whole buffer, so the pieces cover it. -/
theorem scoverFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (y : S2048x1024.Idx) :
    ∃ pc ∈ (runFirst c i arg3 harg3 arg4 harg4 arg5 harg5 arg6 harg6 arg7 harg7 arg8 harg8 arg9 harg9 arg10 harg10 hc0 hc1 x0 x1 x2 x3 x4 x5).2.1, y ∈ pc.1.set :=
  View.cover_of_tiledL (runFirst c i arg3 harg3 arg4 harg4 arg5 harg5 arg6 harg6 arg7 harg7 arg8 harg8 arg9 harg9 arg10 harg10 hc0 hc1 x0 x1 x2 x3 x4 x5).2.1 S2048x1024.size (by sl_kernel_rfl) y

/-- What such a point leaves in the accumulator: its pieces read back. -/
def soutFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) : Vec F S2048x1024 .f32 :=
  VS.read (Elt F) (VS.writes (Elt F) VS.junk (runFirst c i arg3 harg3 arg4 harg4 arg5 harg5 arg6 harg6 arg7 harg7 arg8 harg8 arg9 harg9 arg10 harg10 hc0 hc1 x0 x1 x2 x3 x4 x5).2.1)

/-- At a point with last coordinate 1..14 nothing is stored into the output's buffer either: a placeholder. -/
def outMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VO.read (Elt F) (VO.writes (Elt F) VO.junk (runMid c i arg3 harg3 arg4 harg4 arg5 harg5 arg6 harg6 arg7 harg7 arg8 harg8 arg9 harg9 arg10 harg10 hc0 hc1 x0 x1 x2 x3 x4 x5 xs0).1)

/-- Every store into the accumulator is of the whole buffer, so the pieces cover it. -/
theorem scoverMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) (y : S2048x1024.Idx) :
    ∃ pc ∈ (runMid c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (runMid c i arg3 harg3 arg4 harg4 arg5 harg5 arg6 harg6 arg7 harg7 arg8 harg8 arg9 harg9 arg10 harg10 hc0 hc1 x0 x1 x2 x3 x4 x5 xs0).2.1 S2048x1024.size (by sl_kernel_rfl) y

/-- What such a point leaves in the accumulator, over what the point before left (`xs0`). -/
def soutMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VS.read (Elt F) (VS.writes (Elt F) VS.junk (runMid c i arg3 harg3 arg4 harg4 arg5 harg5 arg6 harg6 arg7 harg7 arg8 harg8 arg9 harg9 arg10 harg10 hc0 hc1 x0 x1 x2 x3 x4 x5 xs0).2.1)

/-- What a point with last coordinate 15 leaves in the output's staging buffer: its one piece read back. -/
def outLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VO.read (Elt F) (VO.writes (Elt F) VO.junk (runLast c i arg3 harg3 arg4 harg4 arg5 harg5 arg6 harg6 arg7 harg7 arg8 harg8 arg9 harg9 arg10 harg10 hc0 hc1 x0 x1 x2 x3 x4 x5 xs0).1)

/-- The one store into the output's buffer is of the whole block, so its piece covers the block. -/
theorem coverLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs0).1 S2048x1024.size (by sl_kernel_rfl) y

/-- Every store into the accumulator is of the whole buffer, so the pieces cover it. -/
theorem scoverLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs0).2.1 S2048x1024.size (by sl_kernel_rfl) y

/-- What it leaves in the accumulator. -/
def soutLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VS.read (Elt F) (VS.writes (Elt F) VS.junk (runLast c i arg3 harg3 arg4 harg4 arg5 harg5 arg6 harg6 arg7 harg7 arg8 harg8 arg9 harg9 arg10 harg10 hc0 hc1 x0 x1 x2 x3 x4 x5 xs0).2.1)

/-! ## Point by point -/

/-- What the output's staging buffer and the accumulator hold after the body at position `n` (the output first):
    the case the closed forms select, run at the point's memrefs and input blocks, over the accumulator the point
    before left. -/
def outsAt1 (c : Dev nD) : (n : ℕ) → n < cfg1.N → Vec F S2048x1024 .f32 × Vec F S2048x1024 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcondFirst ⟨n + 1, hn⟩).mpr h0) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcondFirst ⟨n + 1, hn⟩).mpr h0) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) ((hcondLast ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) ((hcondLast ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a point with last coordinate 0. -/
theorem outsAt1_First (c : Dev nD) (t : Fin cfg1.N) (h0 : t.val % 16 = 0) (h1 : ¬t.val % 16 = 15) :
    outsAt1 V c t.val t.isLt = (outFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk1 V c 0 t) (iblk1 V c 1 t) (iblk1 V c 2 t) (iblk1 V c 3 t) (iblk1 V c 4 t) (iblk1 V c 5 t), soutFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a point with last coordinate 1..14: over what the point before left. -/
theorem outsAt1_Mid (c : Dev nD) (t : Fin cfg1.N) (h0 : ¬t.val % 16 = 0) (h1 : ¬t.val % 16 = 15) :
    outsAt1 V c t.val t.isLt = (outMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, soutMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with last coordinate 15: over what the point before left. -/
theorem outsAt1_Last (c : Dev nD) (t : Fin cfg1.N) (h0 : ¬t.val % 16 = 0) (h1 : t.val % 16 = 15) :
    outsAt1 V c t.val t.isLt = (outLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, soutLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: the untouched scoped buffers, the generator register, and the
    accumulator — at anything before the first point, afterwards at what the point before left in it. -/
def PhiS (c : Dev nD) : (n : ℕ) → n ≤ cfg1.N → sProp 𝕄
  | 0, _ => iprop(iprop(others c ∗ (∃ d, owns (c : Thread nD τ) scM fullShare d)) ∗ (∃ r, prngReg c r))
  | n + 1, hn => iprop(iprop(others c ∗ owns (c : Thread nD τ) scM fullShare ((outsAt1 V c n hn).2)) ∗ (∃ r, prngReg c r))

theorem PhiS_zero (c : Dev nD) (n : ℕ) (h : n ≤ cfg1.N) (hz : n = 0) :
    PhiS V c n h = iprop(iprop(others c ∗ (∃ d, owns (c : Thread nD τ) scM fullShare d)) ∗ (∃ r, prngReg c r)) := by
  subst hz; rfl

theorem PhiS_succ (c : Dev nD) (n : ℕ) (hn : n < cfg1.N) :
    PhiS V c (n + 1) hn = iprop(iprop(others c ∗ owns (c : Thread nD τ) scM fullShare ((outsAt1 V c n hn).2)) ∗ (∃ r, prngReg c r)) := rfl

theorem PhiS_pos (c : Dev nD) (n : ℕ) (h : n ≤ cfg1.N) (hz : n ≠ 0) :
    PhiS V c n h = iprop(iprop(others c ∗ owns (c : Thread nD τ) scM fullShare ((outsAt1 V c (n - 1) (by omega)).2)) ∗ (∃ r, prngReg c r)) := by
  cases n with
  | zero => exact absurd rfl hz
  | succ n => rfl

/-! ## The pipeline's proof data -/

/-- The proof data of this pipeline on core `c`: the arrays as the region finds them; after the body at a point each
    input's buffer at its block and the output's at `outsAt1`'s first component; the invariant above; nothing owed;
    full shares. -/
def dat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk1 V c 0 t := by dsimp only [dat]
theorem after1 (c : Dev nD) (t : Fin cfg1.N) : (dat V c).after 1 t = iblk1 V c 1 t := by dsimp only [dat]
theorem after2 (c : Dev nD) (t : Fin cfg1.N) : (dat V c).after 2 t = iblk1 V c 2 t := by dsimp only [dat]
theorem after3 (c : Dev nD) (t : Fin cfg1.N) : (dat V c).after 3 t = iblk1 V c 3 t := by dsimp only [dat]
theorem after4 (c : Dev nD) (t : Fin cfg1.N) : (dat V c).after 4 t = iblk1 V c 4 t := by dsimp only [dat]
theorem after5 (c : Dev nD) (t : Fin cfg1.N) : (dat V c).after 5 t = iblk1 V c 5 t := by dsimp only [dat]
theorem after6 (c : Dev nD) (t : Fin cfg1.N) : (dat V c).after 6 t = (outsAt1 V c t.val t.isLt).1 := by dsimp only [dat]

/-- Input window 0's current staging buffer holds its block at every point. -/
theorem before0 (c : Dev nD) (t : Fin cfg1.N) (d) : (dat V c).before 0 t d = iblk1 V c 0 t :=
  before0_of V (dat V c) (A_eq V c 0) (after0 V c) t d
/-- It is live everywhere, so the body hands it back at what the proof data says: its block. -/
theorem leaves0 (c : Dev nD) (t : Fin cfg1.N) :
    (dat V c).leavesExact 0 t = owns (c : Thread nD τ) (ms0 t) fullShare (iblk1 V c 0 t) :=
  (show (dat V c).leavesExact 0 t = owns (c : Thread nD τ) (ms0 t) fullShare ((dat V c).after 0 t) from by
    unfold Dat.leavesExact; rw [show cfg1.idle 0 (cfg1.grid.coords t) = false from rfl]).trans (by rw [after0])
/-- Input window 1's current staging buffer holds its block at every point. -/
theorem before1 (c : Dev nD) (t : Fin cfg1.N) (d) : (dat V c).before 1 t d = iblk1 V c 1 t :=
  before1_of V (dat V c) (A_eq V c 1) (after1 V c) t d
/-- It is live everywhere, so the body hands it back at what the proof data says: its block. -/
theorem leaves1 (c : Dev nD) (t : Fin cfg1.N) :
    (dat V c).leavesExact 1 t = owns (c : Thread nD τ) (ms1 t) fullShare (iblk1 V c 1 t) :=
  (show (dat V c).leavesExact 1 t = owns (c : Thread nD τ) (ms1 t) fullShare ((dat V c).after 1 t) from by
    unfold Dat.leavesExact; rw [show cfg1.idle 1 (cfg1.grid.coords t) = false from rfl]).trans (by rw [after1])
/-- Input window 2's current staging buffer holds its block at every point. -/
theorem before2 (c : Dev nD) (t : Fin cfg1.N) (d) : (dat V c).before 2 t d = iblk1 V c 2 t :=
  before2_of V (dat V c) (A_eq V c 2) (after2 V c) t d
/-- It is live everywhere, so the body hands it back at what the proof data says: its block. -/
theorem leaves2 (c : Dev nD) (t : Fin cfg1.N) :
    (dat V c).leavesExact 2 t = owns (c : Thread nD τ) (ms2 t) fullShare (iblk1 V c 2 t) :=
  (show (dat V c).leavesExact 2 t = owns (c : Thread nD τ) (ms2 t) fullShare ((dat V c).after 2 t) from by
    unfold Dat.leavesExact; rw [show cfg1.idle 2 (cfg1.grid.coords t) = false from rfl]).trans (by rw [after2])
/-- Input window 3's current staging buffer holds its block at every point. -/
theorem before3 (c : Dev nD) (t : Fin cfg1.N) (d) : (dat V c).before 3 t d = iblk1 V c 3 t :=
  before3_of V (dat V c) (A_eq V c 3) (after3 V c) t d
/-- It is live everywhere, so the body hands it back at what the proof data says: its block. -/
theorem leaves3 (c : Dev nD) (t : Fin cfg1.N) :
    (dat V c).leavesExact 3 t = owns (c : Thread nD τ) (ms3 t) fullShare (iblk1 V c 3 t) :=
  (show (dat V c).leavesExact 3 t = owns (c : Thread nD τ) (ms3 t) fullShare ((dat V c).after 3 t) from by
    unfold Dat.leavesExact; rw [show cfg1.idle 3 (cfg1.grid.coords t) = false from rfl]).trans (by rw [after3])
/-- Input window 4's current staging buffer holds its block at every point. -/
theorem before4 (c : Dev nD) (t : Fin cfg1.N) (d) : (dat V c).before 4 t d = iblk1 V c 4 t :=
  before4_of V (dat V c) (A_eq V c 4) (after4 V c) t d
/-- It is live everywhere, so the body hands it back at what the proof data says: its block. -/
theorem leaves4 (c : Dev nD) (t : Fin cfg1.N) :
    (dat V c).leavesExact 4 t = owns (c : Thread nD τ) (ms4 t) fullShare (iblk1 V c 4 t) :=
  (show (dat V c).leavesExact 4 t = owns (c : Thread nD τ) (ms4 t) fullShare ((dat V c).after 4 t) from by
    unfold Dat.leavesExact; rw [show cfg1.idle 4 (cfg1.grid.coords t) = false from rfl]).trans (by rw [after4])
/-- Input window 5's current staging buffer holds its block at every point. -/
theorem before5 (c : Dev nD) (t : Fin cfg1.N) (d) : (dat V c).before 5 t d = iblk1 V c 5 t :=
  before5_of V (dat V c) (A_eq V c 5) (after5 V c) t d
/-- It is live everywhere, so the body hands it back at what the proof data says: its block. -/
theorem leaves5 (c : Dev nD) (t : Fin cfg1.N) :
    (dat V c).leavesExact 5 t = owns (c : Thread nD τ) (ms5 t) fullShare (iblk1 V c 5 t) :=
  (show (dat V c).leavesExact 5 t = owns (c : Thread nD τ) (ms5 t) fullShare ((dat V c).after 5 t) from by
    unfold Dat.leavesExact; rw [show cfg1.idle 5 (cfg1.grid.coords t) = false from rfl]).trans (by rw [after5])

end Cert.KernelIdeal.Reg1

end
-- ==== Proof.Reg1Body.lean ====
/- The second pallas_call's body obligation: at every grid point, from the invariant and the windows' current
   staging buffers at what they then hold, the kernel's body runs to the invariant at the next point and the buffers
   at what the proof data says. The point's case is read off the closed forms of the two branch conditions; each leaf
   is that case's run. Also the invariant's two ends: the class invariant gives it before the first point, and it
   gives the class invariant back after the last. Generic in the float instance. -/
import proofs.«176346_j20375324852317_2_alg».proof.Proof.Reg1Frame

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point. The inputs' memrefs hold their blocks; the closed forms say which case the point is in;
    the invariant hands the body the accumulator at what the point before left (at anything before the first point)
    and takes it back at this point's contents; the untouched buffers, the generator register and what the core owes
    pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 128 := lt_of_lt_of_eq t.isLt (show cfg1.N = 128 from N_1)
  by_cases h0 : t.val % 16 = 0
  · have h1 : ¬t.val % 16 = 15 := by omega
    rw [Dat.leavesExact_idle (dat V c) 6 t (idleAt6 t (fun h => h1 ((hcondLast t).mp h))) (noFlush6 t (fun h => h1 ((hcondLast t).mp h)))]
    rw [outsAt1_First V c t h0 h1]
    unfold soutFirst; (try dsimp only)
    by_cases hz : t.val = 0
    ·
      rw [PhiS_castSucc V c t, PhiS_zero V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((hcondFirst t).mpr h0) (fun h => h1 ((hcondLast t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [PhiS_castSucc V c t, PhiS_pos V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((hcondFirst t).mpr h0) (fun h => h1 ((hcondLast t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat V c).leavesExact 6 t = owns (c : Thread nD τ) (ms6 t) fullShare ((dat V c).after 6 t) from by
        unfold Dat.leavesExact; rw [liveAt6 t ((hcondLast t).mpr h1)], after6]
      rw [outsAt1_Last V c t h0 h1]
      unfold outLast soutLast; (try dsimp only)
      rw [PhiS_castSucc V c t, PhiS_pos V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((hcondFirst t).mp h)) ((hcondLast t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _ _ _)
    · rw [Dat.leavesExact_idle (dat V c) 6 t (idleAt6 t (fun h => h1 ((hcondLast t).mp h))) (noFlush6 t (fun h => h1 ((hcondLast t).mp h)))]
      rw [outsAt1_Mid V c t h0 h1]
      unfold soutMid; (try dsimp only)
      rw [PhiS_castSucc V c t, PhiS_pos V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ (fun h => h0 ((hcondFirst t).mp h)) (fun h => h1 ((hcondLast t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverMid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl, PhiA_eq]
  unfold others
  iintro ⟨⟨B0, B1, B2, B3, B4, B5, B6, B7, B8, HS⟩, Hg⟩
  isplitr [Hg]
  · isplitr [HS]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact HS
  iexact Hg

/-- After any point but none the invariant gives the class invariant back: the accumulator's named contents are
    forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold others
  iintro ⟨⟨⟨B0, B1, B2, B3, B4, B5, B6, B7, B8⟩, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.KernelIdeal.Reg1

end
-- ==== Proof.Asm.lean ====
/-
  The program as a whole, at any float instance: the first kernel, four host operations, the second kernel.

  Between two items every unscoped buffer of a core is held at named contents: the launch contents, then with the first
  kernel's result array at what its write-backs leave, then with the table reshaped, the tall matrix cut into its two
  square halves and the bias made a row, then with the second kernel's result array at what its write-backs leave.  Each
  kernel is entered by splitting its arrays out of the unscoped buffers and handing the generator register and the scoped
  buffers (its scratch accumulator among them) to its invariant, and left the other way round.  The run's post names every
  unscoped buffer's final contents; the frame reads the five arguments off it: a kernel only reads them through input
  windows and no host operation writes one.
-/
import proofs.«176346_j20375324852317_2_alg».proof.Proof.Gen.KernelIdeal.Launch
import proofs.«176346_j20375324852317_2_alg».proof.Proof.Gen.KernelIdeal.Skeleton
import proofs.«176346_j20375324852317_2_alg».proof.Proof.Gen.KernelIdeal.Points
import proofs.«176346_j20375324852317_2_alg».proof.Proof.Gen.KernelIdeal.Regions
import proofs.«176346_j20375324852317_2_alg».proof.Proof.Reg0Frame
import proofs.«176346_j20375324852317_2_alg».proof.Proof.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program: the first kernel, four host operations, the second kernel -/

/-- Core `c`'s buffers at launch: what the first kernel is entered from. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- After the first kernel: its arrays at what its write-backs leave, every other buffer as it was. -/
def W1 (c : Dev nD) : Valuation τ sig (Elt F) :=
  Pipeline.withArrays spec0 c (W0 m c) fun w => (Reg0.dat (V0 m) c).arrAt w cfg0.N
theorem W1_arr (c : Dev nD) (w : Fin cfg0.W) :
    W1 m c (Proc.devRef .tc (Pipeline.arrRef spec0 w)) = (Reg0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Reg0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the four host operations (the table reshaped, the tall matrix cut in two, the bias made a row): what the second
    kernel is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second kernel. -/
def W3 (c : Dev nD) : Valuation τ sig (Elt F) :=
  Pipeline.withArrays spec1 c (W2 m c) fun w => (Reg1.dat (V2 m) c).arrAt w cfg1.N
theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Reg1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- A host operation of the stretch writes none of the five arguments. -/
theorem W2_of (c : Dev nD) (r : Ref sig .tc) (h : r ∉ hostOps1_W) : W2 m c r = W1 m c r :=
  StableHlo.after_of_writes_sub hostOps1 _ hostOps1_writes h

/-! ### The arguments end as launched: a kernel only reads them through input windows, no host operation writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((Reg1.dat (V2 m) c).arrAt_in 0 rfl _).trans (Reg1.A_eq (V2 m) c 0))
    _ = W1 m c (Proc.devRef .tc main_arg0) := W2_of m c main_arg0 (by decide)
    _ = W0 m c (Proc.devRef .tc main_arg0) := (W1_arr m c 0).trans (((Reg0.dat (V0 m) c).arrAt_in 0 rfl _).trans (Reg0.A_eq (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((Reg1.dat (V2 m) c).arrAt_in 1 rfl _).trans (Reg1.A_eq (V2 m) c 1))
    _ = W1 m c (Proc.devRef .tc main_arg1) := W2_of m c main_arg1 (by decide)
    _ = W0 m c (Proc.devRef .tc main_arg1) := (W1_arr m c 1).trans (((Reg0.dat (V0 m) c).arrAt_in 1 rfl _).trans (Reg0.A_eq (V0 m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := (W1_arr m c 2).trans (((Reg0.dat (V0 m) c).arrAt_in 2 rfl _).trans (Reg0.A_eq (V0 m) c 2))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of m c main_arg4 (by decide)
    _ = W0 m c (Proc.devRef .tc main_arg4) := W1_of_ne m c main_arg4 (by decide)
    _ = m ((c : Thread nD τ).loc main_arg4) := rfl

/-! ## The proof data of the two pipelines and what rides beside the buffers -/

/-- Each pipeline's proof data at its kernel's entry contents. -/
def pdats : (p : Fin 2) → (c : Dev nD) → Dat τ (Elt F) Unit ℕ (UR sig nD τ) ℕ (Pipeline.pin (pcfgs (F := F)) adm p) c
  | ⟨0, _⟩ => fun c => Reg0.dat (V0 m) c
  | ⟨1, _⟩ => fun c => Reg1.dat (V2 m) c
abbrev 𝒱₀ : Variants := Variants.none
/-- No core waits on another: no level is assigned. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m c) ∗ ∃ r, prngReg c r)

/-! ## The two kernels as segments -/

set_option backward.isDefEq.respectTransparency.types false in
/-- The first kernel: entered from the launch contents, left at `W1`. Its arrays are split out of the unscoped buffers and
    put back at the exit contents; the generator register and the scoped rest enter the kernel's invariant (the scratch
    column among them) and come back out of it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat (V0 m) c).Φ 0 from rfl]
    have h := Reg0.hin (V0 m) c
    unfold Pipeline.ΦA at h
    iintro ⟨Hp, -, Hr⟩
    iapply h
    isplitl [Hr]; · iexact Hr
    iexact Hp
  hout c := by
    rw [Pipeline.ownSems0_none]
    have h := Reg0.hout (V0 m) c
    unfold Pipeline.ΦA at h
    exact h.trans (sep_comm.trans (sep_mono_r emp_sep_intro))
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from `W2`, left at the final contents `W3`; its invariant carries the 2048 x 1024 accumulator. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (V2 m) c).Φ 0 from rfl]
    have h := Reg1.hin (V2 m) c
    unfold Pipeline.ΦA at h
    iintro ⟨Hp, -, Hr⟩
    iapply h
    isplitl [Hr]; · iexact Hr
    iexact Hp
  hout c := by
    rw [Pipeline.ownSems0_none]
    have h := Reg1.hout (V2 m) c
    unfold Pipeline.ΦA at h
    exact h.trans (sep_comm.trans (sep_mono_r emp_sep_intro))
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three segments, and its run -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) :=
  main_segs adm (pdats m) () 𝒱₀ L lv (hseg hostOps1 hostOps1_sub hostOps1_fresh (W1 m)) (reg0 m) (reg1 m) rfl c

set_option backward.isDefEq.respectTransparency.types false in
/-- THE RUN, at any float instance: from any memory with zero counters every weakly fair execution of the program on the
    TensorCores terminates, nothing faulting, and every final state holds every unscoped buffer at the contents `W3`: the
    launch contents changed only by what the two kernels write back and by the four host operations between them. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, at any float instance: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run m ρ)

end Cert.KernelIdeal.Asm

end
-- ==== Proof.WReg0Runs.lean ====
import proofs.«176346_j20375324852317_2_alg».proof.Proof.Gen.Kernel.Launch
import proofs.«176346_j20375324852317_2_alg».proof.Proof.Gen.Kernel.Skeleton
import proofs.«176346_j20375324852317_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the diagonal-extraction call): what its three control cases share

The grid is 4 x 4, a point `t` being (row block `t / 4`, column block `t % 4`). The body resets its
accumulator at column block 0, adds the block's lane sums at every column block, and at column block 3
scales the accumulator and stores the output block. -/

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before_in0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before_in1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before_in2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The accumulator is reset: the column-block coordinate is 0 (the body's scalar chain, substituted). -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 4 = 0 :=
  (by decide +kernel : ∀ t : Fin grid0.N, atFirst (grid0.coords t) ↔ t.val % 4 = 0)

/-- The output block is stored: the column-block coordinate is 3. -/
abbrev atLast (i : grid0.Coords) : Prop := k0_cond2 i = 1#1
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from column block 3 the output window is idle and is not written back. -/
theorem idle3 : ∀ t : Fin cfg0.N, ¬atLast (grid0.coords t) → cfg0.idle 3 (grid0.coords t) = true := by decide +kernel
theorem noFlush3 : ∀ t : Fin cfg0.N, ¬atLast (grid0.coords t) → (cfg0.win 3).flush t = false := by decide +kernel
/-- At column block 3 it is live. -/
theorem live3 : ∀ t : Fin cfg0.N, atLast (grid0.coords t) → cfg0.idle 3 (grid0.coords t) = false := by decide +kernel

/-! ## The memrefs the body is called with -/

/-- One staging buffer of the output window, through which its contents are stated. -/
abbrev VO : View sig .tc .vmem S1x2048x1 .f32 := (Memref.whole cc0_stg3_0 : Memref sig .tc .vmem S1x2048x1 .f32).view
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)
/-- The accumulator: a whole scoped buffer of the call's own, carried from point to point. -/
abbrev accM : Memref sig .tc .vmem S2048x1 .f32 := Memref.whole cc0_scratch0
abbrev VS : View sig .tc .vmem S2048x1 .f32 := accM.view

/-- The class invariant with the accumulator split off as a memref owned at some contents; every other scoped
    buffer that is no staging buffer of this call stays unopened. -/
theorem PhiA0_eq (c : Dev nD) :
    (Pipeline.ΦA spec0 c : sProp 𝕄)
      = iprop(iprop((∃ d, owns (c : Thread nD τ) accM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, accM, owns_whole]; try rfl

end Cert.Kernel.Reg0

end
-- ==== Proof.WReg0RunA.lean ====
import proofs.«176346_j20375324852317_2_alg».proof.Proof.WReg0Runs
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- COLUMN BLOCK 0 (the accumulator is reset, then added to; nothing is stored into the output). The pieces the
    body's stores leave in the accumulator (last first), WITH the proof that on whole memrefs — the three inputs at
    contents `x0 x1 x2`, the output's buffer at contents `xo` handed back untouched, the accumulator at anything —
    the body runs to the continuation holding the inputs as they were, the output's buffer as it was and the
    accumulator with its pieces written. The pieces are what the symbolic run finds. -/
noncomputable def runFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i)
    (x0 x1 x2 : Vec F S2048x512 .f32) :
    Σ' (LO : List (View.Piece (Elt F) S1x2048x1 .f32)), { LS : List (View.Piece (Elt F) S2048x1 .f32) //
      ∀ (xo : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__diag_kernel i arg2 harg2 arg3 harg3 arg4 harg4 arg5 harg5 arg6 harg6) K } := by
  refine ⟨[], ?_, fun xo E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg0

end
-- ==== Proof.WReg0RunB.lean ====
import proofs.«176346_j20375324852317_2_alg».proof.Proof.WReg0RunA
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- COLUMN BLOCKS 1 AND 2 (the accumulator is added to; nothing is stored into the output). As the first case's run,
    the accumulator now at the contents `xs` the point before left. -/
noncomputable def runMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i)
    (x0 x1 x2 : Vec F S2048x512 .f32) (xs : Vec F S2048x1 .f32) :
    Σ' (LO : List (View.Piece (Elt F) S1x2048x1 .f32)), { LS : List (View.Piece (Elt F) S2048x1 .f32) //
      ∀ (xo : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__diag_kernel i arg2 harg2 arg3 harg3 arg4 harg4 arg5 harg5 arg6 harg6) K } := by
  refine ⟨[], ?_, fun xo E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg0

end
-- ==== Proof.WReg0RunC.lean ====
import proofs.«176346_j20375324852317_2_alg».proof.Proof.WReg0RunB
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- COLUMN BLOCK 3 (the accumulator is added to, then scaled and stored into the output block). The pieces the body's
    stores leave in the output's buffer and in the accumulator (last first), WITH the proof that on whole memrefs —
    the inputs at `x0 x1 x2`, the output's buffer at anything, the accumulator at the contents `xs` the point
    before left — the body runs to the continuation holding the inputs as they were and each of the two with its
    pieces written. -/
noncomputable def runLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i)
    (x0 x1 x2 : Vec F S2048x512 .f32) (xs : Vec F S2048x1 .f32) :
    Σ' (LO : List (View.Piece (Elt F) S1x2048x1 .f32)), { LS : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__diag_kernel i arg2 harg2 arg3 harg3 arg4 harg4 arg5 harg5 arg6 harg6) K } := by
  refine ⟨?_, ?_, fun E K => ?run⟩
  case run =>
    simp only [cc0__diag_kernel_eq_skeleton]; unfold cc0__diag_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Reg0

end
-- ==== Proof.WReg0Frame.lean ====
import proofs.«176346_j20375324852317_2_alg».proof.Proof.WReg0RunC
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what each case leaves, the accumulation point by point, the proof data, the body obligation -/

/-! ## What each case leaves in the output's buffer and in the accumulator -/

/-- Column block 0 stores nothing into the output: no pieces (a placeholder nothing consults: the window is idle there
    and not written back). -/
def outFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) : Vec F S1x2048x1 .f32 :=
  VO.read (Elt F) (VO.writes (Elt F) VO.junk (runFirst c i arg2 harg2 arg3 harg3 arg4 harg4 arg5 harg5 arg6 harg6 hc0 hc1 x0 x1 x2).1)

/-- Its pieces for the accumulator (the reset, then the sum) cover it. -/
theorem accCoverFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) (y : S2048x1.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S2048x1.size (by sl_kernel_rfl) y

/-- What column block 0 leaves in the accumulator: its pieces read back. -/
def accFirst (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) : Vec F S2048x1 .f32 :=
  VS.read (Elt F) (VS.writes (Elt F) VS.junk (runFirst c i arg2 harg2 arg3 harg3 arg4 harg4 arg5 harg5 arg6 harg6 hc0 hc1 x0 x1 x2).2.1)

/-- Column blocks 1 and 2 store nothing into the output either. -/
def outMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) : Vec F S1x2048x1 .f32 :=
  VO.read (Elt F) (VO.writes (Elt F) VO.junk (runMid c i arg2 harg2 arg3 harg3 arg4 harg4 arg5 harg5 arg6 harg6 hc0 hc1 x0 x1 x2 xs).1)

theorem accCoverMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) (y : S2048x1.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S2048x1.size (by sl_kernel_rfl) y

def accMid (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) : Vec F S2048x1 .f32 :=
  VS.read (Elt F) (VS.writes (Elt F) VS.junk (runMid c i arg2 harg2 arg3 harg3 arg4 harg4 arg5 harg5 arg6 harg6 hc0 hc1 x0 x1 x2 xs).2.1)

/-- Column block 3's one store covers the output block. -/
theorem outCoverLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) (y : S1x2048x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1x2048x1.size (by sl_kernel_rfl) y

/-- What column block 3 leaves in the output's buffer. -/
def outLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) : Vec F S1x2048x1 .f32 :=
  VO.read (Elt F) (VO.writes (Elt F) VO.junk (runLast c i arg2 harg2 arg3 harg3 arg4 harg4 arg5 harg5 arg6 harg6 hc0 hc1 x0 x1 x2 xs).1)

theorem accCoverLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) (y : S2048x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S2048x1.size (by sl_kernel_rfl) y

def accLast (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) : Vec F S2048x1 .f32 :=
  VS.read (Elt F) (VS.writes (Elt F) VS.junk (runLast c i arg2 harg2 arg3 harg3 arg4 harg4 arg5 harg5 arg6 harg6 hc0 hc1 x0 x1 x2 xs).2.1)

/-! ## The accumulation, point by point -/

theorem notLast_of_first (t : Fin cfg0.N) (h0 : t.val % 4 = 0) : ¬atLast (grid0.coords t) :=
  fun h => by have h3 := (atLast_iff t).mp h; omega

/-- What a point of column block 0 leaves: (output buffer, accumulator), from the point's input blocks. -/
def ptFirst (c : Dev nD) (t : Fin cfg0.N) (h0 : t.val % 4 = 0) : Vec F S1x2048x1 .f32 × Vec F S2048x1 .f32 :=
  (outFirst c (grid0.coords t) (ms0 t) (hs0 t) (ms1 t) (hs1 t) (ms2 t) (hs2 t) (ms3 t) (hs3 t) accM (Memref.isWhole_whole _) ((atFirst_iff t).mpr h0) (notLast_of_first t h0) (iblk0 V c 0 t) (iblk0 V c 1 t) (iblk0 V c 2 t),
   accFirst c (grid0.coords t) (ms0 t) (hs0 t) (ms1 t) (hs1 t) (ms2 t) (hs2 t) (ms3 t) (hs3 t) accM (Memref.isWhole_whole _) ((atFirst_iff t).mpr h0) (notLast_of_first t h0) (iblk0 V c 0 t) (iblk0 V c 1 t) (iblk0 V c 2 t))

/-- What a point of column block 1 or 2 leaves, over the accumulator `xs` the point before left. -/
def ptMid (c : Dev nD) (t : Fin cfg0.N) (h0 : ¬t.val % 4 = 0) (h1 : ¬t.val % 4 = 3) (xs : Vec F S2048x1 .f32) : Vec F S1x2048x1 .f32 × Vec F S2048x1 .f32 :=
  (outMid c (grid0.coords t) (ms0 t) (hs0 t) (ms1 t) (hs1 t) (ms2 t) (hs2 t) (ms3 t) (hs3 t) accM (Memref.isWhole_whole _) (fun h => h0 ((atFirst_iff t).mp h)) (fun h => h1 ((atLast_iff t).mp h)) (iblk0 V c 0 t) (iblk0 V c 1 t) (iblk0 V c 2 t) xs,
   accMid c (grid0.coords t) (ms0 t) (hs0 t) (ms1 t) (hs1 t) (ms2 t) (hs2 t) (ms3 t) (hs3 t) accM (Memref.isWhole_whole _) (fun h => h0 ((atFirst_iff t).mp h)) (fun h => h1 ((atLast_iff t).mp h)) (iblk0 V c 0 t) (iblk0 V c 1 t) (iblk0 V c 2 t) xs)

/-- What a point of column block 3 leaves, over the accumulator `xs` the point before left. -/
def ptLast (c : Dev nD) (t : Fin cfg0.N) (h0 : ¬t.val % 4 = 0) (h1 : t.val % 4 = 3) (xs : Vec F S2048x1 .f32) : Vec F S1x2048x1 .f32 × Vec F S2048x1 .f32 :=
  (outLast c (grid0.coords t) (ms0 t) (hs0 t) (ms1 t) (hs1 t) (ms2 t) (hs2 t) (ms3 t) (hs3 t) accM (Memref.isWhole_whole _) (fun h => h0 ((atFirst_iff t).mp h)) ((atLast_iff t).mpr h1) (iblk0 V c 0 t) (iblk0 V c 1 t) (iblk0 V c 2 t) xs,
   accLast c (grid0.coords t) (ms0 t) (hs0 t) (ms1 t) (hs1 t) (ms2 t) (hs2 t) (ms3 t) (hs3 t) accM (Memref.isWhole_whole _) (fun h => h0 ((atFirst_iff t).mp h)) ((atLast_iff t).mpr h1) (iblk0 V c 0 t) (iblk0 V c 1 t) (iblk0 V c 2 t) xs)

/-- THE ACCUMULATION: what the output's buffer and the accumulator hold after the body at position `n`: the case the
    column block selects, run at the point's input blocks, over the accumulator the point before left. -/
def outsAt0 (c : Dev nD) : (n : ℕ) → n < cfg0.N → Vec F S1x2048x1 .f32 × Vec F S2048x1 .f32
  | 0, hn => ptFirst V c ⟨0, hn⟩ (Nat.zero_mod _)
  | n + 1, hn =>
    if h0 : (n + 1) % 4 = 0 then ptFirst V c ⟨n + 1, hn⟩ h0
    else if h1 : (n + 1) % 4 = 3 then ptLast V c ⟨n + 1, hn⟩ h0 h1 (outsAt0 c n (Nat.lt_of_succ_lt hn)).2
    else ptMid V c ⟨n + 1, hn⟩ h0 h1 (outsAt0 c n (Nat.lt_of_succ_lt hn)).2

theorem outsAt0_first (c : Dev nD) (t : Fin cfg0.N) (h0 : t.val % 4 = 0) :
    outsAt0 V c t.val t.isLt = ptFirst V c t h0 := by
  obtain ⟨n, hn⟩ := t
  cases n with
  | zero => exact rfl
  | succ n => exact (dif_pos h0).trans rfl

theorem outsAt0_mid (c : Dev nD) (t : Fin cfg0.N) (h0 : ¬t.val % 4 = 0) (h1 : ¬t.val % 4 = 3) :
    outsAt0 V c t.val t.isLt = ptMid V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_last (c : Dev nD) (t : Fin cfg0.N) (h0 : ¬t.val % 4 = 0) (h1 : t.val % 4 = 3) :
    outsAt0 V c t.val t.isLt = ptLast V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region invariant -/

/-- Before position `n`: at the first point the class invariant (the accumulator at anything); afterwards the
    accumulator at what the point before left in it, the other scoped buffers unopened, the generator register at
    some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of this call on core `c`: the arrays as the region finds them (`V`); after the body at point
    `t` each input's buffer at its block and the output's at the accumulation's first component; the invariant
    `PhiS`; nothing owed; full shares. -/
def dat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk0 V c 0 t := by dsimp only [dat]
theorem after1 (c : Dev nD) (t : Fin cfg0.N) : (dat V c).after 1 t = iblk0 V c 1 t := by dsimp only [dat]
theorem after2 (c : Dev nD) (t : Fin cfg0.N) : (dat V c).after 2 t = iblk0 V c 2 t := by dsimp only [dat]
theorem after3 (c : Dev nD) (t : Fin cfg0.N) : (dat V c).after 3 t = (outsAt0 V c t.val t.isLt).1 := by dsimp only [dat]

theorem before0 (c : Dev nD) (t : Fin cfg0.N) (d) : (dat V c).before 0 t d = iblk0 V c 0 t :=
  before_in0 V (dat V c) (A_eq V c 0) (after0 V c) t d
theorem before1 (c : Dev nD) (t : Fin cfg0.N) (d) : (dat V c).before 1 t d = iblk0 V c 1 t :=
  before_in1 V (dat V c) (A_eq V c 1) (after1 V c) t d
theorem before2 (c : Dev nD) (t : Fin cfg0.N) (d) : (dat V c).before 2 t d = iblk0 V c 2 t :=
  before_in2 V (dat V c) (A_eq V c 2) (after2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the column block says which case the point is in;
    the invariant hands the body the accumulator at what the point before left (at anything at the very first point)
    and takes it back at this point's contents; away from column block 3 the output's buffer goes back untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  have hN : t.val < 16 := lt_of_lt_of_eq t.isLt (show cfg0.N = 16 from N_0)
  by_cases h0 : t.val % 4 = 0
  · have hc1 : ¬atLast (grid0.coords t) := notLast_of_first t h0
    rw [Dat.leavesExact_idle (dat V c) 3 t (idle3 t hc1) (noFlush3 t hc1)]
    rw [outsAt0_first V c t h0]
    unfold ptFirst accFirst; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runFirst c (grid0.coords t) _ _ _ _ _ _ _ _ _ _ ((atFirst_iff t).mpr h0) hc1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬atFirst (grid0.coords t) := fun h => h0 ((atFirst_iff t).mp h)
    by_cases h1 : t.val % 4 = 3
    · have hc1 : atLast (grid0.coords t) := (atLast_iff t).mpr h1
      rw [show (dat V c).leavesExact 3 t = owns (c : Thread nD τ) (ms3 t) fullShare ((dat V c).after 3 t) from by
        unfold Dat.leavesExact; rw [live3 t hc1], after3]
      rw [outsAt0_last V c t h0 h1]
      unfold ptLast outLast accLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runLast c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · have hc1 : ¬atLast (grid0.coords t) := fun h => h1 ((atLast_iff t).mp h)
      rw [Dat.leavesExact_idle (dat V c) 3 t (idle3 t hc1) (noFlush3 t hc1)]
      rw [outsAt0_mid V c t h0 h1]
      unfold ptMid accMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runMid c (grid0.coords t) _ _ _ _ _ _ _ _ _ _ hc0 hc1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's named contents
    are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 16 := N_0; omega)

end Cert.Kernel.Reg0

end
-- ==== Proof.WReg1Runs.lean ====
/- The second pallas_call (the main kernel: grid 4 x 2 x 16, a 2048 x 1024 accumulator carried along the last grid
   axis): what its three control cases share. The windows' blocks read off the arrays as the region finds them, the
   two branch conditions in closed form over the grid, where the output window is idle, the staging and scratch
   memrefs, and the region invariant spelled buffer by buffer. Generic in the float instance. -/
import proofs.«176346_j20375324852317_2_alg».proof.Proof.Gen.Kernel.Launch
import proofs.«176346_j20375324852317_2_alg».proof.Proof.Gen.Kernel.Skeleton
import proofs.«176346_j20375324852317_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the region-entry contents and whose body leaves the block in place: unfetched, the block
    index has not moved. The window is uncut and never idle. -/
theorem before0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the region-entry contents and whose body leaves the block in place: unfetched, the block
    index has not moved. The window is uncut and never idle. -/
theorem before1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the region-entry contents and whose body leaves the block in place: unfetched, the block
    index has not moved. The window is uncut and never idle. -/
theorem before2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the region-entry contents and whose body leaves the block in place: unfetched, the block
    index has not moved. The window is uncut and never idle. -/
theorem before3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the region-entry contents and whose body leaves the block in place: unfetched, the block
    index has not moved. The window is uncut and never idle. -/
theorem before4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is the region-entry contents and whose body leaves the block in place: unfetched, the block
    index has not moved. The window is uncut and never idle. -/
theorem before5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The accumulator is reset where the last grid coordinate is 0 (the first `scf.if`, its scalar chain substituted). -/
abbrev condFirst (i : grid1.Coords) : Prop := (Scalar.cmpi .ne (Scalar.extui (Scalar.cmpi .eq (BitVec.ofNat 32 (i 2).val) 0#32)) 0#32) = 1#1
/-- That is at the points ≡ 0 (mod 16): decided over the 128 points. -/
theorem hcondFirst : ∀ t : Fin cfg1.N, condFirst (grid1.coords t) ↔ t.val % 16 = 0 :=
  (by decide +kernel : ∀ t : Fin grid1.N, condFirst (grid1.coords t) ↔ t.val % 16 = 0)

/-- The output block is computed and stored where the last grid coordinate is 15 (the second `scf.if`). -/
abbrev condLast (i : grid1.Coords) : Prop := k1_cond2 i = 1#1
/-- That is at the points ≡ 15 (mod 16). -/
theorem hcondLast : ∀ t : Fin cfg1.N, condLast (grid1.coords t) ↔ t.val % 16 = 15 :=
  (by decide +kernel : ∀ t : Fin grid1.N, condLast (grid1.coords t) ↔ t.val % 16 = 15)

/-! ## Where the output window is idle -/

/-- Away from the last step of the accumulation the output window is idle: the body stores nothing into it, -/
theorem idleAt6 : ∀ t : Fin cfg1.N, ¬condLast (grid1.coords t) → cfg1.idle 6 (grid1.coords t) = true := by decide +kernel
/-- and the pipeline does not write its block back. -/
theorem noFlush6 : ∀ t : Fin cfg1.N, ¬condLast (grid1.coords t) → (cfg1.win 6).flush t = false := by decide +kernel
/-- At the last step it is live. -/
theorem liveAt6 : ∀ t : Fin cfg1.N, condLast (grid1.coords t) → cfg1.idle 6 (grid1.coords t) = false := by decide +kernel

/-! ## The memrefs the body is called with -/

/-- One staging buffer of the output window, through which its contents are stated (the choice does not matter). -/
abbrev VO : View sig .tc .vmem S2048x1024 .f32 := (Memref.whole cc1_stg6_0 : Memref sig .tc .vmem S2048x1024 .f32).view
/-- Window 0's current staging memref at point `t`, as the pipeline passes it, and its wholeness. -/
abbrev ms0 (t : Fin cfg1.N) : Memref sig .tc .vmem S2048x128 .f32 := win1_0.stage (cfg1.slots t 0)
abbrev hs0 (t : Fin cfg1.N) : (ms0 t).IsWhole := hstage1_0 ((cfg1.slots t 0).cast nbuf1_0)
/-- Window 1's current staging memref at point `t`, as the pipeline passes it, and its wholeness. -/
abbrev ms1 (t : Fin cfg1.N) : Memref sig .tc .vmem S2048x128 .f32 := win1_1.stage (cfg1.slots t 1)
abbrev hs1 (t : Fin cfg1.N) : (ms1 t).IsWhole := hstage1_1 ((cfg1.slots t 1).cast nbuf1_1)
/-- Window 2's current staging memref at point `t`, as the pipeline passes it, and its wholeness. -/
abbrev ms2 (t : Fin cfg1.N) : Memref sig .tc .vmem S128x1024 .f32 := win1_2.stage (cfg1.slots t 2)
abbrev hs2 (t : Fin cfg1.N) : (ms2 t).IsWhole := hstage1_2 ((cfg1.slots t 2).cast nbuf1_2)
/-- Window 3's current staging memref at point `t`, as the pipeline passes it, and its wholeness. -/
abbrev ms3 (t : Fin cfg1.N) : Memref sig .tc .vmem S128x1024 .f32 := win1_3.stage (cfg1.slots t 3)
abbrev hs3 (t : Fin cfg1.N) : (ms3 t).IsWhole := hstage1_3 ((cfg1.slots t 3).cast nbuf1_3)
/-- Window 4's current staging memref at point `t`, as the pipeline passes it, and its wholeness. -/
abbrev ms4 (t : Fin cfg1.N) : Memref sig .tc .vmem S4x1024 .f32 := win1_4.stage (cfg1.slots t 4)
abbrev hs4 (t : Fin cfg1.N) : (ms4 t).IsWhole := hstage1_4 ((cfg1.slots t 4).cast nbuf1_4)
/-- Window 5's current staging memref at point `t`, as the pipeline passes it, and its wholeness. -/
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
/-- Window 6's current staging memref at point `t`, as the pipeline passes it, and its wholeness. -/
abbrev ms6 (t : Fin cfg1.N) : Memref sig .tc .vmem S2048x1024 .f32 := win1_6.stage (cfg1.slots t 6)
abbrev hs6 (t : Fin cfg1.N) : (ms6 t).IsWhole := hstage1_6 ((cfg1.slots t 6).cast nbuf1_6)
/-- The accumulator: a whole scoped buffer of the kernel's own, passed beside the windows. -/
abbrev scM : Memref sig .tc .vmem S2048x1024 .f32 := Memref.whole cc1_scratch0
/-- The same as a view: what the accumulator holds is stated through it. -/
abbrev VS : View sig .tc .vmem S2048x1024 .f32 := scM.view

/-! ## The region invariant, buffer by buffer -/

/-- The scoped buffers of the core that this region never touches (the first pallas_call's staging buffers and its
    scratch), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant of the region: the untouched scoped buffers, the accumulator at some contents, and the
    generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM fullShare d)) ∗ (∃ r, prngReg c r)) := by
  unfold Pipeline.ΦA; rw [scopedRest1_eq]; simp only [scM, owns_whole]; try rfl

end Cert.Kernel.Reg1

end
-- ==== Proof.WReg1RunFirst.lean ====
/- The main kernel's body at a point whose last grid coordinate is 0: the accumulator is reset to zero and the two
   partial products of this step are added to it; the output block is not touched. -/
import proofs.«176346_j20375324852317_2_alg».proof.Proof.WReg1Runs
set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the output's staging memref (`L6`) and in the accumulator (`LS`), last
    store first, with the body's triple on whole memrefs: the inputs' buffers are handed back as they were, and the
    accumulator and (where it is stored) the output's buffer with those pieces written. The pieces are found by
    running the body symbolically; each `scf.if` is decided by the case's hypotheses. -/
noncomputable def runFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) :
    Σ' (L6 : List (View.Piece (Elt F) S2048x1024 .f32)), { LS : List (View.Piece (Elt F) S2048x1024 .f32) //
      ∀ (xi6 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨[], ?_, fun xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Reg1

end
-- ==== Proof.WReg1RunMid.lean ====
/- The main kernel's body at a point whose last grid coordinate is 1..14: the two partial products of this step are
   added to the accumulator the step before left; the output block is not touched. -/
import proofs.«176346_j20375324852317_2_alg».proof.Proof.WReg1RunFirst
set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the output's staging memref (`L6`) and in the accumulator (`LS`), last
    store first, with the body's triple on whole memrefs: the inputs' buffers are handed back as they were, and the
    accumulator and (where it is stored) the output's buffer with those pieces written. The pieces are found by
    running the body symbolically; each `scf.if` is decided by the case's hypotheses. -/
noncomputable def runMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    Σ' (L6 : List (View.Piece (Elt F) S2048x1024 .f32)), { LS : List (View.Piece (Elt F) S2048x1024 .f32) //
      ∀ (xi6 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨[], ?_, fun xi6 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Reg1

end
-- ==== Proof.WReg1RunLast.lean ====
/- The main kernel's body at a point whose last grid coordinate is 15: the last two partial products are added to
   the accumulator, and the output block is stored: the accumulator plus the tiled table block plus the bias row,
   through tanh. -/
import proofs.«176346_j20375324852317_2_alg».proof.Proof.WReg1RunMid
set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The pieces the body's stores leave in the output's staging memref (`L6`) and in the accumulator (`LS`), last
    store first, with the body's triple on whole memrefs: the inputs' buffers are handed back as they were, and the
    accumulator and (where it is stored) the output's buffer with those pieces written. The pieces are found by
    running the body symbolically; each `scf.if` is decided by the case's hypotheses. -/
noncomputable def runLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    Σ' (L6 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.Kernel.Reg1

end
-- ==== Proof.WReg1Frame.lean ====
/- The second pallas_call's proof data: what each control case leaves in the output's staging buffer and in the
   accumulator (the found pieces read back), the same point by point along the grid, the invariant that carries the
   accumulator's contents from one point to the next, and the data the pipeline's rules take. Generic in the float
   instance. -/
import proofs.«176346_j20375324852317_2_alg».proof.Proof.WReg1RunLast
set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a point with last coordinate 0 nothing is stored into the output's buffer (the window is idle there and not
    written back): a placeholder nothing consults. -/
def outFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) : Vec F S2048x1024 .f32 :=
  VO.read (Elt F) (VO.writes (Elt F) VO.junk (runFirst c i arg3 harg3 arg4 harg4 arg5 harg5 arg6 harg6 arg7 harg7 arg8 harg8 arg9 harg9 arg10 harg10 hc0 hc1 x0 x1 x2 x3 x4 x5).1)

/-- Every store into the accumulator is of the whole buffer, so the pieces cover it. -/
theorem scoverFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (y : S2048x1024.Idx) :
    ∃ pc ∈ (runFirst c i arg3 harg3 arg4 harg4 arg5 harg5 arg6 harg6 arg7 harg7 arg8 harg8 arg9 harg9 arg10 harg10 hc0 hc1 x0 x1 x2 x3 x4 x5).2.1, y ∈ pc.1.set :=
  View.cover_of_tiledL (runFirst c i arg3 harg3 arg4 harg4 arg5 harg5 arg6 harg6 arg7 harg7 arg8 harg8 arg9 harg9 arg10 harg10 hc0 hc1 x0 x1 x2 x3 x4 x5).2.1 S2048x1024.size (by sl_kernel_rfl) y

/-- What such a point leaves in the accumulator: its pieces read back. -/
def soutFirst (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) : Vec F S2048x1024 .f32 :=
  VS.read (Elt F) (VS.writes (Elt F) VS.junk (runFirst c i arg3 harg3 arg4 harg4 arg5 harg5 arg6 harg6 arg7 harg7 arg8 harg8 arg9 harg9 arg10 harg10 hc0 hc1 x0 x1 x2 x3 x4 x5).2.1)

/-- At a point with last coordinate 1..14 nothing is stored into the output's buffer either: a placeholder. -/
def outMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VO.read (Elt F) (VO.writes (Elt F) VO.junk (runMid c i arg3 harg3 arg4 harg4 arg5 harg5 arg6 harg6 arg7 harg7 arg8 harg8 arg9 harg9 arg10 harg10 hc0 hc1 x0 x1 x2 x3 x4 x5 xs0).1)

/-- Every store into the accumulator is of the whole buffer, so the pieces cover it. -/
theorem scoverMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) (y : S2048x1024.Idx) :
    ∃ pc ∈ (runMid c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (runMid c i arg3 harg3 arg4 harg4 arg5 harg5 arg6 harg6 arg7 harg7 arg8 harg8 arg9 harg9 arg10 harg10 hc0 hc1 x0 x1 x2 x3 x4 x5 xs0).2.1 S2048x1024.size (by sl_kernel_rfl) y

/-- What such a point leaves in the accumulator, over what the point before left (`xs0`). -/
def soutMid (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VS.read (Elt F) (VS.writes (Elt F) VS.junk (runMid c i arg3 harg3 arg4 harg4 arg5 harg5 arg6 harg6 arg7 harg7 arg8 harg8 arg9 harg9 arg10 harg10 hc0 hc1 x0 x1 x2 x3 x4 x5 xs0).2.1)

/-- What a point with last coordinate 15 leaves in the output's staging buffer: its one piece read back. -/
def outLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VO.read (Elt F) (VO.writes (Elt F) VO.junk (runLast c i arg3 harg3 arg4 harg4 arg5 harg5 arg6 harg6 arg7 harg7 arg8 harg8 arg9 harg9 arg10 harg10 hc0 hc1 x0 x1 x2 x3 x4 x5 xs0).1)

/-- The one store into the output's buffer is of the whole block, so its piece covers the block. -/
theorem coverLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs0).1 S2048x1024.size (by sl_kernel_rfl) y

/-- Every store into the accumulator is of the whole buffer, so the pieces cover it. -/
theorem scoverLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs0).2.1 S2048x1024.size (by sl_kernel_rfl) y

/-- What it leaves in the accumulator. -/
def soutLast (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) : Vec F S2048x1024 .f32 :=
  VS.read (Elt F) (VS.writes (Elt F) VS.junk (runLast c i arg3 harg3 arg4 harg4 arg5 harg5 arg6 harg6 arg7 harg7 arg8 harg8 arg9 harg9 arg10 harg10 hc0 hc1 x0 x1 x2 x3 x4 x5 xs0).2.1)

/-! ## Point by point -/

/-- What the output's staging buffer and the accumulator hold after the body at position `n` (the output first):
    the case the closed forms select, run at the point's memrefs and input blocks, over the accumulator the point
    before left. -/
def outsAt1 (c : Dev nD) : (n : ℕ) → n < cfg1.N → Vec F S2048x1024 .f32 × Vec F S2048x1024 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcondFirst ⟨0, hn⟩).mpr (Nat.zero_mod _)) (fun h => (fun h => by (try dsimp only at h); omega) ((hcondLast ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcondFirst ⟨n + 1, hn⟩).mpr h0) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcondFirst ⟨n + 1, hn⟩).mpr h0) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) ((hcondLast ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) ((hcondLast ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcondFirst ⟨n + 1, hn⟩).mp h)) (fun h => h1 ((hcondLast ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a point with last coordinate 0. -/
theorem outsAt1_First (c : Dev nD) (t : Fin cfg1.N) (h0 : t.val % 16 = 0) (h1 : ¬t.val % 16 = 15) :
    outsAt1 V c t.val t.isLt = (outFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk1 V c 0 t) (iblk1 V c 1 t) (iblk1 V c 2 t) (iblk1 V c 3 t) (iblk1 V c 4 t) (iblk1 V c 5 t), soutFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a point with last coordinate 1..14: over what the point before left. -/
theorem outsAt1_Mid (c : Dev nD) (t : Fin cfg1.N) (h0 : ¬t.val % 16 = 0) (h1 : ¬t.val % 16 = 15) :
    outsAt1 V c t.val t.isLt = (outMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, soutMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with last coordinate 15: over what the point before left. -/
theorem outsAt1_Last (c : Dev nD) (t : Fin cfg1.N) (h0 : ¬t.val % 16 = 0) (h1 : t.val % 16 = 15) :
    outsAt1 V c t.val t.isLt = (outLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, soutLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: the untouched scoped buffers, the generator register, and the
    accumulator — at anything before the first point, afterwards at what the point before left in it. -/
def PhiS (c : Dev nD) : (n : ℕ) → n ≤ cfg1.N → sProp 𝕄
  | 0, _ => iprop(iprop(others c ∗ (∃ d, owns (c : Thread nD τ) scM fullShare d)) ∗ (∃ r, prngReg c r))
  | n + 1, hn => iprop(iprop(others c ∗ owns (c : Thread nD τ) scM fullShare ((outsAt1 V c n hn).2)) ∗ (∃ r, prngReg c r))

theorem PhiS_zero (c : Dev nD) (n : ℕ) (h : n ≤ cfg1.N) (hz : n = 0) :
    PhiS V c n h = iprop(iprop(others c ∗ (∃ d, owns (c : Thread nD τ) scM fullShare d)) ∗ (∃ r, prngReg c r)) := by
  subst hz; rfl

theorem PhiS_succ (c : Dev nD) (n : ℕ) (hn : n < cfg1.N) :
    PhiS V c (n + 1) hn = iprop(iprop(others c ∗ owns (c : Thread nD τ) scM fullShare ((outsAt1 V c n hn).2)) ∗ (∃ r, prngReg c r)) := rfl

theorem PhiS_pos (c : Dev nD) (n : ℕ) (h : n ≤ cfg1.N) (hz : n ≠ 0) :
    PhiS V c n h = iprop(iprop(others c ∗ owns (c : Thread nD τ) scM fullShare ((outsAt1 V c (n - 1) (by omega)).2)) ∗ (∃ r, prngReg c r)) := by
  cases n with
  | zero => exact absurd rfl hz
  | succ n => rfl

/-! ## The pipeline's proof data -/

/-- The proof data of this pipeline on core `c`: the arrays as the region finds them; after the body at a point each
    input's buffer at its block and the output's at `outsAt1`'s first component; the invariant above; nothing owed;
    full shares. -/
def dat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk1 V c 0 t := by dsimp only [dat]
theorem after1 (c : Dev nD) (t : Fin cfg1.N) : (dat V c).after 1 t = iblk1 V c 1 t := by dsimp only [dat]
theorem after2 (c : Dev nD) (t : Fin cfg1.N) : (dat V c).after 2 t = iblk1 V c 2 t := by dsimp only [dat]
theorem after3 (c : Dev nD) (t : Fin cfg1.N) : (dat V c).after 3 t = iblk1 V c 3 t := by dsimp only [dat]
theorem after4 (c : Dev nD) (t : Fin cfg1.N) : (dat V c).after 4 t = iblk1 V c 4 t := by dsimp only [dat]
theorem after5 (c : Dev nD) (t : Fin cfg1.N) : (dat V c).after 5 t = iblk1 V c 5 t := by dsimp only [dat]
theorem after6 (c : Dev nD) (t : Fin cfg1.N) : (dat V c).after 6 t = (outsAt1 V c t.val t.isLt).1 := by dsimp only [dat]

/-- Input window 0's current staging buffer holds its block at every point. -/
theorem before0 (c : Dev nD) (t : Fin cfg1.N) (d) : (dat V c).before 0 t d = iblk1 V c 0 t :=
  before0_of V (dat V c) (A_eq V c 0) (after0 V c) t d
/-- It is live everywhere, so the body hands it back at what the proof data says: its block. -/
theorem leaves0 (c : Dev nD) (t : Fin cfg1.N) :
    (dat V c).leavesExact 0 t = owns (c : Thread nD τ) (ms0 t) fullShare (iblk1 V c 0 t) :=
  (show (dat V c).leavesExact 0 t = owns (c : Thread nD τ) (ms0 t) fullShare ((dat V c).after 0 t) from by
    unfold Dat.leavesExact; rw [show cfg1.idle 0 (cfg1.grid.coords t) = false from rfl]).trans (by rw [after0])
/-- Input window 1's current staging buffer holds its block at every point. -/
theorem before1 (c : Dev nD) (t : Fin cfg1.N) (d) : (dat V c).before 1 t d = iblk1 V c 1 t :=
  before1_of V (dat V c) (A_eq V c 1) (after1 V c) t d
/-- It is live everywhere, so the body hands it back at what the proof data says: its block. -/
theorem leaves1 (c : Dev nD) (t : Fin cfg1.N) :
    (dat V c).leavesExact 1 t = owns (c : Thread nD τ) (ms1 t) fullShare (iblk1 V c 1 t) :=
  (show (dat V c).leavesExact 1 t = owns (c : Thread nD τ) (ms1 t) fullShare ((dat V c).after 1 t) from by
    unfold Dat.leavesExact; rw [show cfg1.idle 1 (cfg1.grid.coords t) = false from rfl]).trans (by rw [after1])
/-- Input window 2's current staging buffer holds its block at every point. -/
theorem before2 (c : Dev nD) (t : Fin cfg1.N) (d) : (dat V c).before 2 t d = iblk1 V c 2 t :=
  before2_of V (dat V c) (A_eq V c 2) (after2 V c) t d
/-- It is live everywhere, so the body hands it back at what the proof data says: its block. -/
theorem leaves2 (c : Dev nD) (t : Fin cfg1.N) :
    (dat V c).leavesExact 2 t = owns (c : Thread nD τ) (ms2 t) fullShare (iblk1 V c 2 t) :=
  (show (dat V c).leavesExact 2 t = owns (c : Thread nD τ) (ms2 t) fullShare ((dat V c).after 2 t) from by
    unfold Dat.leavesExact; rw [show cfg1.idle 2 (cfg1.grid.coords t) = false from rfl]).trans (by rw [after2])
/-- Input window 3's current staging buffer holds its block at every point. -/
theorem before3 (c : Dev nD) (t : Fin cfg1.N) (d) : (dat V c).before 3 t d = iblk1 V c 3 t :=
  before3_of V (dat V c) (A_eq V c 3) (after3 V c) t d
/-- It is live everywhere, so the body hands it back at what the proof data says: its block. -/
theorem leaves3 (c : Dev nD) (t : Fin cfg1.N) :
    (dat V c).leavesExact 3 t = owns (c : Thread nD τ) (ms3 t) fullShare (iblk1 V c 3 t) :=
  (show (dat V c).leavesExact 3 t = owns (c : Thread nD τ) (ms3 t) fullShare ((dat V c).after 3 t) from by
    unfold Dat.leavesExact; rw [show cfg1.idle 3 (cfg1.grid.coords t) = false from rfl]).trans (by rw [after3])
/-- Input window 4's current staging buffer holds its block at every point. -/
theorem before4 (c : Dev nD) (t : Fin cfg1.N) (d) : (dat V c).before 4 t d = iblk1 V c 4 t :=
  before4_of V (dat V c) (A_eq V c 4) (after4 V c) t d
/-- It is live everywhere, so the body hands it back at what the proof data says: its block. -/
theorem leaves4 (c : Dev nD) (t : Fin cfg1.N) :
    (dat V c).leavesExact 4 t = owns (c : Thread nD τ) (ms4 t) fullShare (iblk1 V c 4 t) :=
  (show (dat V c).leavesExact 4 t = owns (c : Thread nD τ) (ms4 t) fullShare ((dat V c).after 4 t) from by
    unfold Dat.leavesExact; rw [show cfg1.idle 4 (cfg1.grid.coords t) = false from rfl]).trans (by rw [after4])
/-- Input window 5's current staging buffer holds its block at every point. -/
theorem before5 (c : Dev nD) (t : Fin cfg1.N) (d) : (dat V c).before 5 t d = iblk1 V c 5 t :=
  before5_of V (dat V c) (A_eq V c 5) (after5 V c) t d
/-- It is live everywhere, so the body hands it back at what the proof data says: its block. -/
theorem leaves5 (c : Dev nD) (t : Fin cfg1.N) :
    (dat V c).leavesExact 5 t = owns (c : Thread nD τ) (ms5 t) fullShare (iblk1 V c 5 t) :=
  (show (dat V c).leavesExact 5 t = owns (c : Thread nD τ) (ms5 t) fullShare ((dat V c).after 5 t) from by
    unfold Dat.leavesExact; rw [show cfg1.idle 5 (cfg1.grid.coords t) = false from rfl]).trans (by rw [after5])

end Cert.Kernel.Reg1

end
-- ==== Proof.WReg1Body.lean ====
/- The second pallas_call's body obligation: at every grid point, from the invariant and the windows' current
   staging buffers at what they then hold, the kernel's body runs to the invariant at the next point and the buffers
   at what the proof data says. The point's case is read off the closed forms of the two branch conditions; each leaf
   is that case's run. Also the invariant's two ends: the class invariant gives it before the first point, and it
   gives the class invariant back after the last. Generic in the float instance. -/
import proofs.«176346_j20375324852317_2_alg».proof.Proof.WReg1Frame
set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point. The inputs' memrefs hold their blocks; the closed forms say which case the point is in;
    the invariant hands the body the accumulator at what the point before left (at anything before the first point)
    and takes it back at this point's contents; the untouched buffers, the generator register and what the core owes
    pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 128 := lt_of_lt_of_eq t.isLt (show cfg1.N = 128 from N_1)
  by_cases h0 : t.val % 16 = 0
  · have h1 : ¬t.val % 16 = 15 := by omega
    rw [Dat.leavesExact_idle (dat V c) 6 t (idleAt6 t (fun h => h1 ((hcondLast t).mp h))) (noFlush6 t (fun h => h1 ((hcondLast t).mp h)))]
    rw [outsAt1_First V c t h0 h1]
    unfold soutFirst; (try dsimp only)
    by_cases hz : t.val = 0
    ·
      rw [PhiS_castSucc V c t, PhiS_zero V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((hcondFirst t).mpr h0) (fun h => h1 ((hcondLast t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [PhiS_castSucc V c t, PhiS_pos V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((hcondFirst t).mpr h0) (fun h => h1 ((hcondLast t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat V c).leavesExact 6 t = owns (c : Thread nD τ) (ms6 t) fullShare ((dat V c).after 6 t) from by
        unfold Dat.leavesExact; rw [liveAt6 t ((hcondLast t).mpr h1)], after6]
      rw [outsAt1_Last V c t h0 h1]
      unfold outLast soutLast; (try dsimp only)
      rw [PhiS_castSucc V c t, PhiS_pos V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((hcondFirst t).mp h)) ((hcondLast t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast c _ _ _ _ _ _ _ _ _ _ _ _ _ _ _ _ _ _ _ _ _ _ _ _ _ _)
    · rw [Dat.leavesExact_idle (dat V c) 6 t (idleAt6 t (fun h => h1 ((hcondLast t).mp h))) (noFlush6 t (fun h => h1 ((hcondLast t).mp h)))]
      rw [outsAt1_Mid V c t h0 h1]
      unfold soutMid; (try dsimp only)
      rw [PhiS_castSucc V c t, PhiS_pos V c _ _ hz]
      iintro ⟨⟨⟨HB, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ (fun h => h0 ((hcondFirst t).mp h)) (fun h => h1 ((hcondLast t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HB HS Hg]
      · isplitl [HB HS]
        · isplitl [HB]; · iexact HB
          unfold owns; iexists _; isplitr
          swap; · iexact HS
          ipureintro; exact View.read_writes_of_cover _ _ _ _ _ (scoverMid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl, PhiA_eq]
  unfold others
  iintro ⟨⟨B0, B1, B2, B3, B4, B5, B6, B7, B8, HS⟩, Hg⟩
  isplitr [Hg]
  · isplitr [HS]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    iexact HS
  iexact Hg

/-- After any point but none the invariant gives the class invariant back: the accumulator's named contents are
    forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold others
  iintro ⟨⟨⟨B0, B1, B2, B3, B4, B5, B6, B7, B8⟩, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.Kernel.Reg1

end
-- ==== Proof.WAsm.lean ====
/-
  The program as a whole, at any float instance: the first kernel, four host operations, the second kernel.

  Between two items every unscoped buffer of a core is held at named contents: the launch contents, then with the first
  kernel's result array at what its write-backs leave, then with the table reshaped, the tall matrix cut into its two
  square halves and the bias made a row, then with the second kernel's result array at what its write-backs leave.  Each
  kernel is entered by splitting its arrays out of the unscoped buffers and handing the generator register and the scoped
  buffers (its scratch accumulator among them) to its invariant, and left the other way round.  The run's post names every
  unscoped buffer's final contents; the frame reads the five arguments off it: a kernel only reads them through input
  windows and no host operation writes one.
-/
import proofs.«176346_j20375324852317_2_alg».proof.Proof.Gen.Kernel.Launch
import proofs.«176346_j20375324852317_2_alg».proof.Proof.Gen.Kernel.Skeleton
import proofs.«176346_j20375324852317_2_alg».proof.Proof.Gen.Kernel.Points
import proofs.«176346_j20375324852317_2_alg».proof.Proof.Gen.Kernel.Regions
import proofs.«176346_j20375324852317_2_alg».proof.Proof.WReg0Frame
import proofs.«176346_j20375324852317_2_alg».proof.Proof.WReg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program: the first kernel, four host operations, the second kernel -/

/-- Core `c`'s buffers at launch: what the first kernel is entered from. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- After the first kernel: its arrays at what its write-backs leave, every other buffer as it was. -/
def W1 (c : Dev nD) : Valuation τ sig (Elt F) :=
  Pipeline.withArrays spec0 c (W0 m c) fun w => (Reg0.dat (V0 m) c).arrAt w cfg0.N
theorem W1_arr (c : Dev nD) (w : Fin cfg0.W) :
    W1 m c (Proc.devRef .tc (Pipeline.arrRef spec0 w)) = (Reg0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Reg0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the four host operations (the table reshaped, the tall matrix cut in two, the bias made a row): what the second
    kernel is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second kernel. -/
def W3 (c : Dev nD) : Valuation τ sig (Elt F) :=
  Pipeline.withArrays spec1 c (W2 m c) fun w => (Reg1.dat (V2 m) c).arrAt w cfg1.N
theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Reg1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- A host operation of the stretch writes none of the five arguments. -/
theorem W2_of (c : Dev nD) (r : Ref sig .tc) (h : r ∉ hostOps1_W) : W2 m c r = W1 m c r :=
  StableHlo.after_of_writes_sub hostOps1 _ hostOps1_writes h

/-! ### The arguments end as launched: a kernel only reads them through input windows, no host operation writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((Reg1.dat (V2 m) c).arrAt_in 0 rfl _).trans (Reg1.A_eq (V2 m) c 0))
    _ = W1 m c (Proc.devRef .tc main_arg0) := W2_of m c main_arg0 (by decide)
    _ = W0 m c (Proc.devRef .tc main_arg0) := (W1_arr m c 0).trans (((Reg0.dat (V0 m) c).arrAt_in 0 rfl _).trans (Reg0.A_eq (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((Reg1.dat (V2 m) c).arrAt_in 1 rfl _).trans (Reg1.A_eq (V2 m) c 1))
    _ = W1 m c (Proc.devRef .tc main_arg1) := W2_of m c main_arg1 (by decide)
    _ = W0 m c (Proc.devRef .tc main_arg1) := (W1_arr m c 1).trans (((Reg0.dat (V0 m) c).arrAt_in 1 rfl _).trans (Reg0.A_eq (V0 m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := (W1_arr m c 2).trans (((Reg0.dat (V0 m) c).arrAt_in 2 rfl _).trans (Reg0.A_eq (V0 m) c 2))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of m c main_arg4 (by decide)
    _ = W0 m c (Proc.devRef .tc main_arg4) := W1_of_ne m c main_arg4 (by decide)
    _ = m ((c : Thread nD τ).loc main_arg4) := rfl

/-! ## The proof data of the two pipelines and what rides beside the buffers -/

/-- Each pipeline's proof data at its kernel's entry contents. -/
def pdats : (p : Fin 2) → (c : Dev nD) → Dat τ (Elt F) Unit ℕ (UR sig nD τ) ℕ (Pipeline.pin (pcfgs (F := F)) adm p) c
  | ⟨0, _⟩ => fun c => Reg0.dat (V0 m) c
  | ⟨1, _⟩ => fun c => Reg1.dat (V2 m) c
abbrev 𝒱₀ : Variants := Variants.none
/-- No core waits on another: no level is assigned. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m c) ∗ ∃ r, prngReg c r)

/-! ## The two kernels as segments -/

set_option backward.isDefEq.respectTransparency.types false in
/-- The first kernel: entered from the launch contents, left at `W1`. Its arrays are split out of the unscoped buffers and
    put back at the exit contents; the generator register and the scoped rest enter the kernel's invariant (the scratch
    column among them) and come back out of it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat (V0 m) c).Φ 0 from rfl]
    have h := Reg0.hin (V0 m) c
    unfold Pipeline.ΦA at h
    iintro ⟨Hp, -, Hr⟩
    iapply h
    isplitl [Hr]; · iexact Hr
    iexact Hp
  hout c := by
    rw [Pipeline.ownSems0_none]
    have h := Reg0.hout (V0 m) c
    unfold Pipeline.ΦA at h
    exact h.trans (sep_comm.trans (sep_mono_r emp_sep_intro))
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from `W2`, left at the final contents `W3`; its invariant carries the 2048 x 1024 accumulator. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (V2 m) c).Φ 0 from rfl]
    have h := Reg1.hin (V2 m) c
    unfold Pipeline.ΦA at h
    iintro ⟨Hp, -, Hr⟩
    iapply h
    isplitl [Hr]; · iexact Hr
    iexact Hp
  hout c := by
    rw [Pipeline.ownSems0_none]
    have h := Reg1.hout (V2 m) c
    unfold Pipeline.ΦA at h
    exact h.trans (sep_comm.trans (sep_mono_r emp_sep_intro))
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three segments, and its run -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) :=
  main_segs adm (pdats m) () 𝒱₀ L lv (hseg hostOps1 hostOps1_sub hostOps1_fresh (W1 m)) (reg0 m) (reg1 m) rfl c

set_option backward.isDefEq.respectTransparency.types false in
/-- THE RUN, at any float instance: from any memory with zero counters every weakly fair execution of the program on the
    TensorCores terminates, nothing faulting, and every final state holds every unscoped buffer at the contents `W3`: the
    launch contents changed only by what the two kernels write back and by the four host operations between them. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, at any float instance: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run m ρ)

end Cert.Kernel.Asm

end
-- ==== Proof.Reg0Pieces.lean ====
import proofs.«176346_j20375324852317_2_alg».proof.Proof.Reg0Frame
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what each case's stores leave, as the body's arithmetic over the point's blocks

Every store of the body writes a whole buffer, so what a buffer ends with is its last store's value; a load of the
accumulator after a store reads that store's value. -/

theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- Column block 0 leaves in the accumulator the block's lane sums added to the reset value. -/
theorem accFirst_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : atFirst i) (hc1 : ¬atLast i) (x0 x1 x2 : Vec F S2048x512 .f32) :
    accFirst c i arg2 harg2 arg3 harg3 arg4 harg4 arg5 harg5 arg6 harg6 hc0 hc1 x0 x1 x2 = k0_pay2 x0 x1 x2 (k0_pay1 (F := F)) := by
  unfold accFirst
  rw [View.read_writes_eq_canon _ _ _ (accCoverFirst c i arg2 harg2 arg3 harg3 arg4 harg4 arg5 harg5 arg6 harg6 hc0 hc1 x0 x1 x2)]
  unfold runFirst
  dsimp only
  try sl_unfold_words
  rw [View.canon_cons_unit_zero zeroOff2, View.readCov_unit_zero (S := S2048x1) _ zeroOff2]
  simp only [View.readAt_eq_ld, harg2.read_unread, harg3.read_unread, harg4.read_unread, View.ld_unit_zero (S := S2048x512) zeroOff2]
  try rfl

/-- Column blocks 1 and 2 leave the block's lane sums added to what the accumulator held. -/
theorem accMid_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : ¬atLast i) (x0 x1 x2 : Vec F S2048x512 .f32) (xs : Vec F S2048x1 .f32) :
    accMid c i arg2 harg2 arg3 harg3 arg4 harg4 arg5 harg5 arg6 harg6 hc0 hc1 x0 x1 x2 xs = k0_pay2 x0 x1 x2 xs := by
  unfold accMid
  rw [View.read_writes_eq_canon _ _ _ (accCoverMid c i arg2 harg2 arg3 harg3 arg4 harg4 arg5 harg5 arg6 harg6 hc0 hc1 x0 x1 x2 xs)]
  unfold runMid
  dsimp only
  try sl_unfold_words
  rw [View.canon_unit_zero zeroOff2]
  simp only [View.readAt_eq_ld, harg2.read_unread, harg3.read_unread, harg4.read_unread, harg6.read_unread, View.ld_unit_zero (S := S2048x512) zeroOff2, View.ld_unit_zero (S := S2048x1) zeroOff2]
  try rfl

/-- So does column block 3, -/
theorem accLast_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) :
    accLast c i arg2 harg2 arg3 harg3 arg4 harg4 arg5 harg5 arg6 harg6 hc0 hc1 x0 x1 x2 xs = k0_pay2 x0 x1 x2 xs := by
  unfold accLast
  rw [View.read_writes_eq_canon _ _ _ (accCoverLast c i arg2 harg2 arg3 harg3 arg4 harg4 arg5 harg5 arg6 harg6 hc0 hc1 x0 x1 x2 xs)]
  unfold runLast
  dsimp only
  try sl_unfold_words
  rw [View.canon_unit_zero zeroOff2]
  simp only [View.readAt_eq_ld, harg2.read_unread, harg3.read_unread, harg4.read_unread, harg6.read_unread, View.ld_unit_zero (S := S2048x512) zeroOff2, View.ld_unit_zero (S := S2048x1) zeroOff2]
  try rfl

/-- which stores into the output block the accumulator it has just written, scaled. -/
theorem outLast_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048x1 .f32) (harg5 : arg5.IsWhole) (arg6 : Memref sig .tc .vmem S2048x1 .f32) (harg6 : arg6.IsWhole) (hc0 : ¬atFirst i) (hc1 : atLast i) (x0 x1 x2 : Vec F S2048x512 .f32) (xs : Vec F S2048x1 .f32) :
    outLast c i arg2 harg2 arg3 harg3 arg4 harg4 arg5 harg5 arg6 harg6 hc0 hc1 x0 x1 x2 xs = k0_pay3 (k0_pay2 x0 x1 x2 xs) := by
  unfold outLast
  rw [View.read_writes_eq_canon _ _ _ (outCoverLast c i arg2 harg2 arg3 harg3 arg4 harg4 arg5 harg5 arg6 harg6 hc0 hc1 x0 x1 x2 xs)]
  unfold runLast
  dsimp only
  try sl_unfold_words
  rw [View.canon_unit_zero zeroOff3, View.readCov_unit_zero (S := S2048x1) _ zeroOff2]
  simp only [View.readAt_eq_ld, harg2.read_unread, harg3.read_unread, harg4.read_unread, harg6.read_unread, View.ld_unit_zero (S := S2048x512) zeroOff2, View.ld_unit_zero (S := S2048x1) zeroOff2]
  try rfl

end Cert.KernelIdeal.Reg0

end
-- ==== Proof.Spec.lean ====
/-
  The mathematics of the certificate, with no program in sight.  Inputs: two batches of rows e1, e2 : 8192 x 2048, a square
  matrix W : 2048 x 2048, a tall matrix V : 4096 x 2048 and a bias b : 2048, all over the extended reals.

  * `bil r q` is the bilinear form  sum_j (e1[r,j] * e2[r,j]) * W[q,j]  of row r of the two batches against row q of W.
  * The batch-mixing index of entry (p, q) is  (2048 p + q) mod 8192  =  2048 (p mod 4) + q : `mixRow`.
  * `ffSplit p q` is the feed-forward product  [e1 | e2] V  at (p, q) with the contraction cut at the seam of the two batches;
    `ffCat` is the same product over the joined row of 4096 entries.
  * the result at (p, q) is  tanh ((bil (mixRow p q) q / 2048 + ff p q) + b q).
  The reference spells it over the joined row and a quotient by 2048 (`Gref`); the kernel over the two halves, the bilinear
  form times the word of 2^-11, and the sum in the other order (`Gker`).  `Gker_eq_Gref` says they are one function: the
  joined row's sum is the two halves' (Fin.sum_univ_add), a product with 2^-11 is the quotient by 2048 on every extended
  real, and addition commutes.  No finiteness is used.
-/
import Idealize.ShloMosaic.PureOps.Ideal
import Idealize.ShloMosaic.Lib.ValueIdx

noncomputable section

open scoped BigOperators

namespace Cert.Bilinear

open Idealize.ShloMosaic Idealize.ShloMosaic.ValueIdx

/-- The shapes of the five inputs. -/
abbrev SB : Shape := ⟨2, ![8192, 2048]⟩
abbrev SW : Shape := ⟨2, ![2048, 2048]⟩
abbrev SV : Shape := ⟨2, ![4096, 2048]⟩
abbrev Sb : Shape := ⟨1, ![2048]⟩

/-- The f32 words of 2048 and of 2^-11, as extended reals. -/
abbrev w2048 : EReal := Ideal.ofBits .f32 0x45000000#32
abbrev wInv2048 : EReal := Ideal.ofBits .f32 0x3A000000#32

/-- Row `r` of the two batches, multiplied entry by entry, against row `q` of `W`. -/
def bil (e1 e2 : SB.Idx → EReal) (W : SW.Idx → EReal) (r : Fin 8192) (q : Fin 2048) : EReal :=
  ∑ j : Fin 2048, (e1 (ix2 r j) * e2 (ix2 r j)) * W (ix2 q j)

/-- The row the batch-mixing index picks for entry (p, q): 2048 (p mod 4) + q. -/
def mixRow (p : Fin 8192) (q : Fin 2048) : Fin 8192 := ⟨2048 * (p.val % 4) + q.val, by omega⟩

/-- Row `p` of the two batches joined end to end. -/
def cat (e1 e2 : SB.Idx → EReal) (p : Fin 8192) (j : Fin 4096) : EReal :=
  if h : j.val < 2048 then e1 (ix2 p ⟨j.val, h⟩) else e2 (ix2 p ⟨j.val - 2048, by omega⟩)

/-- The feed-forward product over the joined row. -/
def ffCat (e1 e2 : SB.Idx → EReal) (V : SV.Idx → EReal) (p : Fin 8192) (q : Fin 2048) : EReal :=
  ∑ j : Fin 4096, cat e1 e2 p j * V (ix2 j q)

/-- The feed-forward product cut at the seam: the first batch against the upper half of `V`, the second against the lower. -/
def ffSplit (e1 e2 : SB.Idx → EReal) (V : SV.Idx → EReal) (p : Fin 8192) (q : Fin 2048) : EReal :=
  (∑ j : Fin 2048, e1 (ix2 p j) * V (ix2 (⟨j.val, by omega⟩ : Fin 4096) q))
    + ∑ j : Fin 2048, e2 (ix2 p j) * V (ix2 (⟨2048 + j.val, by omega⟩ : Fin 4096) q)

/-- The reference's arrangement of the result at (p, q). -/
def Gref (e1 e2 : SB.Idx → EReal) (W : SW.Idx → EReal) (V : SV.Idx → EReal) (b : Sb.Idx → EReal) (p : Fin 8192) (q : Fin 2048) : EReal :=
  Ideal.tanh ((Ideal.div (bil e1 e2 W (mixRow p q) q) w2048 + ffCat e1 e2 V p q) + b (ix1 q))

/-- The kernel's arrangement of the result at (p, q). -/
def Gker (e1 e2 : SB.Idx → EReal) (W : SW.Idx → EReal) (V : SV.Idx → EReal) (b : Sb.Idx → EReal) (p : Fin 8192) (q : Fin 2048) : EReal :=
  Ideal.tanh ((ffSplit e1 e2 V p q + bil e1 e2 W (mixRow p q) q * wInv2048) + b (ix1 q))

/-- What the first kernel leaves at (m, q, 0) of its 4 x 2048 x 1 result: the bilinear form of row 2048 m + q against row q of
    `W`, times the word of 2^-11. -/
def diag (e1 e2 : SB.Idx → EReal) (W : SW.Idx → EReal) (m : Fin 4) (q : Fin 2048) : EReal :=
  bil e1 e2 W ⟨2048 * m.val + q.val, by omega⟩ q * wInv2048

/-- What the second kernel leaves at (p, q) of its result, from ITS six operands: the two batches `E1`, `E2`, the two
    square halves `V1`, `V2` of the tall matrix, the 4 x 2048 table `Z` of the first kernel's results and the bias as a row `B`:
    the two products over the whole contraction, plus row p mod 4 of the table, plus the bias, through tanh. -/
def combine (E1 E2 : SB.Idx → EReal) (V1 V2 : SW.Idx → EReal) (Z : (⟨2, ![4, 2048]⟩ : Shape).Idx → EReal)
    (B : (⟨2, ![1, 2048]⟩ : Shape).Idx → EReal) (p : Fin 8192) (q : Fin 2048) : EReal :=
  Ideal.tanh ((((∑ j : Fin 2048, E1 (ix2 p j) * V1 (ix2 j q)) + ∑ j : Fin 2048, E2 (ix2 p j) * V2 (ix2 j q))
      + Z (ix2 (⟨p.val % 4, by omega⟩ : Fin 4) q)) + B (ix2 (0 : Fin 1) q))

end Cert.Bilinear

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileForms.lean ====
/-
  A tile body's layout forms, read at an entry; every extent is generic.

  A body that works on an [a, b] tile meets these again and again: one row of an [m, b] block cut out as [1, b] and
  repeated down the tile's rows; a [1, b] row repeated the same way; a [b] vector recast to the row [1, b] first; a
  [1, a, b] slab viewed as the matrix [a, b], and the matrix stored back as a slab; a band of columns of a wide matrix
  loaded through its rectangle; an [a, b] array given a unit middle axis. Each lemma reads one form at an entry as the
  operand at the evident index.
-/
import Idealize.ShloMosaic.PureOps.Ideal.Laws
import Idealize.ShloMosaic.Lib.ValueIdx
import Idealize.ShloMosaic.Lib.ValueLayout
import Idealize.ShloMosaic.Lib.Pipeline.Value

namespace TileForms

open Idealize.ShloMosaic Idealize.ShloMosaic.ValueIdx

variable {a b m : ℕ} {α : Type}

/-- Row `k` of an [m, b] block, cut out at the literal offset `o = k` and repeated down an [a, b] tile, reads at
    (p, c) the block at (k, c). -/
theorem blockRow_apply (B : (⟨2, ![m, b]⟩ : Shape).Idx → α) (o : ℕ) (k : Fin m) (hk : k.val = o)
    (hs : (⟨2, ![m, b]⟩ : Shape).Slices ![o, 0] ⟨2, ![1, b]⟩)
    (hb : (⟨2, ![1, b]⟩ : Shape).Broadcasts ⟨2, ![a, b]⟩) (p : Fin a) (c : Fin b) :
    broadcastTo ⟨2, ![a, b]⟩ (extractStridedSlice ⟨2, ![1, b]⟩ ![o, 0] B hs) hb (ix2 p c) = B (ix2 k c) :=
  (broadcastTo_1b_ab_apply _ hb p c).trans (slice2_axis0_apply o B hs (0 : Fin 1) c k (by simpa using hk))

/-- A [b] vector recast to the row [1, b] reads, at (0, c), the vector at c. -/
theorem rowCast_apply (x : (⟨1, ![b]⟩ : Shape).Idx → α) (h1 : (⟨1, ![b]⟩ : Shape).ShapeCasts ⟨2, ![1, b]⟩) (c : Fin b) :
    shapeCast ⟨2, ![1, b]⟩ x h1 (ix2 (0 : Fin 1) c) = x (ix1 c) :=
  shapeCast_a_1a_apply x h1 0 c

/-- A [b] vector recast to the row [1, b] and repeated down an [a, b] tile reads, at (p, c), the vector at c. -/
theorem biasRow_apply (x : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x h1) hb (ix2 p c) = x (ix1 c) :=
  (broadcastTo_1b_ab_apply _ hb p c).trans (rowCast_apply x h1 c)

/-- A [1, a, b] slab viewed as the matrix [a, b] reads, at (p, c), the slab at (0, p, c). -/
theorem slabAsMatrix_apply (x : (⟨3, ![1, a, b]⟩ : Shape).Idx → α) (h : (⟨3, ![1, a, b]⟩ : Shape).ShapeCasts ⟨2, ![a, b]⟩)
    (p : Fin a) (c : Fin b) : shapeCast ⟨2, ![a, b]⟩ x h (ix2 p c) = x (ix3 (0 : Fin 1) p c) := by
  refine (shapeCast_dropUnit_apply ![a, b] x h (ix2 p c)).trans (congrArg x ?_)
  funext d
  match d with
  | ⟨0, _⟩ => rfl
  | ⟨1, _⟩ => rfl
  | ⟨2, _⟩ => rfl

/-- A matrix [a, b] stored as the slab [1, a, b] reads, at (0, p, c), the matrix at (p, c). -/
theorem matrixAsSlab_apply (x : (⟨2, ![a, b]⟩ : Shape).Idx → α) (h : (⟨2, ![a, b]⟩ : Shape).ShapeCasts ⟨3, ![1, a, b]⟩)
    (u : Fin 1) (p : Fin a) (c : Fin b) : shapeCast ⟨3, ![1, a, b]⟩ x h (ix3 u p c) = x (ix2 p c) := by
  refine (shapeCast_addUnit_apply ![a, b] x h (ix3 u p c)).trans (congrArg x ?_)
  funext d
  match d with
  | ⟨0, _⟩ => rfl
  | ⟨1, _⟩ => rfl

/-- A band of `n` columns of an [r, w] matrix starting at column `o`, loaded through its rectangle, reads at (u, d) the
    matrix at (u, o + d). -/
theorem ld_band {Val : EltTy → Type} {e : EltTy} {r w n : ℕ} (x : (⟨2, ![r, w]⟩ : Shape).Idx → Val e) (o : ℕ)
    (inb : ∀ ax, (![0, o] : Fin 2 → ℕ) ax + (⟨2, ![r, n]⟩ : Shape).size ax ≤ (⟨2, ![r, w]⟩ : Shape).size ax)
    (u : Fin r) (d : Fin n) (k : Fin w) (hk : k.val = o + d.val) :
    View.ld (Val := Val) x (Rect.unit (s := ⟨2, ![r, w]⟩) ![0, o] (⟨2, ![r, n]⟩ : Shape).size inb) (ix2 u d) = x (ix2 u k) := by
  show x ((Rect.unit (s := ⟨2, ![r, w]⟩) ![0, o] (⟨2, ![r, n]⟩ : Shape).size inb).emb (ix2 u d)) = _
  refine congrArg x (funext fun ax => Fin.ext ?_)
  match ax with
  | ⟨0, _⟩ => show 0 + 1 * u.val = u.val; omega
  | ⟨1, _⟩ => show o + 1 * d.val = k.val; omega

/-- An [a, b] array given a unit middle axis reads, at (s, u, e), the array at (s, e). -/
theorem midUnit_apply {a b : ℕ} {α : Type} (x : (⟨2, ![a, b]⟩ : Shape).Idx → α)
    (h : (⟨2, ![a, b]⟩ : Shape).ShapeCasts ⟨3, ![a, 1, b]⟩) (s : Fin a) (u : Fin 1) (e : Fin b) :
    shapeCast ⟨3, ![a, 1, b]⟩ x h (ix3 s u e) = x (ix2 s e) :=
  shapeCast_apply x h _ _ (by
    have hu : u.val = 0 := by omega
    rw [Shape.rowMajor_val_two, Shape.rowMajor_val_three]
    show s.val * b + e.val = (s.val * 1 + u.val) * b + e.val
    rw [hu, Nat.mul_one, Nat.add_zero])

/-- The f32 word of +0 as a scalar constant denotes zero. -/
theorem scalar_zero : Scalar.ofBits (F := Ideal) .f32 0x00000000#32 = (0 : EReal) := Ideal.ofBits_zero_f32

end TileForms
-- ==== Proof.Reg0Value.lean ====
import proofs.«176346_j20375324852317_2_alg».proof.Proof.Reg0Pieces
import proofs.«176346_j20375324852317_2_alg».proof.Proof.Spec
import proofs.«176346_j20375324852317_2_alg».proof.Proof.LibGroupedSum
import proofs.«176346_j20375324852317_2_alg».proof.Proof.LibRowOps
import proofs.«176346_j20375324852317_2_alg».proof.Proof.LibTileForms
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL.Sem
open Idealize.ShloMosaic.Pipeline (Dat)
open Cert.Bilinear (SB SW wInv2048 bil diag)

variable (V : (c : Dev nD) → (b : Ref sig .tc) → Buf (Elt Ideal) ((c : Thread nD τ).loc b))

/-! # Region 0 over the extended reals: its output array is the scaled diagonal bilinear form

Row block `m`, column block `d`: the body adds to row `r` of the accumulator the sum over the block's 512 columns of
e1 * e2 * W, the two batches read at row 2048 m + r and W at row r, all three at column 512 d + s. After column block 3
the accumulator holds (((0 + S0) + S1) + S2) + S3, the whole row's sum regrouped by column blocks; the stored block is
that times the word of 2^-11. -/

/-! ## The body's arithmetic read at an index -/

/-- The reset value is zero. -/
theorem pay1_apply (r : Fin 2048) (u : Fin 1) : k0_pay1 (F := Ideal) (ix2 r u) = (0 : EReal) := by
  unfold k0_pay1
  refine (congrFun (shapeCast_self _ _) (ix2 r u)).trans ?_
  exact TileForms.scalar_zero

/-- The accumulation: row `r` gains the sum over the block's columns of the three blocks' product. -/
theorem pay2_apply (x0 x1 x2 : Vec Ideal S2048x512 .f32) (xs : Vec Ideal S2048x1 .f32) (r : Fin 2048) (u : Fin 1) :
    k0_pay2 (F := Ideal) x0 x1 x2 xs (ix2 r u)
      = (xs (ix2 r u) : EReal) + ∑ s : Fin 512, ((x0 (ix2 r s) : EReal) * x1 (ix2 r s)) * x2 (ix2 r s) := by
  unfold k0_pay2
  refine (congrFun (shapeCast_self _ _) (ix2 r u)).trans ?_
  refine (addf_apply _ _ (ix2 r u)).trans ?_
  refine congrArg (fun z : EReal => (xs (ix2 r u) : EReal) + z) ?_
  refine (Gcn.Lib.shapeCast_a_a1_apply _ _ r u).trans ?_
  exact Gcn.Lib.rowSum_apply _ _ _ _ r

/-- The stored block: the accumulator times the word of 2^-11. -/
theorem pay3_apply (v : Vec Ideal S2048x1 .f32) (u : Fin 1) (r : Fin 2048) (u' : Fin 1) :
    k0_pay3 (F := Ideal) v (ix3 u r u') = (v (ix2 r u') : EReal) * wInv2048 := by
  unfold k0_pay3
  refine (TileForms.matrixAsSlab_apply _ _ u r u').trans ?_
  rfl

/-! ## The blocks, read where the windows' index maps say

The index maps over the grid, decided once: the two batches' block at point `t` is (row block `t / 4`, column block
`t % 4`), W's is (0, `t % 4`), the output's is (`t / 4`, 0, 0). An element of a block sits at index x size + its own
coordinate. -/

theorem idx_in0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx_in1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idx_in2 : ∀ t : Fin cfg0.N, win0_2.index t 0 = 0 ∧ win0_2.index t 1 = t.val % 4 :=
  (by decide +kernel : ∀ t : Fin grid0.N, win0_2.index t 0 = 0 ∧ win0_2.index t 1 = t.val % 4)
theorem idx_out : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

theorem blk0_apply (c : Dev nD) (t : Fin cfg0.N) (r : Fin 2048) (s : Fin 512) (k : SB.Idx)
    (hk0 : (k 0).val = (t.val / 4) * 2048 + r.val) (hk1 : (k 1).val = (t.val % 4) * 512 + s.val) :
    ((iblk0 V c 0 t : Vec Ideal S2048x512 .f32) (ix2 r s) : EReal) = (V c main_arg0 : SB.Idx → EReal) k := by
  unfold iblk0
  rw [View.read_apply]
  show (V c main_arg0 : SB.Idx → EReal) _ = (V c main_arg0 : SB.Idx → EReal) k
  refine congrArg (V c main_arg0 : SB.Idx → EReal) (funext fun a => Fin.ext ?_)
  match a with
  | ⟨0, _⟩ => show win0_0.index t 0 * 2048 + 1 * r.val = (k 0).val; rw [(idx_in0 t).1, hk0]; omega
  | ⟨1, _⟩ => show win0_0.index t 1 * 512 + 1 * s.val = (k 1).val; rw [(idx_in0 t).2, hk1]; omega

theorem blk1_apply (c : Dev nD) (t : Fin cfg0.N) (r : Fin 2048) (s : Fin 512) (k : SB.Idx)
    (hk0 : (k 0).val = (t.val / 4) * 2048 + r.val) (hk1 : (k 1).val = (t.val % 4) * 512 + s.val) :
    ((iblk0 V c 1 t : Vec Ideal S2048x512 .f32) (ix2 r s) : EReal) = (V c main_arg1 : SB.Idx → EReal) k := by
  unfold iblk0
  rw [View.read_apply]
  show (V c main_arg1 : SB.Idx → EReal) _ = (V c main_arg1 : SB.Idx → EReal) k
  refine congrArg (V c main_arg1 : SB.Idx → EReal) (funext fun a => Fin.ext ?_)
  match a with
  | ⟨0, _⟩ => show win0_1.index t 0 * 2048 + 1 * r.val = (k 0).val; rw [(idx_in1 t).1, hk0]; omega
  | ⟨1, _⟩ => show win0_1.index t 1 * 512 + 1 * s.val = (k 1).val; rw [(idx_in1 t).2, hk1]; omega

theorem blk2_apply (c : Dev nD) (t : Fin cfg0.N) (r : Fin 2048) (s : Fin 512) (k : SW.Idx)
    (hk0 : (k 0).val = r.val) (hk1 : (k 1).val = (t.val % 4) * 512 + s.val) :
    ((iblk0 V c 2 t : Vec Ideal S2048x512 .f32) (ix2 r s) : EReal) = (V c main_arg2 : SW.Idx → EReal) k := by
  unfold iblk0
  rw [View.read_apply]
  show (V c main_arg2 : SW.Idx → EReal) _ = (V c main_arg2 : SW.Idx → EReal) k
  refine congrArg (V c main_arg2 : SW.Idx → EReal) (funext fun a => Fin.ext ?_)
  match a with
  | ⟨0, _⟩ => show win0_2.index t 0 * 2048 + 1 * r.val = (k 0).val; rw [(idx_in2 t).1, hk0]; omega
  | ⟨1, _⟩ => show win0_2.index t 1 * 512 + 1 * s.val = (k 1).val; rw [(idx_in2 t).2, hk1]; omega

/-! ## The accumulator, point by point -/

/-- What the body adds to row `r` of the accumulator at point `t`: the sum over the block's columns. -/
def rowDot (x0 x1 x2 : S2048x512.Idx → EReal) (r : Fin 2048) : EReal :=
  ∑ s : Fin 512, (x0 (ix2 r s) * x1 (ix2 r s)) * x2 (ix2 r s)

/-- What the body adds to row \`r\` of the accumulator at point \`t\`. -/
def blockSum (c : Dev nD) (t : Fin cfg0.N) (r : Fin 2048) : EReal :=
  rowDot (iblk0 V c 0 t) (iblk0 V c 1 t) (iblk0 V c 2 t) r

/-- At column block 0 the accumulator ends at zero plus the block's sums. -/
theorem acc_first (c : Dev nD) (t : Fin cfg0.N) (h0 : t.val % 4 = 0) (r : Fin 2048) (u : Fin 1) :
    ((outsAt0 V c t.val t.isLt).2 (ix2 r u) : EReal) = 0 + blockSum V c t r := by
  rw [outsAt0_first V c t h0]
  unfold ptFirst
  dsimp only
  refine (congrFun (accFirst_eq (F := Ideal) c (grid0.coords t) (ms0 t) (hs0 t) (ms1 t) (hs1 t) (ms2 t) (hs2 t) (ms3 t) (hs3 t) accM (Memref.isWhole_whole cc0_scratch0) ((atFirst_iff t).mpr h0) (notLast_of_first t h0) (iblk0 V c 0 t) (iblk0 V c 1 t) (iblk0 V c 2 t)) (ix2 r u)).trans ?_
  refine (pay2_apply (iblk0 V c 0 t) (iblk0 V c 1 t) (iblk0 V c 2 t) (k0_pay1 (F := Ideal)) r u).trans ?_
  exact congrArg (fun z : EReal => z + blockSum V c t r) (pay1_apply r u)

/-- At every later column block it gains the block's sums. -/
theorem acc_step (c : Dev nD) (t : Fin cfg0.N) (h0 : ¬t.val % 4 = 0) (r : Fin 2048) (u : Fin 1) :
    ((outsAt0 V c t.val t.isLt).2 (ix2 r u) : EReal) = ((outsAt0 V c (t.val - 1) (Nat.lt_of_le_of_lt (Nat.sub_le _ _) t.isLt)).2 (ix2 r u) : EReal) + blockSum V c t r := by
  by_cases h1 : t.val % 4 = 3
  · rw [outsAt0_last V c t h0 h1]
    unfold ptLast
    dsimp only
    refine (congrFun (accLast_eq (F := Ideal) c (grid0.coords t) (ms0 t) (hs0 t) (ms1 t) (hs1 t) (ms2 t) (hs2 t) (ms3 t) (hs3 t) accM (Memref.isWhole_whole cc0_scratch0) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2) (ix2 r u)).trans ?_
    exact pay2_apply (iblk0 V c 0 t) (iblk0 V c 1 t) (iblk0 V c 2 t) (outsAt0 V c (t.val - 1) (Nat.lt_of_le_of_lt (Nat.sub_le _ _) t.isLt)).2 r u
  · rw [outsAt0_mid V c t h0 h1]
    unfold ptMid
    dsimp only
    refine (congrFun (accMid_eq (F := Ideal) c (grid0.coords t) (ms0 t) (hs0 t) (ms1 t) (hs1 t) (ms2 t) (hs2 t) (ms3 t) (hs3 t) accM (Memref.isWhole_whole cc0_scratch0) (fun h => h0 ((atFirst_iff t).mp h)) (fun h => h1 ((atLast_iff t).mp h)) (iblk0 V c 0 t) (iblk0 V c 1 t) (iblk0 V c 2 t) (outsAt0 V c (t.val - 1) (Nat.lt_of_le_of_lt (Nat.sub_le _ _) t.isLt)).2) (ix2 r u)).trans ?_
    exact pay2_apply (iblk0 V c 0 t) (iblk0 V c 1 t) (iblk0 V c 2 t) (outsAt0 V c (t.val - 1) (Nat.lt_of_le_of_lt (Nat.sub_le _ _) t.isLt)).2 r u

/-- At column block 3 the stored block is the accumulator just written, times the word of 2^-11. -/
theorem out_last (c : Dev nD) (t : Fin cfg0.N) (h0 : ¬t.val % 4 = 0) (h1 : t.val % 4 = 3) (u : Fin 1) (r : Fin 2048) (u' : Fin 1) :
    ((outsAt0 V c t.val t.isLt).1 (ix3 u r u') : EReal) = ((outsAt0 V c t.val t.isLt).2 (ix2 r u') : EReal) * wInv2048 := by
  rw [outsAt0_last V c t h0 h1]
  unfold ptLast
  dsimp only
  refine (congrFun (outLast_eq (F := Ideal) c (grid0.coords t) (ms0 t) (hs0 t) (ms1 t) (hs1 t) (ms2 t) (hs2 t) (ms3 t) (hs3 t) accM (Memref.isWhole_whole cc0_scratch0) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2) (ix3 u r u')).trans ?_
  refine (pay3_apply (k0_pay2 (F := Ideal) (iblk0 V c 0 t) (iblk0 V c 1 t) (iblk0 V c 2 t) (outsAt0 V c (t.val - 1) (Nat.lt_of_le_of_lt (Nat.sub_le _ _) t.isLt)).2) u r u').trans ?_
  exact congrArg (fun z : EReal => z * wInv2048)
    (congrFun (accLast_eq (F := Ideal) c (grid0.coords t) (ms0 t) (hs0 t) (ms1 t) (hs1 t) (ms2 t) (hs2 t) (ms3 t) (hs3 t) accM (Memref.isWhole_whole cc0_scratch0) (fun h => h0 ((atFirst_iff t).mp h)) ((atLast_iff t).mpr h1) (iblk0 V c 0 t) (iblk0 V c 1 t) (iblk0 V c 2 t) (outsAt0 V c (t.val - 1) (Nat.lt_of_le_of_lt (Nat.sub_le _ _) t.isLt)).2) (ix2 r u')).symm

/-! ## The four column blocks are the whole row, regrouped -/

/-- The point before `t` (the same point at position 0, where nothing is asked of it). -/
def back1 (t : Fin cfg0.N) : Fin cfg0.N := ⟨t.val - 1, Nat.lt_of_le_of_lt (Nat.sub_le _ _) t.isLt⟩

/-- After column block 3 the accumulator holds the four column blocks' sums, added in the grid's order onto zero. -/
theorem acc_last (c : Dev nD) (t : Fin cfg0.N) (h1 : t.val % 4 = 3) (r : Fin 2048) (u : Fin 1) :
    ((outsAt0 V c t.val t.isLt).2 (ix2 r u) : EReal)
      = (((0 + blockSum V c (back1 (back1 (back1 t))) r) + blockSum V c (back1 (back1 t)) r) + blockSum V c (back1 t) r) + blockSum V c t r := by
  have e3 := acc_step V c t (by omega) r u
  have e2 := acc_step V c (back1 t) (by show ¬(t.val - 1) % 4 = 0; omega) r u
  have e1 := acc_step V c (back1 (back1 t)) (by show ¬(t.val - 1 - 1) % 4 = 0; omega) r u
  have e0 := acc_first V c (back1 (back1 (back1 t))) (by show (t.val - 1 - 1 - 1) % 4 = 0; omega) r u
  exact e3.trans (congrArg (fun z : EReal => z + blockSum V c t r)
    (e2.trans (congrArg (fun z : EReal => z + blockSum V c (back1 t) r)
      (e1.trans (congrArg (fun z : EReal => z + blockSum V c (back1 (back1 t)) r) e0)))))

/-- The row of the two batches that row block `mm` pairs with row `r` of W. -/
def pairedRow (mm : Fin 4) (r : Fin 2048) : Fin 8192 := ⟨2048 * mm.val + r.val, by omega⟩

/-- The summand of the bilinear form of that row against row `r` of W, at column `j`. -/
def termOf (e1 e2 : SB.Idx → EReal) (W : SW.Idx → EReal) (R : Fin 8192) (r j : Fin 2048) : EReal :=
  (e1 (ix2 R j) * e2 (ix2 R j)) * W (ix2 r j)

/-- The same at the region-entry contents of the three operands. -/
def term (c : Dev nD) (mm : Fin 4) (r : Fin 2048) (j : Fin 2048) : EReal :=
  termOf (V c main_arg0) (V c main_arg1) (V c main_arg2) (pairedRow mm r) r j

theorem fourBlocks : 4 * 512 = 2048 := by norm_num

/-- The sum added at the point of row block `mm`, column block `d`, is the summands of columns 512 d … 512 d + 511. -/
theorem blockSum_eq (c : Dev nD) (t : Fin cfg0.N) (mm : Fin 4) (d : Fin 4) (ht : t.val = 4 * mm.val + d.val) (r : Fin 2048) :
    blockSum V c t r = ∑ s : Fin 512, term V c mm r ⟨d.val * 512 + s.val, GroupedSum.group_lt fourBlocks d s⟩ := by
  have hm : mm.val < 4 := mm.isLt
  have hd : d.val < 4 := d.isLt
  unfold blockSum rowDot term termOf
  refine Finset.sum_congr rfl fun s _ => ?_
  refine congrArg₂ (fun a b : EReal => a * b) (congrArg₂ (fun a b : EReal => a * b) ?_ ?_) ?_
  · exact blk0_apply V c t r s _ (by show 2048 * mm.val + r.val = t.val / 4 * 2048 + r.val; omega)
      (by show d.val * 512 + s.val = t.val % 4 * 512 + s.val; omega)
  · exact blk1_apply V c t r s _ (by show 2048 * mm.val + r.val = t.val / 4 * 2048 + r.val; omega)
      (by show d.val * 512 + s.val = t.val % 4 * 512 + s.val; omega)
  · exact blk2_apply V c t r s _ (by show r.val = r.val; rfl)
      (by show d.val * 512 + s.val = t.val % 4 * 512 + s.val; omega)

/-- What the point of row block `mm`, column block 3 stores at row `r` of the output block. -/
theorem out_value (c : Dev nD) (t : Fin cfg0.N) (mm : Fin 4) (ht : t.val = 4 * mm.val + 3) (r : Fin 2048) :
    ((outsAt0 V c t.val t.isLt).1 (ix3 (0 : Fin 1) r (0 : Fin 1)) : EReal) = diag (V c main_arg0 : SB.Idx → EReal) (V c main_arg1 : SB.Idx → EReal) (V c main_arg2 : SW.Idx → EReal) mm r := by
  have hm : mm.val < 4 := mm.isLt
  have h1 : t.val % 4 = 3 := by omega
  refine (out_last V c t (by omega) h1 0 r 0).trans ?_
  show _ * wInv2048 = bil _ _ _ (pairedRow mm r) r * wInv2048
  refine congrArg (fun z : EReal => z * wInv2048) ?_
  refine (acc_last V c t h1 r 0).trans ?_
  rw [blockSum_eq V c (back1 (back1 (back1 t))) mm 0 (by show t.val - 1 - 1 - 1 = 4 * mm.val + 0; omega) r,
    blockSum_eq V c (back1 (back1 t)) mm 1 (by show t.val - 1 - 1 = 4 * mm.val + 1; omega) r,
    blockSum_eq V c (back1 t) mm 2 (by show t.val - 1 = 4 * mm.val + 2; omega) r,
    blockSum_eq V c t mm 3 (by show t.val = 4 * mm.val + 3; exact ht) r]
  show _ = ∑ j : Fin 2048, term V c mm r j
  rw [GroupedSum.sum_groups fourBlocks (term V c mm r), Fin.sum_univ_four, zero_add]

/-! ## The output array after the run -/

/-- The output array as a function of its index: entry (m, q, 0) is the scaled bilinear form of row 2048 m + q. -/
def table (c : Dev nD) : S4x2048x1.Idx → EReal := fun i => diag (V c main_arg0 : SB.Idx → EReal) (V c main_arg1 : SB.Idx → EReal) (V c main_arg2 : SW.Idx → EReal) (i 0) (i 1)

/-- What a point of column block 3 leaves in the output's buffer is its block of `table`: the block of row block
    `t / 4` sits at (t / 4, 0, 0) times the block's size. -/
theorem flushed_apply (c : Dev nD) (t : Fin cfg0.N) (h1 : t.val % 4 = 3) (y : S1x2048x1.Idx) :
    ((outsAt0 V c t.val t.isLt).1 y : EReal) = table V c (((cfg0.win 3).blk t).view.emb y) := by
  have hN : t.val < 16 := lt_of_lt_of_eq t.isLt (show cfg0.N = 16 from N_0)
  obtain ⟨u, r, u', rfl⟩ : ∃ (u : Fin 1) (r : Fin 2048) (u' : Fin 1), y = ix3 u r u' := ⟨y 0, y 1, y 2, eq_ix3 y⟩
  obtain rfl : u = 0 := Subsingleton.elim _ _
  obtain rfl : u' = 0 := Subsingleton.elim _ _
  refine (out_value V c t ⟨t.val / 4, by omega⟩ (by show t.val = 4 * (t.val / 4) + 3; omega) r).trans ?_
  unfold table
  refine congrArg₂ (fun a b => diag (V c main_arg0 : SB.Idx → EReal) (V c main_arg1 : SB.Idx → EReal) (V c main_arg2 : SW.Idx → EReal) a b) (Fin.ext ?_) (Fin.ext ?_)
  · show t.val / 4 = win0_3.index t 0 * 1 + 1 * 0
    rw [(idx_out t).1]; omega
  · show r.val = win0_3.index t 1 * 2048 + 1 * r.val
    rw [(idx_out t).2.1]; omega

/-- Every write-back of the output window writes its block of `table`. -/
theorem flushed_eq (c : Dev nD) (t : Fin cfg0.N) (hf : (cfg0.win 3).flush t = true) :
    (dat V c).flushed 3 t = ((cfg0.win 3).blk t).view.read (Elt Ideal) (table V c) := by
  have h1 : t.val % 4 = 3 := (flush0_3 t).mp hf
  show (cfg0.win 3).cut (grid0.coords t) ((dat V c).after 3 t) = _
  rw [after3]
  funext y
  rw [View.read_apply]
  exact flushed_apply V c t h1 y

/-- The point of row block `a`, column block 3. -/
def lastPt (a : Fin 4) : Fin cfg0.N := ⟨4 * a.val + 3, by rw [show cfg0.N = 16 from N_0]; omega⟩

/-- The four written-back blocks cover the output array: entry (m, q, 0) is in row block `m`'s. -/
theorem covered (i : S4x2048x1.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1 := (i 2).isLt
  refine ⟨lastPt (i 0), (flush0_3 _).mpr (by show (4 * (i 0).val + 3) % 4 = 3; omega), ?_⟩
  show i ∈ ((View.whole main_v0).slice (win0_3.rect (lastPt (i 0)))).set
  rw [View.set_slice_whole, Rect.mem_set_unit]
  intro a
  match a with
  | ⟨0, _⟩ =>
    show win0_3.index (lastPt (i 0)) 0 * 1 ≤ (i 0).val ∧ (i 0).val < win0_3.index (lastPt (i 0)) 0 * 1 + 1
    rw [(idx_out (lastPt (i 0))).1]
    show (4 * (i 0).val + 3) / 4 * 1 ≤ (i 0).val ∧ (i 0).val < (4 * (i 0).val + 3) / 4 * 1 + 1
    omega
  | ⟨1, _⟩ =>
    show win0_3.index (lastPt (i 0)) 1 * 2048 ≤ (i 1).val ∧ (i 1).val < win0_3.index (lastPt (i 0)) 1 * 2048 + 2048
    rw [(idx_out (lastPt (i 0))).2.1]; omega
  | ⟨2, _⟩ =>
    show win0_3.index (lastPt (i 0)) 2 * 1 ≤ (i 2).val ∧ (i 2).val < win0_3.index (lastPt (i 0)) 2 * 1 + 1
    rw [(idx_out (lastPt (i 0))).2.2]; omega

/-- THE VALUE OF REGION 0: after the run its output array holds, at (m, q, 0), the bilinear form of row 2048 m + q of the
    two batches against row q of W, times the word of 2^-11. -/
theorem final (c : Dev nD) (mm : Fin 4) (q : Fin 2048) :
    (dat V c).arrAt 3 cfg0.N (ValueIdx.ix3 mm q (0 : Fin 1))
      = Cert.Bilinear.diag (V c main_arg0) (V c main_arg1) (V c main_arg2) mm q :=
  (congrFun ((dat V c).arrAt_eq_of_cover 3 (table V c) (flushed_eq V c) covered) (ValueIdx.ix3 mm q (0 : Fin 1))).trans rfl

end Cert.KernelIdeal.Reg0

end
-- ==== Proof.Reg1ValuePieces.lean ====
/- The second pallas_call's found pieces read back as values: what each control case leaves in the accumulator and,
   at the last step, in the output's staging buffer, as the body's payloads applied to the input blocks and to the
   accumulator the step before left. Every store is of the whole buffer, so the last store's payload is what is
   left; every load of the accumulator reads the payload of the store before it. Generic in the float instance. -/
import proofs.«176346_j20375324852317_2_alg».proof.Proof.Reg1Frame
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole-buffer rectangles of the body start at the origin. -/
theorem hz : (![0, 0] : Fin 2 → Nat) = fun _ => 0 := funext fun a => by fin_cases a <;> rfl

/-- Last coordinate 0: the accumulator is left at the second product added to the first product added to the zero
    block. -/
theorem soutFirst_eq (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) :
    soutFirst c i arg3 harg3 arg4 harg4 arg5 harg5 arg6 harg6 arg7 harg7 arg8 harg8 arg9 harg9 arg10 harg10 hc0 hc1 x0 x1 x2 x3 x4 x5 = k1_pay3 x1 x3 (k1_pay2 x0 x2 k1_pay1) := by
  unfold soutFirst
  rw [View.read_writes_eq_canon _ _ _ (scoverFirst c i arg3 harg3 arg4 harg4 arg5 harg5 arg6 harg6 arg7 harg7 arg8 harg8 arg9 harg9 arg10 harg10 hc0 hc1 x0 x1 x2 x3 x4 x5)]
  unfold runFirst
  dsimp only
  sl_unfold_words
  rw [View.canon_cons_unit_zero (S := S2048x1024) hz]
  simp only [View.readCov_cons_toLoadRect, View.readCov_unit_zero (S := S2048x1024) _ hz, View.readAt_eq_ld, harg3.read_unread, harg4.read_unread, harg5.read_unread, harg6.read_unread, harg7.read_unread, harg8.read_unread, harg9.read_unread, harg10.read_unread, View.ld_unit_zero (S := S2048x128) hz, View.ld_unit_zero (S := S128x1024) hz, View.ld_unit_zero (S := S4x1024) hz, View.ld_unit_zero (S := S1x1024) hz, View.ld_unit_zero (S := S2048x1024) hz]

/-- Last coordinate 1..14: the two products added, in order, to what the step before left (`xs0`). -/
theorem soutMid_eq (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : ¬condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    soutMid c i arg3 harg3 arg4 harg4 arg5 harg5 arg6 harg6 arg7 harg7 arg8 harg8 arg9 harg9 arg10 harg10 hc0 hc1 x0 x1 x2 x3 x4 x5 xs0 = k1_pay3 x1 x3 (k1_pay2 x0 x2 xs0) := by
  unfold soutMid
  rw [View.read_writes_eq_canon _ _ _ (scoverMid c i arg3 harg3 arg4 harg4 arg5 harg5 arg6 harg6 arg7 harg7 arg8 harg8 arg9 harg9 arg10 harg10 hc0 hc1 x0 x1 x2 x3 x4 x5 xs0)]
  unfold runMid
  dsimp only
  sl_unfold_words
  rw [View.canon_cons_unit_zero (S := S2048x1024) hz]
  simp only [View.readCov_cons_toLoadRect, View.readCov_unit_zero (S := S2048x1024) _ hz, View.readAt_eq_ld, harg3.read_unread, harg4.read_unread, harg5.read_unread, harg6.read_unread, harg7.read_unread, harg8.read_unread, harg9.read_unread, harg10.read_unread, View.ld_unit_zero (S := S2048x128) hz, View.ld_unit_zero (S := S128x1024) hz, View.ld_unit_zero (S := S4x1024) hz, View.ld_unit_zero (S := S1x1024) hz, View.ld_unit_zero (S := S2048x1024) hz]

/-- Last coordinate 15: the accumulator is left the same way, -/
theorem soutLast_eq (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    soutLast c i arg3 harg3 arg4 harg4 arg5 harg5 arg6 harg6 arg7 harg7 arg8 harg8 arg9 harg9 arg10 harg10 hc0 hc1 x0 x1 x2 x3 x4 x5 xs0 = k1_pay3 x1 x3 (k1_pay2 x0 x2 xs0) := by
  unfold soutLast
  rw [View.read_writes_eq_canon _ _ _ (scoverLast c i arg3 harg3 arg4 harg4 arg5 harg5 arg6 harg6 arg7 harg7 arg8 harg8 arg9 harg9 arg10 harg10 hc0 hc1 x0 x1 x2 x3 x4 x5 xs0)]
  unfold runLast
  dsimp only
  sl_unfold_words
  rw [View.canon_cons_unit_zero (S := S2048x1024) hz]
  simp only [View.readCov_cons_toLoadRect, View.readCov_unit_zero (S := S2048x1024) _ hz, View.readAt_eq_ld, harg3.read_unread, harg4.read_unread, harg5.read_unread, harg6.read_unread, harg7.read_unread, harg8.read_unread, harg9.read_unread, harg10.read_unread, View.ld_unit_zero (S := S2048x128) hz, View.ld_unit_zero (S := S128x1024) hz, View.ld_unit_zero (S := S4x1024) hz, View.ld_unit_zero (S := S1x1024) hz, View.ld_unit_zero (S := S2048x1024) hz]

/-- and the output's buffer at the epilogue's payload of the table block, that accumulator and the bias block. -/
theorem outLast_eq (c : Dev nD) (i : grid1.Coords) (arg3 : Memref sig .tc .vmem S2048x128 .f32) (harg3 : arg3.IsWhole) (arg4 : Memref sig .tc .vmem S2048x128 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S4x1024 .f32) (harg7 : arg7.IsWhole) (arg8 : Memref sig .tc .vmem S1x1024 .f32) (harg8 : arg8.IsWhole) (arg9 : Memref sig .tc .vmem S2048x1024 .f32) (harg9 : arg9.IsWhole) (arg10 : Memref sig .tc .vmem S2048x1024 .f32) (harg10 : arg10.IsWhole) (hc0 : ¬condFirst i) (hc1 : condLast i)
    (x0 : Vec F S2048x128 .f32) (x1 : Vec F S2048x128 .f32) (x2 : Vec F S128x1024 .f32) (x3 : Vec F S128x1024 .f32) (x4 : Vec F S4x1024 .f32) (x5 : Vec F S1x1024 .f32) (xs0 : Vec F S2048x1024 .f32) :
    outLast c i arg3 harg3 arg4 harg4 arg5 harg5 arg6 harg6 arg7 harg7 arg8 harg8 arg9 harg9 arg10 harg10 hc0 hc1 x0 x1 x2 x3 x4 x5 xs0 = k1_pay4 x4 (k1_pay3 x1 x3 (k1_pay2 x0 x2 xs0)) x5 := by
  unfold outLast
  rw [View.read_writes_eq_canon _ _ _ (coverLast c i arg3 harg3 arg4 harg4 arg5 harg5 arg6 harg6 arg7 harg7 arg8 harg8 arg9 harg9 arg10 harg10 hc0 hc1 x0 x1 x2 x3 x4 x5 xs0)]
  unfold runLast
  dsimp only
  sl_unfold_words
  rw [View.canon_unit_zero (S := S2048x1024) hz]
  simp only [View.readCov_cons_toLoadRect, View.readCov_unit_zero (S := S2048x1024) _ hz, View.readAt_eq_ld, harg3.read_unread, harg4.read_unread, harg5.read_unread, harg6.read_unread, harg7.read_unread, harg8.read_unread, harg9.read_unread, harg10.read_unread, View.ld_unit_zero (S := S2048x128) hz, View.ld_unit_zero (S := S128x1024) hz, View.ld_unit_zero (S := S4x1024) hz, View.ld_unit_zero (S := S1x1024) hz, View.ld_unit_zero (S := S2048x1024) hz]

end Cert.KernelIdeal.Reg1

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«176346_j20375324852317_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Reg1ValuePay.lean ====
/- The main kernel's four payloads read at an entry (r, s) of the 2048 x 1024 block, over the extended reals: the
   zero block; a 128-term partial product added to the accumulator (the narrowing to bf16 is the identity on
   extended reals, and a matrix product accumulated into the zero vector is the plain sum); and the epilogue —
   the accumulator plus the 4-row table block tiled 512 times down the rows (row r reads table row r mod 4) plus
   the bias row, through tanh. -/
import proofs.«176346_j20375324852317_2_alg».proof.Proof.Gen.KernelIdeal.Skeleton
import proofs.«176346_j20375324852317_2_alg».proof.Proof.LibDotRecord
import Idealize.ShloMosaic.Lib.Pipeline.Value
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat)

/-- The reset stores zero. -/
theorem pay1_apply (r : Fin 2048) (s : Fin 1024) : (k1_pay1 (F := Ideal)) (ix2 r s) = 0 := by
  unfold k1_pay1
  exact (congrFun (shapeCast_self _ _) (ix2 r s)).trans Ideal.ofBits_zero_f32

/-- A step's first product added to the accumulator. -/
theorem pay2_apply (v3 : Vec Ideal S2048x128 .f32) (v7 : Vec Ideal S128x1024 .f32) (v13 : Vec Ideal S2048x1024 .f32)
    (r : Fin 2048) (s : Fin 1024) :
    k1_pay2 v3 v7 v13 (ix2 r s) = v13 (ix2 r s) + ∑ j : Fin 128, v3 (ix2 r j) * v7 (ix2 j s) := by
  unfold k1_pay2
  refine (congrFun (shapeCast_self _ _) (ix2 r s)).trans ?_
  refine congrArg (v13 (ix2 r s) + ·) ?_
  refine (DotRecord.matmul_zero_apply (M := 2048) (K := 128) (N := 1024) dot_S2048x128_S128x1024_S2048x1024_1_0_0_1_n_n
    rfl rfl rfl rfl rfl rfl _ _ none r s).trans ?_
  exact Finset.sum_congr rfl fun j _ => congrArg (v3 (ix2 r j) * ·) (congrFun (shapeCast_self v7 _) (ix2 j s))

/-- A step's second product added to the accumulator. -/
theorem pay3_apply (v5 : Vec Ideal S2048x128 .f32) (v10 : Vec Ideal S128x1024 .f32) (v19 : Vec Ideal S2048x1024 .f32)
    (r : Fin 2048) (s : Fin 1024) :
    k1_pay3 v5 v10 v19 (ix2 r s) = v19 (ix2 r s) + ∑ j : Fin 128, v5 (ix2 r j) * v10 (ix2 j s) := by
  unfold k1_pay3
  refine (congrFun (shapeCast_self _ _) (ix2 r s)).trans ?_
  refine congrArg (v19 (ix2 r s) + ·) ?_
  refine (DotRecord.matmul_zero_apply (M := 2048) (K := 128) (N := 1024) dot_S2048x128_S128x1024_S2048x1024_1_0_0_1_n_n
    rfl rfl rfl rfl rfl rfl _ _ none r s).trans ?_
  exact Finset.sum_congr rfl fun j _ => congrArg (v5 (ix2 r j) * ·) (congrFun (shapeCast_self v10 _) (ix2 j s))

/-- A concatenation whose piece list is N copies of one piece, read at an index: the piece at the axis coordinate
    modulo the piece's extent. -/
theorem concatenate_of_eq_replicate {α : Type} {t s₁ : Shape} (a : Fin t.rank) (N : Nat) (x : s₁.Idx → α)
    (xs : List ((s : Shape) × (s.Idx → α))) (e : xs = List.replicate N ⟨s₁, x⟩)
    (h : Shape.Concatenates (xs.map (·.1)) t a) (hr : s₁.rank = t.rank) (j : t.Idx) (i : s₁.Idx)
    (hia : (i (a.cast hr.symm)).val = (j a).val % s₁.size (a.cast hr.symm))
    (hi : ∀ b : Fin s₁.rank, b.cast hr ≠ a → (i b).val = (j (b.cast hr)).val) :
    concatenate t a xs h j = x i := by
  subst e
  exact concatenate_replicate_apply a N x h hr j i hia hi

/-- The table row a block row reads. -/
abbrev rowMod4 (r : Fin 2048) : Fin 4 := ⟨r.val % 4, Nat.mod_lt _ (by decide)⟩

/-- The epilogue. -/
theorem pay4_apply (v28 : Vec Ideal S4x1024 .f32) (v31 : Vec Ideal S2048x1024 .f32) (v33 : Vec Ideal S1x1024 .f32)
    (r : Fin 2048) (s : Fin 1024) :
    k1_pay4 v28 v31 v33 (ix2 r s)
      = Ideal.tanh ((v31 (ix2 r s) + v28 (ix2 (rowMod4 r) s)) + v33 (ix2 (0 : Fin 1) s)) := by
  unfold k1_pay4
  refine congrArg Ideal.tanh ?_
  refine congrArg₂ (· + ·) (congrArg (v31 (ix2 r s) + ·) ?_) ?_
  · refine (concatenate_of_eq_replicate (t := S2048x1024) (s₁ := S4x1024) (0 : Fin 2) 512 (shapeCast S4x1024 v28 shapeCasts_S4x1024_S4x1024) _ rfl _ rfl
      (ix2 r s) (ix2 (rowMod4 r) s) rfl (fun b hb => ?_)).trans (congrFun (shapeCast_self v28 _) _)
    match b with
    | ⟨0, _⟩ => exact absurd rfl hb
    | ⟨1, _⟩ => rfl
  · exact (DotRecord.broadcastTo_1b_ab_apply (a := 2048) (b := 1024) _ _ r s).trans (congrFun (shapeCast_self v33 _) _)

end Cert.KernelIdeal.Reg1

end
-- ==== Proof.Reg1ValueAcc.lean ====
/- The main kernel's accumulator along the grid, over the extended reals. At a point with last grid coordinate k
   the accumulator holds the sum, over the steps 0..k of the point's output block, of the step's two 128-term
   partial products: the reset leaves 0, each step adds its two products in order, and addition of extended reals
   is associative. At k = 15 the output's staging buffer holds tanh of that sum plus the table row (block row
   modulo 4) plus the bias row. By induction on the point, never by enumerating the grid. -/
import proofs.«176346_j20375324852317_2_alg».proof.Proof.Reg1ValuePieces
import proofs.«176346_j20375324852317_2_alg».proof.Proof.Reg1ValuePay

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The six input blocks at a point, at their literal shapes. -/
abbrev b0 (c : Dev nD) (t : Fin cfg1.N) : Vec Ideal S2048x128 .f32 := iblk1 V c 0 t
abbrev b1 (c : Dev nD) (t : Fin cfg1.N) : Vec Ideal S2048x128 .f32 := iblk1 V c 1 t
abbrev b2 (c : Dev nD) (t : Fin cfg1.N) : Vec Ideal S128x1024 .f32 := iblk1 V c 2 t
abbrev b3 (c : Dev nD) (t : Fin cfg1.N) : Vec Ideal S128x1024 .f32 := iblk1 V c 3 t
abbrev b4 (c : Dev nD) (t : Fin cfg1.N) : Vec Ideal S4x1024 .f32 := iblk1 V c 4 t
abbrev b5 (c : Dev nD) (t : Fin cfg1.N) : Vec Ideal S1x1024 .f32 := iblk1 V c 5 t

/-- The two partial products of the step at a point, at entry (r, s) of the block. -/
def stepAt (c : Dev nD) (t : Fin cfg1.N) (r : Fin 2048) (s : Fin 1024) : EReal :=
  (∑ j : Fin 128, b0 V c t (ix2 r j) * b2 V c t (ix2 j s)) + ∑ j : Fin 128, b1 V c t (ix2 r j) * b3 V c t (ix2 j s)

/-- The same by position, zero past the grid. -/
def stepTerm (c : Dev nD) (n : ℕ) (r : Fin 2048) (s : Fin 1024) : EReal :=
  if h : n < cfg1.N then stepAt V c ⟨n, h⟩ r s else 0

theorem stepTerm_eq (c : Dev nD) (t : Fin cfg1.N) (r : Fin 2048) (s : Fin 1024) :
    stepTerm V c t.val r s = stepAt V c t r s := by
  unfold stepTerm; rw [dif_pos t.isLt]

/-- At a point with last coordinate 0 the accumulator is left at the step's two products. -/
theorem acc_first (c : Dev nD) (t : Fin cfg1.N) (h0 : t.val % 16 = 0) (r : Fin 2048) (s : Fin 1024) :
    (outsAt1 V c t.val t.isLt).2 (ix2 r s) = stepAt V c t r s := by
  have h1 : ¬t.val % 16 = 15 := by omega
  rw [outsAt1_First V c t h0 h1]
  dsimp only
  refine (congrFun (soutFirst_eq (F := Ideal) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (b0 V c t) (b1 V c t) (b2 V c t) (b3 V c t) (b4 V c t) (b5 V c t)) (ix2 r s)).trans ?_
  refine (pay3_apply (b1 V c t) (b3 V c t) (k1_pay2 (b0 V c t) (b2 V c t) (k1_pay1 (F := Ideal))) r s).trans ?_
  refine congrArg (· + ∑ j : Fin 128, b1 V c t (ix2 r j) * b3 V c t (ix2 j s)) ?_
  refine (pay2_apply (b0 V c t) (b2 V c t) (k1_pay1 (F := Ideal)) r s).trans ?_
  rw [pay1_apply r s, zero_add]

/-- At any other point it is left at what the point before left plus the step's two products. -/
theorem acc_step (c : Dev nD) (t : Fin cfg1.N) (h0 : ¬t.val % 16 = 0) (r : Fin 2048) (s : Fin 1024) :
    (outsAt1 V c t.val t.isLt).2 (ix2 r s)
      = (outsAt1 V c (t.val - 1) (Nat.lt_of_le_of_lt (Nat.sub_le _ _) t.isLt)).2 (ix2 r s) + stepAt V c t r s := by
  have key : (k1_pay3 (b1 V c t) (b3 V c t) (k1_pay2 (b0 V c t) (b2 V c t) (outsAt1 V c (t.val - 1) (Nat.lt_of_le_of_lt (Nat.sub_le _ _) t.isLt)).2)) (ix2 r s)
      = (outsAt1 V c (t.val - 1) (Nat.lt_of_le_of_lt (Nat.sub_le _ _) t.isLt)).2 (ix2 r s) + stepAt V c t r s := by
    refine (pay3_apply (b1 V c t) (b3 V c t) (k1_pay2 (b0 V c t) (b2 V c t) (outsAt1 V c (t.val - 1) (Nat.lt_of_le_of_lt (Nat.sub_le _ _) t.isLt)).2) r s).trans ?_
    rw [pay2_apply (b0 V c t) (b2 V c t) (outsAt1 V c (t.val - 1) (Nat.lt_of_le_of_lt (Nat.sub_le _ _) t.isLt)).2 r s, add_assoc]
    rfl
  by_cases h1 : t.val % 16 = 15
  · rw [outsAt1_Last V c t h0 h1]
    dsimp only
    exact (congrFun (soutLast_eq (F := Ideal) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (b0 V c t) (b1 V c t) (b2 V c t) (b3 V c t) (b4 V c t) (b5 V c t) (outsAt1 V c (t.val - 1) (Nat.lt_of_le_of_lt (Nat.sub_le _ _) t.isLt)).2) (ix2 r s)).trans key
  · rw [outsAt1_Mid V c t h0 h1]
    dsimp only
    exact (congrFun (soutMid_eq (F := Ideal) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (b0 V c t) (b1 V c t) (b2 V c t) (b3 V c t) (b4 V c t) (b5 V c t) (outsAt1 V c (t.val - 1) (Nat.lt_of_le_of_lt (Nat.sub_le _ _) t.isLt)).2) (ix2 r s)).trans key

/-- THE RUNNING SUM: after the point at position `n` the accumulator holds the steps of its output block so far. -/
theorem acc_eq (c : Dev nD) : ∀ (n : ℕ) (h : n < cfg1.N) (r : Fin 2048) (s : Fin 1024),
    (outsAt1 V c n h).2 (ix2 r s) = ∑ k ∈ Finset.range (n % 16 + 1), stepTerm V c (n - n % 16 + k) r s := by
  intro n
  induction n with
  | zero =>
    intro h r s
    rw [acc_first V c ⟨0, h⟩ rfl r s, ← stepTerm_eq V c ⟨0, h⟩ r s]
    simp
  | succ n ih =>
    intro h r s
    by_cases h0 : (n + 1) % 16 = 0
    · rw [acc_first V c ⟨n + 1, h⟩ h0 r s, ← stepTerm_eq V c ⟨n + 1, h⟩ r s, h0]
      simp
    · have hs := acc_step V c ⟨n + 1, h⟩ h0 r s
      refine hs.trans ?_
      show (outsAt1 V c n _).2 (ix2 r s) + _ = _
      rw [ih (Nat.lt_of_succ_lt h) r s, ← stepTerm_eq V c ⟨n + 1, h⟩ r s]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-- THE OUTPUT BLOCK at a point with last coordinate 15: tanh of the sixteen steps' sum plus the table row plus the
    bias row. -/
theorem out_last (c : Dev nD) (t : Fin cfg1.N) (h1 : t.val % 16 = 15) (r : Fin 2048) (s : Fin 1024) :
    (outsAt1 V c t.val t.isLt).1 (ix2 r s)
      = Ideal.tanh (((∑ k ∈ Finset.range 16, stepTerm V c (t.val - 15 + k) r s) + b4 V c t (ix2 (rowMod4 r) s))
          + b5 V c t (ix2 (0 : Fin 1) s)) := by
  have h0 : ¬t.val % 16 = 0 := by omega
  have hacc := acc_eq V c t.val t.isLt r s
  rw [h1] at hacc
  rw [outsAt1_Last V c t h0 h1] at hacc ⊢
  dsimp only at hacc ⊢
  have hs := congrFun (soutLast_eq (F := Ideal) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (b0 V c t) (b1 V c t) (b2 V c t) (b3 V c t) (b4 V c t) (b5 V c t) (outsAt1 V c (t.val - 1) (Nat.lt_of_le_of_lt (Nat.sub_le _ _) t.isLt)).2) (ix2 r s)
  refine (congrFun (outLast_eq (F := Ideal) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (b0 V c t) (b1 V c t) (b2 V c t) (b3 V c t) (b4 V c t) (b5 V c t) (outsAt1 V c (t.val - 1) (Nat.lt_of_le_of_lt (Nat.sub_le _ _) t.isLt)).2) (ix2 r s)).trans ?_
  refine (pay4_apply (b4 V c t) (k1_pay3 (b1 V c t) (b3 V c t) (k1_pay2 (b0 V c t) (b2 V c t) (outsAt1 V c (t.val - 1) (Nat.lt_of_le_of_lt (Nat.sub_le _ _) t.isLt)).2)) (b5 V c t) r s).trans ?_
  rw [← hs, hacc]

end Cert.KernelIdeal.Reg1

end
-- ==== Proof.Reg1Value.lean ====
/- The second pallas_call's result array over the extended reals. Each input block read at an entry is the array the
   region finds at the block's offset plus the entry (a block's coordinate is its index times its extent plus the
   coordinate inside it; the printed index maps are decided once over the 128 points). The sixteen steps of an
   output block, each two 128-term products, join into two sums over all 2048 contracted coordinates. The output block
   (i, j) starts at row 2048 i, a multiple of 4, so block row r reads the table row of the global row modulo 4. Every
   entry of the 8192 x 2048 array is in the block of exactly the point (row / 2048, column / 1024, 15), which writes
   it back. -/
import proofs.«176346_j20375324852317_2_alg».proof.Proof.Reg1ValueAcc
import proofs.«176346_j20375324852317_2_alg».proof.Proof.Reg1Body
import proofs.«176346_j20375324852317_2_alg».proof.Proof.LibGroupedSum
import proofs.«176346_j20375324852317_2_alg».proof.Proof.Spec

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL.Sem
open Idealize.ShloMosaic.Pipeline (Dat)
open Cert.Bilinear

variable (V : (c : Dev nD) → (b : Ref sig .tc) → Buf (Elt Ideal) ((c : Thread nD τ).loc b))

/-- The six arrays the region finds, at their literal shapes, as functions to the extended reals. -/
abbrev arrE1 (c : Dev nD) : SB.Idx → EReal := V c main_arg0
abbrev arrE2 (c : Dev nD) : SB.Idx → EReal := V c main_arg1
abbrev arrV1 (c : Dev nD) : SW.Idx → EReal := V c main_v2
abbrev arrV2 (c : Dev nD) : SW.Idx → EReal := V c main_v3
abbrev arrZ (c : Dev nD) : (⟨2, ![4, 2048]⟩ : Shape).Idx → EReal := V c main_v1
abbrev arrB (c : Dev nD) : (⟨2, ![1, 2048]⟩ : Shape).Idx → EReal := V c main_v4

/-- The printed index maps in closed form over the grid: point t is (t / 32, t / 16 mod 2, t mod 16). -/
theorem idx_facts : ∀ t : Fin cfg1.N,
    win1_0.index t (0 : Fin 2) = t.val / 32 ∧ win1_0.index t (1 : Fin 2) = t.val % 16
    ∧ win1_1.index t (0 : Fin 2) = t.val / 32 ∧ win1_1.index t (1 : Fin 2) = t.val % 16
    ∧ win1_2.index t (0 : Fin 2) = t.val % 16 ∧ win1_2.index t (1 : Fin 2) = t.val / 16 % 2
    ∧ win1_3.index t (0 : Fin 2) = t.val % 16 ∧ win1_3.index t (1 : Fin 2) = t.val / 16 % 2
    ∧ win1_4.index t (0 : Fin 2) = 0 ∧ win1_4.index t (1 : Fin 2) = t.val / 16 % 2
    ∧ win1_5.index t (0 : Fin 2) = 0 ∧ win1_5.index t (1 : Fin 2) = t.val / 16 % 2
    ∧ win1_6.index t (0 : Fin 2) = t.val / 32 ∧ win1_6.index t (1 : Fin 2) = t.val / 16 % 2 :=
  (by decide +kernel : ∀ t : Fin grid1.N, _)

/-- Window 0's block at a point, read at an entry: the array as the region finds it at the block's offset plus
    the entry's coordinates. -/
theorem b0_apply (c : Dev nD) (t : Fin cfg1.N) (x : Fin 2048) (y : Fin 128) (p : Fin 8192) (q : Fin 2048)
    (hp : p.val = (t.val / 32) * 2048 + x.val) (hq : q.val = (t.val % 16) * 128 + y.val) :
    b0 V c t (ix2 x y) = arrE1 V c (ix2 p q) := by
  show ((cfg1.win 0).blk t).view.read (Elt Ideal) (V c (Pipeline.arrRef spec1 0)) (ix2 x y) = _
  rw [View.read_apply]
  show V c main_arg0 _ = V c main_arg0 _
  refine congrArg (V c main_arg0) ?_
  obtain ⟨e00, e01, e10, e11, e20, e21, e30, e31, e40, e41, e50, e51, e60, e61⟩ := idx_facts t
  funext a; apply Fin.ext
  match a with
  | ⟨0, _⟩ => show win1_0.index t (0 : Fin 2) * 2048 + 1 * x.val = p.val; rw [e00, hp]; omega
  | ⟨1, _⟩ => show win1_0.index t (1 : Fin 2) * 128 + 1 * y.val = q.val; rw [e01, hq]; omega

/-- Window 1's block at a point, read at an entry: the array as the region finds it at the block's offset plus
    the entry's coordinates. -/
theorem b1_apply (c : Dev nD) (t : Fin cfg1.N) (x : Fin 2048) (y : Fin 128) (p : Fin 8192) (q : Fin 2048)
    (hp : p.val = (t.val / 32) * 2048 + x.val) (hq : q.val = (t.val % 16) * 128 + y.val) :
    b1 V c t (ix2 x y) = arrE2 V c (ix2 p q) := by
  show ((cfg1.win 1).blk t).view.read (Elt Ideal) (V c (Pipeline.arrRef spec1 1)) (ix2 x y) = _
  rw [View.read_apply]
  show V c main_arg1 _ = V c main_arg1 _
  refine congrArg (V c main_arg1) ?_
  obtain ⟨e00, e01, e10, e11, e20, e21, e30, e31, e40, e41, e50, e51, e60, e61⟩ := idx_facts t
  funext a; apply Fin.ext
  match a with
  | ⟨0, _⟩ => show win1_1.index t (0 : Fin 2) * 2048 + 1 * x.val = p.val; rw [e10, hp]; omega
  | ⟨1, _⟩ => show win1_1.index t (1 : Fin 2) * 128 + 1 * y.val = q.val; rw [e11, hq]; omega

/-- Window 2's block at a point, read at an entry: the array as the region finds it at the block's offset plus
    the entry's coordinates. -/
theorem b2_apply (c : Dev nD) (t : Fin cfg1.N) (x : Fin 128) (y : Fin 1024) (p : Fin 2048) (q : Fin 2048)
    (hp : p.val = (t.val % 16) * 128 + x.val) (hq : q.val = (t.val / 16 % 2) * 1024 + y.val) :
    b2 V c t (ix2 x y) = arrV1 V c (ix2 p q) := by
  show ((cfg1.win 2).blk t).view.read (Elt Ideal) (V c (Pipeline.arrRef spec1 2)) (ix2 x y) = _
  rw [View.read_apply]
  show V c main_v2 _ = V c main_v2 _
  refine congrArg (V c main_v2) ?_
  obtain ⟨e00, e01, e10, e11, e20, e21, e30, e31, e40, e41, e50, e51, e60, e61⟩ := idx_facts t
  funext a; apply Fin.ext
  match a with
  | ⟨0, _⟩ => show win1_2.index t (0 : Fin 2) * 128 + 1 * x.val = p.val; rw [e20, hp]; omega
  | ⟨1, _⟩ => show win1_2.index t (1 : Fin 2) * 1024 + 1 * y.val = q.val; rw [e21, hq]; omega

/-- Window 3's block at a point, read at an entry: the array as the region finds it at the block's offset plus
    the entry's coordinates. -/
theorem b3_apply (c : Dev nD) (t : Fin cfg1.N) (x : Fin 128) (y : Fin 1024) (p : Fin 2048) (q : Fin 2048)
    (hp : p.val = (t.val % 16) * 128 + x.val) (hq : q.val = (t.val / 16 % 2) * 1024 + y.val) :
    b3 V c t (ix2 x y) = arrV2 V c (ix2 p q) := by
  show ((cfg1.win 3).blk t).view.read (Elt Ideal) (V c (Pipeline.arrRef spec1 3)) (ix2 x y) = _
  rw [View.read_apply]
  show V c main_v3 _ = V c main_v3 _
  refine congrArg (V c main_v3) ?_
  obtain ⟨e00, e01, e10, e11, e20, e21, e30, e31, e40, e41, e50, e51, e60, e61⟩ := idx_facts t
  funext a; apply Fin.ext
  match a with
  | ⟨0, _⟩ => show win1_3.index t (0 : Fin 2) * 128 + 1 * x.val = p.val; rw [e30, hp]; omega
  | ⟨1, _⟩ => show win1_3.index t (1 : Fin 2) * 1024 + 1 * y.val = q.val; rw [e31, hq]; omega

/-- Window 4's block at a point, read at an entry: the array as the region finds it at the block's offset plus
    the entry's coordinates. -/
theorem b4_apply (c : Dev nD) (t : Fin cfg1.N) (x : Fin 4) (y : Fin 1024) (p : Fin 4) (q : Fin 2048)
    (hp : p.val = (0) * 4 + x.val) (hq : q.val = (t.val / 16 % 2) * 1024 + y.val) :
    b4 V c t (ix2 x y) = arrZ V c (ix2 p q) := by
  show ((cfg1.win 4).blk t).view.read (Elt Ideal) (V c (Pipeline.arrRef spec1 4)) (ix2 x y) = _
  rw [View.read_apply]
  show V c main_v1 _ = V c main_v1 _
  refine congrArg (V c main_v1) ?_
  obtain ⟨e00, e01, e10, e11, e20, e21, e30, e31, e40, e41, e50, e51, e60, e61⟩ := idx_facts t
  funext a; apply Fin.ext
  match a with
  | ⟨0, _⟩ => show win1_4.index t (0 : Fin 2) * 4 + 1 * x.val = p.val; rw [e40, hp]; omega
  | ⟨1, _⟩ => show win1_4.index t (1 : Fin 2) * 1024 + 1 * y.val = q.val; rw [e41, hq]; omega

/-- Window 5's block at a point, read at an entry: the array as the region finds it at the block's offset plus
    the entry's coordinates. -/
theorem b5_apply (c : Dev nD) (t : Fin cfg1.N) (x : Fin 1) (y : Fin 1024) (p : Fin 1) (q : Fin 2048)
    (hp : p.val = (0) * 1 + x.val) (hq : q.val = (t.val / 16 % 2) * 1024 + y.val) :
    b5 V c t (ix2 x y) = arrB V c (ix2 p q) := by
  show ((cfg1.win 5).blk t).view.read (Elt Ideal) (V c (Pipeline.arrRef spec1 5)) (ix2 x y) = _
  rw [View.read_apply]
  show V c main_v4 _ = V c main_v4 _
  refine congrArg (V c main_v4) ?_
  obtain ⟨e00, e01, e10, e11, e20, e21, e30, e31, e40, e41, e50, e51, e60, e61⟩ := idx_facts t
  funext a; apply Fin.ext
  match a with
  | ⟨0, _⟩ => show win1_5.index t (0 : Fin 2) * 1 + 1 * x.val = p.val; rw [e50, hp]; omega
  | ⟨1, _⟩ => show win1_5.index t (1 : Fin 2) * 1024 + 1 * y.val = q.val; rw [e51, hq]; omega

/-- The result array as one function of the arrays the region finds. -/
def G (c : Dev nD) : SB.Idx → EReal :=
  fun i => combine (V c main_arg0) (V c main_arg1) (V c main_v2) (V c main_v3) (V c main_v1) (V c main_v4) (i 0) (i 1)

/-- THE SIXTEEN STEPS of the output block whose last point is `t`, at block entry (r, s), are the two full
    contractions at the global entry (p, q). -/
theorem steps_eq (c : Dev nD) (t : Fin cfg1.N) (h15 : t.val % 16 = 15) (r : Fin 2048) (s : Fin 1024)
    (p : Fin 8192) (q : Fin 2048) (hp : p.val = (t.val / 32) * 2048 + r.val) (hq : q.val = (t.val / 16 % 2) * 1024 + s.val) :
    ∑ k ∈ Finset.range 16, stepTerm V c (t.val - 15 + k) r s
      = (∑ j : Fin 2048, arrE1 V c (ix2 p j) * arrV1 V c (ix2 j q))
        + ∑ j : Fin 2048, arrE2 V c (ix2 p j) * arrV2 V c (ix2 j q) := by
  have hN : t.val < 128 := lt_of_lt_of_eq t.isLt N_1
  rw [Finset.sum_range (fun k => stepTerm V c (t.val - 15 + k) r s)]
  rw [GroupedSum.sum_groups (J := 16) (B := 128) (K := 2048) rfl
      (fun j => arrE1 V c (ix2 p j) * arrV1 V c (ix2 j q)),
    GroupedSum.sum_groups (J := 16) (B := 128) (K := 2048) rfl
      (fun j => arrE2 V c (ix2 p j) * arrV2 V c (ix2 j q)),
    ← Finset.sum_add_distrib]
  refine Finset.sum_congr rfl fun k _ => ?_
  have hk16 : k.val < 16 := k.isLt
  have hk : t.val - 15 + k.val < cfg1.N := lt_of_lt_of_eq (by omega : t.val - 15 + k.val < 128) N_1.symm
  refine (stepTerm_eq V c ⟨t.val - 15 + k.val, hk⟩ r s).trans ?_
  unfold stepAt
  refine congrArg₂ (· + ·) (Finset.sum_congr rfl fun j _ => ?_) (Finset.sum_congr rfl fun j _ => ?_)
  · have hj : j.val < 128 := j.isLt
    rw [b0_apply V c ⟨t.val - 15 + k.val, hk⟩ r j p ⟨k.val * 128 + j.val, GroupedSum.group_lt rfl k j⟩
        (by show p.val = ((t.val - 15 + k.val) / 32) * 2048 + r.val; omega)
        (by show k.val * 128 + j.val = ((t.val - 15 + k.val) % 16) * 128 + j.val; omega),
      b2_apply V c ⟨t.val - 15 + k.val, hk⟩ j s ⟨k.val * 128 + j.val, GroupedSum.group_lt rfl k j⟩ q
        (by show k.val * 128 + j.val = ((t.val - 15 + k.val) % 16) * 128 + j.val; omega)
        (by show q.val = ((t.val - 15 + k.val) / 16 % 2) * 1024 + s.val; omega)]
  · have hj : j.val < 128 := j.isLt
    rw [b1_apply V c ⟨t.val - 15 + k.val, hk⟩ r j p ⟨k.val * 128 + j.val, GroupedSum.group_lt rfl k j⟩
        (by show p.val = ((t.val - 15 + k.val) / 32) * 2048 + r.val; omega)
        (by show k.val * 128 + j.val = ((t.val - 15 + k.val) % 16) * 128 + j.val; omega),
      b3_apply V c ⟨t.val - 15 + k.val, hk⟩ j s ⟨k.val * 128 + j.val, GroupedSum.group_lt rfl k j⟩ q
        (by show k.val * 128 + j.val = ((t.val - 15 + k.val) % 16) * 128 + j.val; omega)
        (by show q.val = ((t.val - 15 + k.val) / 16 % 2) * 1024 + s.val; omega)]

/-- What a point with last coordinate 15 leaves in the output's staging buffer, entry by entry: the result function
    at the global entry. -/
theorem out_last_G (c : Dev nD) (t : Fin cfg1.N) (h15 : t.val % 16 = 15) (r : Fin 2048) (s : Fin 1024)
    (p : Fin 8192) (q : Fin 2048) (hp : p.val = (t.val / 32) * 2048 + r.val) (hq : q.val = (t.val / 16 % 2) * 1024 + s.val) :
    (outsAt1 V c t.val t.isLt).1 (ix2 r s) = G V c (ix2 p q) := by
  rw [out_last V c t h15 r s, steps_eq V c t h15 r s p q hp hq,
    b4_apply V c t (rowMod4 r) s ⟨p.val % 4, Nat.mod_lt _ (by decide)⟩ q (by show p.val % 4 = 0 * 4 + r.val % 4; omega) hq,
    b5_apply V c t (0 : Fin 1) s (0 : Fin 1) q (by show (0 : ℕ) = 0 * 1 + 0; rfl) hq]
  rfl

/-- WHAT POINT `t` WRITES BACK is its block of the result function. -/
theorem flushed_eq (c : Dev nD) (t : Fin cfg1.N) (hf : (cfg1.win 6).flush t = true) :
    (dat V c).flushed 6 t = ((cfg1.win 6).blk t).view.read (Elt Ideal) (G V c) := by
  have h15 : t.val % 16 = 15 := (flush1_6 t).mp hf
  obtain ⟨e00, e01, e10, e11, e20, e21, e30, e31, e40, e41, e50, e51, e60, e61⟩ := idx_facts t
  show (cfg1.win 6).cut (grid1.coords t) ((dat V c).after 6 t) = _
  rw [after6]
  funext y
  rw [View.read_apply]
  have hy0 : (y 0).val < 2048 := (y 0).isLt
  have hy1 : (y 1).val < 1024 := (y 1).isLt
  have hN : t.val < 128 := lt_of_lt_of_eq t.isLt N_1
  refine (congrArg (outsAt1 V c t.val t.isLt).1 (eq_ix2 y)).trans ?_
  refine (out_last_G V c t h15 (y 0) (y 1) ⟨(t.val / 32) * 2048 + (y 0).val, by omega⟩ ⟨(t.val / 16 % 2) * 1024 + (y 1).val, by omega⟩ rfl rfl).trans ?_
  refine congrArg (G V c) ?_
  funext a; apply Fin.ext
  match a with
  | ⟨0, _⟩ => show (t.val / 32) * 2048 + (y 0).val = win1_6.index t (0 : Fin 2) * 2048 + 1 * (y 0).val; rw [e60]; omega
  | ⟨1, _⟩ => show (t.val / 16 % 2) * 1024 + (y 1).val = win1_6.index t (1 : Fin 2) * 1024 + 1 * (y 1).val; rw [e61]; omega

/-- An entry of the array is in point `t`'s block iff each coordinate is in the block's range on its axis. -/
theorem mem_blk (t : Fin cfg1.N) (i : S8192x2048.Idx) :
    i ∈ ((cfg1.win 6).blk t).view.set ↔ ∀ a : Fin 2, win1_6.index t a * S2048x1024.size a ≤ (i a).val ∧ (i a).val < win1_6.index t a * S2048x1024.size a + S2048x1024.size a := by
  show i ∈ ((View.whole main_v5).slice (win1_6.rect t)).set ↔ _
  rw [View.set_slice_whole, Rect.mem_set_unit]
  exact Iff.rfl

/-- Every entry of the array is in the block of a point that writes back: (row / 2048, column / 1024, 15). -/
theorem cover (i : S8192x2048.Idx) : ∃ t : Fin cfg1.N, (cfg1.win 6).flush t = true ∧ i ∈ ((cfg1.win 6).blk t).view.set := by
  have hi0 : (i 0).val < 8192 := (i 0).isLt
  have hi1 : (i 1).val < 2048 := (i 1).isLt
  have hlt : 32 * ((i 0).val / 2048) + 16 * ((i 1).val / 1024) + 15 < cfg1.N :=
    lt_of_lt_of_eq (by omega : 32 * ((i 0).val / 2048) + 16 * ((i 1).val / 1024) + 15 < 128) N_1.symm
  refine ⟨⟨32 * ((i 0).val / 2048) + 16 * ((i 1).val / 1024) + 15, hlt⟩, (flush1_6 _).mpr (by show (32 * ((i 0).val / 2048) + 16 * ((i 1).val / 1024) + 15) % 16 = 15; omega), ?_⟩
  rw [mem_blk]
  obtain ⟨e00, e01, e10, e11, e20, e21, e30, e31, e40, e41, e50, e51, e60, e61⟩ := idx_facts ⟨32 * ((i 0).val / 2048) + 16 * ((i 1).val / 1024) + 15, hlt⟩
  intro a
  match a with
  | ⟨0, _⟩ =>
    show win1_6.index _ (0 : Fin 2) * 2048 ≤ (i 0).val ∧ (i 0).val < win1_6.index _ (0 : Fin 2) * 2048 + 2048
    rw [e60]; show (32 * ((i 0).val / 2048) + 16 * ((i 1).val / 1024) + 15) / 32 * 2048 ≤ (i 0).val ∧ (i 0).val < (32 * ((i 0).val / 2048) + 16 * ((i 1).val / 1024) + 15) / 32 * 2048 + 2048; omega
  | ⟨1, _⟩ =>
    show win1_6.index _ (1 : Fin 2) * 1024 ≤ (i 1).val ∧ (i 1).val < win1_6.index _ (1 : Fin 2) * 1024 + 1024
    rw [e61]; show (32 * ((i 0).val / 2048) + 16 * ((i 1).val / 1024) + 15) / 16 % 2 * 1024 ≤ (i 1).val ∧ (i 1).val < (32 * ((i 0).val / 2048) + 16 * ((i 1).val / 1024) + 15) / 16 % 2 * 1024 + 1024; omega

/-- THE RESULT ARRAY after the region, entry by entry. -/
theorem final (c : Dev nD) (p : Fin 8192) (q : Fin 2048) :
    (dat V c).arrAt 6 cfg1.N (ValueIdx.ix2 p q) = Cert.Bilinear.combine (V c main_arg0) (V c main_arg1) (V c main_v2) (V c main_v3) (V c main_v1) (V c main_v4) p q :=
  congrFun ((dat V c).arrAt_eq_of_cover 6 (G V c) (fun t hf => flushed_eq V c t hf) cover) (ix2 p q)

end Cert.KernelIdeal.Reg1

end
-- ==== Proof.AsmValue.lean ====
/-
  The idealized kernel program's result, read back to the launch arrays (everything here is at the instance where a float
  is an extended real).

  The second kernel's result at (p, q) is  tanh (((sum_j E1[p,j] V1[j,q] + sum_j E2[p,j] V2[j,q]) + Z[p mod 4, q]) + B[0,q])
  of ITS operands.  Those are: the two batches as launched (nothing before writes them); V1, V2 the rows 0..2047 and
  2048..4095 of the tall matrix (two unit-stride slices); B the bias with a unit axis in front; Z the first kernel's
  4 x 2048 x 1 result with its unit axis dropped, whose entry (mm, q) is the bilinear form of row 2048 mm + q of the two
  batches against row q of W, times 2^-11.  A reshape keeps an entry's row-major position, so Z[mm, q] is entry (mm, q, 0)
  and B[0, q] is entry q.  Put together this is the kernel's arrangement of the specification, `Gker`.
-/
import proofs.«176346_j20375324852317_2_alg».proof.Proof.Asm
import proofs.«176346_j20375324852317_2_alg».proof.Proof.Reg0Value
import proofs.«176346_j20375324852317_2_alg».proof.Proof.Reg1Value
import proofs.«176346_j20375324852317_2_alg».proof.Proof.Spec
import Idealize.ShloMosaic.Lib.StableHlo.Run
import Idealize.ShloMosaic.Lib.Pipeline.Value

set_option maxRecDepth 16384

noncomputable section

namespace Cert.KernelIdeal.AsmValue

open Cert.KernelIdeal Cert.KernelIdeal.Gen Cert.KernelIdeal.Asm Cert.Bilinear
open Idealize.ShloMosaic Idealize.ShloMosaic.TcCoe Idealize.ShloMosaic.ValueIdx Idealize.SL.Sem

variable (m : (ℓ : Loc nD τ sig) → Buf (Elt Ideal) ℓ)

/-! ## The second kernel's six operands, read back to the launch arrays -/

/-- The two batches reach the second kernel as launched: the first kernel only reads them, no host operation writes them. -/
theorem V2_arg0 (c : Dev nD) : V2 m c main_arg0 = m ((c : Thread nD τ).loc main_arg0) :=
  (W2_of m c main_arg0 (by decide)).trans ((W1_arr m c 0).trans (((Reg0.dat (V0 m) c).arrAt_in 0 rfl _).trans (Reg0.A_eq (V0 m) c 0)))
theorem V2_arg1 (c : Dev nD) : V2 m c main_arg1 = m ((c : Thread nD τ).loc main_arg1) :=
  (W2_of m c main_arg1 (by decide)).trans ((W1_arr m c 1).trans (((Reg0.dat (V0 m) c).arrAt_in 1 rfl _).trans (Reg0.A_eq (V0 m) c 1)))
/-- The tall matrix and the bias are untouched by the first kernel. -/
theorem W1_arg3 (c : Dev nD) : W1 m c (Proc.devRef .tc main_arg3) = m ((c : Thread nD τ).loc main_arg3) := W1_of_ne m c main_arg3 (by decide)
theorem W1_arg4 (c : Dev nD) : W1 m c (Proc.devRef .tc main_arg4) = m ((c : Thread nD τ).loc main_arg4) := W1_of_ne m c main_arg4 (by decide)

/-- The upper square half of the tall matrix: rows 0 .. 2047. -/
theorem V2_v2_apply (c : Dev nD) (j q : Fin 2048) :
    (V2 m c main_v2 : S2048x2048.Idx → EReal) (ix2 j q)
      = (m ((c : Thread nD τ).loc main_arg3) : S4096x2048.Idx → EReal) (ix2 (⟨j.val, by omega⟩ : Fin 4096) q) := by
  have e : (V2 m c main_v2 : S2048x2048.Idx → EReal)
      = extractStridedSlice S2048x2048 ![0, 0] (W1 m c (Proc.devRef .tc main_arg3)) slices_S4096x2048_S2048x2048_0_0 := by
    dsimp only [Asm.V2, Asm.W2, hostOps1]; after_results
  rw [e, W1_arg3]
  exact extractStridedSlice_apply _ _ _ _ _ (fun a => match a with | ⟨0, _⟩ => (Nat.zero_add _).symm | ⟨1, _⟩ => (Nat.zero_add _).symm)

/-- The lower square half: rows 2048 .. 4095. -/
theorem V2_v3_apply (c : Dev nD) (j q : Fin 2048) :
    (V2 m c main_v3 : S2048x2048.Idx → EReal) (ix2 j q)
      = (m ((c : Thread nD τ).loc main_arg3) : S4096x2048.Idx → EReal) (ix2 (⟨2048 + j.val, by omega⟩ : Fin 4096) q) := by
  have e : (V2 m c main_v3 : S2048x2048.Idx → EReal)
      = extractStridedSlice S2048x2048 ![2048, 0] (W1 m c (Proc.devRef .tc main_arg3)) slices_S4096x2048_S2048x2048_2048_0 := by
    dsimp only [Asm.V2, Asm.W2, hostOps1]; after_results
  rw [e, W1_arg3]
  exact extractStridedSlice_apply _ _ _ _ _ (fun a => match a with | ⟨0, _⟩ => rfl | ⟨1, _⟩ => (Nat.zero_add _).symm)

/-- The bias as a row. -/
theorem V2_v4_apply (c : Dev nD) (q : Fin 2048) :
    (V2 m c main_v4 : S1x2048.Idx → EReal) (ix2 (0 : Fin 1) q) = (m ((c : Thread nD τ).loc main_arg4) : S2048.Idx → EReal) (ix1 q) := by
  have e : (V2 m c main_v4 : S1x2048.Idx → EReal)
      = shapeCast S1x2048 (W1 m c (Proc.devRef .tc main_arg4) : S2048.Idx → EReal) shapeCasts_S2048_S1x2048 := by
    dsimp only [Asm.V2, Asm.W2, hostOps1]; after_results; rfl
  rw [e, W1_arg4]
  refine shapeCast_apply _ _ (ix2 (0 : Fin 1) q) (ix1 q) ?_
  rw [Shape.rowMajor_val_one, Shape.rowMajor_val_two]
  show q.val = 0 * 2048 + q.val
  omega

/-- The table of the first kernel's results, its unit axis dropped: entry (mm, q) is the scaled bilinear form of row
    2048 mm + q. -/
theorem V2_v1_apply (c : Dev nD) (mm : Fin 4) (q : Fin 2048) :
    (V2 m c main_v1 : S4x2048.Idx → EReal) (ix2 mm q)
      = diag (m ((c : Thread nD τ).loc main_arg0)) (m ((c : Thread nD τ).loc main_arg1)) (m ((c : Thread nD τ).loc main_arg2)) mm q := by
  have e : (V2 m c main_v1 : S4x2048.Idx → EReal)
      = shapeCast S4x2048 (W1 m c (Proc.devRef .tc main_v0) : S4x2048x1.Idx → EReal) shapeCasts_S4x2048x1_S4x2048 := by
    dsimp only [Asm.V2, Asm.W2, hostOps1]; after_results; rfl
  rw [e]
  refine (shapeCast_apply _ _ (ix2 mm q) (ix3 mm q (0 : Fin 1)) ?_).trans ?_
  · rw [Shape.rowMajor_val_three, Shape.rowMajor_val_two]
    show (mm.val * 2048 + q.val) * 1 + 0 = mm.val * 2048 + q.val
    omega
  · rw [show W1 m c (Proc.devRef .tc main_v0) = (Reg0.dat (V0 m) c).arrAt 3 cfg0.N from W1_arr m c 3]
    exact Reg0.final (V0 m) c mm q

/-! ## The result -/

/-- Entry (p, q) of the result array after the run is the kernel's arrangement of the specification at the launch arrays. -/
theorem out_apply (c : Dev nD) (p : Fin 8192) (q : Fin 2048) :
    (W3 m c (Proc.devRef .tc main_v5) : S8192x2048.Idx → EReal) (ix2 p q)
      = Gker (m ((c : Thread nD τ).loc main_arg0)) (m ((c : Thread nD τ).loc main_arg1)) (m ((c : Thread nD τ).loc main_arg2))
          (m ((c : Thread nD τ).loc main_arg3)) (m ((c : Thread nD τ).loc main_arg4)) p q := by
  rw [show W3 m c (Proc.devRef .tc main_v5) = (Reg1.dat (V2 m) c).arrAt 6 cfg1.N from W3_arr m c 6]
  rw [Reg1.final (V2 m) c p q]
  unfold combine Gker ffSplit
  rw [V2_arg0, V2_arg1, V2_v1_apply, V2_v4_apply]
  refine congrArg Ideal.tanh ?_
  refine congrArg₂ (· + ·) (congrArg₂ (· + ·) (congrArg₂ (· + ·) ?_ ?_) ?_) rfl
  · exact Finset.sum_congr rfl fun j _ => by rw [V2_v2_apply m c j q]
  · exact Finset.sum_congr rfl fun j _ => by rw [V2_v3_apply m c j q]
  · rfl

/-- The same as one function of the index. -/
theorem out_eq (c : Dev nD) :
    (W3 m c (Proc.devRef .tc main_v5) : S8192x2048.Idx → EReal)
      = fun i => Gker (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  funext i
  rw [eq_ix2 i]
  exact out_apply m c (i 0) (i 1)

/-- THE VALUED RUN at the ideal instance: the result array ends at the specification, the five arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v5) = (fun i => Gker (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (out_eq m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (Asm.run m ρ)

end Cert.KernelIdeal.AsmValue

end
-- ==== Proof.RefOps.lean ====
/-
  The reference program's @main as ONE list of host operations: its 43 own lines, with the 20 lines of the outlined
  remainder (and, inside it, the one line of the outlined select) written at the call site over that call's buffers.
  Running the list in order is running @main; each buffer then holds the fold of the operations over the launch contents.
-/
import proofs.«176346_j20375324852317_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 64 operations, in program order. -/
abbrev ops : List (HloOp τ sig (Elt F)) :=
  [ StableHlo.binary main_arg0 main_arg1 main_v0 ((fun a b => concatenate S8192x4096 1 [⟨S8192x2048, a⟩, ⟨S8192x2048, b⟩] concatenates_S8192x2048_S8192x2048_S8192x4096_d1) : (⟨S8192x2048, .f32⟩ : BufTy).Contents (Elt F) → (⟨S8192x2048, .f32⟩ : BufTy).Contents (Elt F) → (⟨S8192x4096, .f32⟩ : BufTy).Contents (Elt F)),
    StableHlo.binary main_v0 main_arg3 main_v1 ((fun l r => Host.dotGeneral dot_S8192x4096_S4096x2048_S8192x2048_1_0_0_1_n_n none l r) : (⟨S8192x4096, .f32⟩ : BufTy).Contents (Elt F) → (⟨S4096x2048, .f32⟩ : BufTy).Contents (Elt F) → (⟨S8192x2048, .f32⟩ : BufTy).Contents (Elt F)),
    StableHlo.binary main_arg0 main_arg1 main_v2 (mulf : (⟨S8192x2048, .f32⟩ : BufTy).Contents (Elt F) → (⟨S8192x2048, .f32⟩ : BufTy).Contents (Elt F) → (⟨S8192x2048, .f32⟩ : BufTy).Contents (Elt F)),
    StableHlo.unary main_arg2 main_v3 ((transpose S2048x2048 [1, 0] · transposes_S2048x2048_S2048x2048_1_0) : (⟨S2048x2048, .f32⟩ : BufTy).Contents (Elt F) → (⟨S2048x2048, .f32⟩ : BufTy).Contents (Elt F)),
    StableHlo.binary main_v2 main_v3 main_v4 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.nullary main_cst (constant S_ .f32 0x45000000#32),
    StableHlo.unary main_cst main_v5 (broadcastInDim S8192x2048 ![] bcast_S_S8192x2048 : (⟨S_, .f32⟩ : BufTy).Contents (Elt F) → (⟨S8192x2048, .f32⟩ : BufTy).Contents (Elt F)),
    StableHlo.binary main_v4 main_v5 main_v6 (Host.divf : (⟨S8192x2048, .f32⟩ : BufTy).Contents (Elt F) → (⟨S8192x2048, .f32⟩ : BufTy).Contents (Elt F) → (⟨S8192x2048, .f32⟩ : BufTy).Contents (Elt F)),
    StableHlo.nullary main_v7 (iotaInDim S2048 32 0),
    StableHlo.unary main_v7 main_v8 (broadcastInDim S1x2048 ![1] bcast_S2048_S1x2048_1 : (⟨S2048, .i32⟩ : BufTy).Contents (Elt F) → (⟨S1x2048, .i32⟩ : BufTy).Contents (Elt F)),
    StableHlo.nullary main_v9 (iotaInDim S8192 32 0),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.nullary main_c (constantI S_ 32 2048#32),
    StableHlo.unary main_c main_v11 (broadcastInDim S8192x1 ![] bcast_S_S8192x1 : (⟨S_, .i32⟩ : BufTy).Contents (Elt F) → (⟨S8192x1, .i32⟩ : BufTy).Contents (Elt F)),
    StableHlo.binary main_v10 main_v11 main_v12 (muli : (⟨S8192x1, .i32⟩ : BufTy).Contents (Elt F) → (⟨S8192x1, .i32⟩ : BufTy).Contents (Elt F) → (⟨S8192x1, .i32⟩ : BufTy).Contents (Elt F)),
    StableHlo.unary main_v12 main_v13 (broadcastInDim S8192x2048 ![0, 1] bcast_S8192x1_S8192x2048_0_1 : (⟨S8192x1, .i32⟩ : BufTy).Contents (Elt F) → (⟨S8192x2048, .i32⟩ : BufTy).Contents (Elt F)),
    StableHlo.unary main_v8 main_v14 (broadcastInDim S8192x2048 ![0, 1] bcast_S1x2048_S8192x2048_0_1 : (⟨S1x2048, .i32⟩ : BufTy).Contents (Elt F) → (⟨S8192x2048, .i32⟩ : BufTy).Contents (Elt F)),
    StableHlo.binary main_v13 main_v14 main_v15 (addi : (⟨S8192x2048, .i32⟩ : BufTy).Contents (Elt F) → (⟨S8192x2048, .i32⟩ : BufTy).Contents (Elt F) → (⟨S8192x2048, .i32⟩ : BufTy).Contents (Elt F)),
    StableHlo.nullary main_c_0 (constantI S_ 32 8192#32),
    StableHlo.TRef.unary (.of main_c_0) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192x2048 ![] bcast_S_S8192x2048),
    StableHlo.TRef.binary (.of main_v15) main_call0.v3 main_call0.v4 Host.remsi,
    StableHlo.TRef.nullary main_call0.c_1 (constantI S_ 32 0#32),
    StableHlo.TRef.unary main_call0.c_1 main_call0.v5 (broadcastInDim S8192x2048 ![] bcast_S_S8192x2048),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192x2048 ![] bcast_S_S8192x2048),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192x2048 ![] bcast_S_S8192x2048),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192x2048 ![] bcast_S_S8192x2048),
    StableHlo.TRef.binary main_call0.v4 main_call0.v13 main_call0.v14 addi,
    StableHlo.TRef.ternary main_call0.v12 main_call0.v14 main_call0.v4 main_call0.v15 select,
    StableHlo.nullary main_c_1 (constantI S_ 32 0#32),
    StableHlo.unary main_c_1 main_v17 (broadcastInDim S8192x2048 ![] bcast_S_S8192x2048 : (⟨S_, .i32⟩ : BufTy).Contents (Elt F) → (⟨S8192x2048, .i32⟩ : BufTy).Contents (Elt F)),
    StableHlo.binary main_v16 main_v17 main_v18 (cmpi .slt : (⟨S8192x2048, .i32⟩ : BufTy).Contents (Elt F) → (⟨S8192x2048, .i32⟩ : BufTy).Contents (Elt F) → (⟨S8192x2048, .i1⟩ : BufTy).Contents (Elt F)),
    StableHlo.nullary main_c_2 (constantI S_ 32 8192#32),
    StableHlo.unary main_c_2 main_v19 (broadcastInDim S8192x2048 ![] bcast_S_S8192x2048 : (⟨S_, .i32⟩ : BufTy).Contents (Elt F) → (⟨S8192x2048, .i32⟩ : BufTy).Contents (Elt F)),
    StableHlo.binary main_v16 main_v19 main_v20 (addi : (⟨S8192x2048, .i32⟩ : BufTy).Contents (Elt F) → (⟨S8192x2048, .i32⟩ : BufTy).Contents (Elt F) → (⟨S8192x2048, .i32⟩ : BufTy).Contents (Elt F)),
    StableHlo.ternary main_v18 main_v20 main_v16 main_v21 (select : (⟨S8192x2048, .i1⟩ : BufTy).Contents (Elt F) → (⟨S8192x2048, .i32⟩ : BufTy).Contents (Elt F) → (⟨S8192x2048, .i32⟩ : BufTy).Contents (Elt F) → (⟨S8192x2048, .i32⟩ : BufTy).Contents (Elt F)),
    StableHlo.nullary main_c_3 (constantI S_ 32 0#32),
    StableHlo.unary main_c_3 main_v22 (broadcastInDim S1x2048 ![] bcast_S_S1x2048 : (⟨S_, .i32⟩ : BufTy).Contents (Elt F) → (⟨S1x2048, .i32⟩ : BufTy).Contents (Elt F)),
    StableHlo.binary main_v8 main_v22 main_v23 (cmpi .slt : (⟨S1x2048, .i32⟩ : BufTy).Contents (Elt F) → (⟨S1x2048, .i32⟩ : BufTy).Contents (Elt F) → (⟨S1x2048, .i1⟩ : BufTy).Contents (Elt F)),
    StableHlo.nullary main_c_4 (constantI S_ 32 2048#32),
    StableHlo.unary main_c_4 main_v24 (broadcastInDim S1x2048 ![] bcast_S_S1x2048 : (⟨S_, .i32⟩ : BufTy).Contents (Elt F) → (⟨S1x2048, .i32⟩ : BufTy).Contents (Elt F)),
    StableHlo.binary main_v8 main_v24 main_v25 (addi : (⟨S1x2048, .i32⟩ : BufTy).Contents (Elt F) → (⟨S1x2048, .i32⟩ : BufTy).Contents (Elt F) → (⟨S1x2048, .i32⟩ : BufTy).Contents (Elt F)),
    StableHlo.ternary main_v23 main_v25 main_v8 main_v26 (select : (⟨S1x2048, .i1⟩ : BufTy).Contents (Elt F) → (⟨S1x2048, .i32⟩ : BufTy).Contents (Elt F) → (⟨S1x2048, .i32⟩ : BufTy).Contents (Elt F) → (⟨S1x2048, .i32⟩ : BufTy).Contents (Elt F)),
    StableHlo.unary main_v26 main_v27 (broadcastInDim S8192x2048 ![0, 1] bcast_S1x2048_S8192x2048_0_1 : (⟨S1x2048, .i32⟩ : BufTy).Contents (Elt F) → (⟨S8192x2048, .i32⟩ : BufTy).Contents (Elt F)),
    StableHlo.unary main_v21 main_v28 (broadcastInDim S8192x2048x1 ![0, 1] bcast_S8192x2048_S8192x2048x1_0_1 : (⟨S8192x2048, .i32⟩ : BufTy).Contents (Elt F) → (⟨S8192x2048x1, .i32⟩ : BufTy).Contents (Elt F)),
    StableHlo.unary main_v27 main_v29 (broadcastInDim S8192x2048x1 ![0, 1] bcast_S8192x2048_S8192x2048x1_0_1 : (⟨S8192x2048, .i32⟩ : BufTy).Contents (Elt F) → (⟨S8192x2048x1, .i32⟩ : BufTy).Contents (Elt F)),
    StableHlo.binary main_v28 main_v29 main_v30 ((fun a b => concatenate S8192x2048x2 2 [⟨S8192x2048x1, a⟩, ⟨S8192x2048x1, b⟩] concatenates_S8192x2048x1_S8192x2048x1_S8192x2048x2_d2) : (⟨S8192x2048x1, .i32⟩ : BufTy).Contents (Elt F) → (⟨S8192x2048x1, .i32⟩ : BufTy).Contents (Elt F) → (⟨S8192x2048x2, .i32⟩ : BufTy).Contents (Elt F)),
    StableHlo.binary main_v6 main_v30 main_v31 ((fun x i => Host.gather gather_S8192x2048_S8192x2048x2_S8192x2048_n_01_n_n_01_2_11 x i) : (⟨S8192x2048, .f32⟩ : BufTy).Contents (Elt F) → (⟨S8192x2048x2, .i32⟩ : BufTy).Contents (Elt F) → (⟨S8192x2048, .f32⟩ : BufTy).Contents (Elt F)),
    StableHlo.binary main_v31 main_v1 main_v32 (addf : (⟨S8192x2048, .f32⟩ : BufTy).Contents (Elt F) → (⟨S8192x2048, .f32⟩ : BufTy).Contents (Elt F) → (⟨S8192x2048, .f32⟩ : BufTy).Contents (Elt F)),
    StableHlo.unary main_arg4 main_v33 (broadcastInDim S1x2048 ![1] bcast_S2048_S1x2048_1 : (⟨S2048, .f32⟩ : BufTy).Contents (Elt F) → (⟨S1x2048, .f32⟩ : BufTy).Contents (Elt F)),
    StableHlo.unary main_v33 main_v34 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v32 main_v34 main_v35 (addf : (⟨S8192x2048, .f32⟩ : BufTy).Contents (Elt F) → (⟨S8192x2048, .f32⟩ : BufTy).Contents (Elt F) → (⟨S8192x2048, .f32⟩ : BufTy).Contents (Elt F)),
    StableHlo.unary main_v35 main_v36 (Host.tanh : (⟨S8192x2048, .f32⟩ : BufTy).Contents (Elt F) → (⟨S8192x2048, .f32⟩ : BufTy).Contents (Elt F)) ]

-- one bind per operation is re-associated: the rewrite recurses once per statement
set_option maxRecDepth 2048 in
/-- @main is that straight line: the two outlined functions unfolded at their calls. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., unary_bufs_sub .., binary_bufs_sub .., unary_bufs_sub ..⟩

/-- Every weakly fair execution of @main ends, with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefDefs.lean ====
/-
  The reference's values as named arrays, each the composition of host operations that the program spells.

  Integer side, all 32-bit words: the column numbers as a row (iCols); the linear index 2048 p + q (iLin); the divisor 8192 after
  the remainder's guard against a zero divisor (iDiv); the truncated remainder (iRem); the remainder moved to the divisor's sign
  (iMod); the row index after the wrap of a negative index (iRows); the column index after the same wrap (iColsW); and the array
  of index pairs (row, column) the gather reads (iIdx).
  Float side, at the extended reals: the bilinear products divided by the word of 2048 (uArr), the feed-forward product of the
  joined rows (ffArr), and the whole result (refOut): tanh of the gathered quotient plus the product plus the bias row.
-/
import proofs.«176346_j20375324852317_2_alg».proof.Proof.Gen.ReferenceIdeal
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The column numbers 0 … 2047 as a one-row matrix: (0, q) ↦ q. -/
def iCols : IVec S1x2048 32 := broadcastInDim S1x2048 ![1] bcast_S2048_S1x2048_1 (iotaInDim S2048 32 0)

/-- The linear index: (p, q) ↦ p * 2048 + q, in 32-bit words. -/
def iLin : IVec S8192x2048 32 :=
  addi (broadcastInDim S8192x2048 ![0, 1] bcast_S8192x1_S8192x2048_0_1
          (muli (broadcastInDim S8192x1 ![0] bcast_S8192_S8192x1_0 (iotaInDim S8192 32 0))
                (broadcastInDim S8192x1 ![] bcast_S_S8192x1 (constantI S_ 32 2048#32))))
       (broadcastInDim S8192x2048 ![0, 1] bcast_S1x2048_S8192x2048_0_1 iCols)

/-- The divisor: 8192, or 1 were it zero. -/
def iDiv : IVec S_ 32 :=
  select (cmpi .eq (id (constantI S_ 32 8192#32)) (constantI S_ 32 0#32)) (constantI S_ 32 1#32) (id (constantI S_ 32 8192#32))

/-- The truncated remainder of the linear index by the divisor. -/
def iRem : IVec S8192x2048 32 := Host.remsi iLin (broadcastInDim S8192x2048 ![] bcast_S_S8192x2048 iDiv)

/-- The remainder with the divisor's sign: where the truncated remainder is not zero and its sign differs from the divisor's, the
    divisor is added. -/
def iMod : IVec S8192x2048 32 :=
  select
    (andi
      (cmpi .ne (cmpi .slt iRem (broadcastInDim S8192x2048 ![] bcast_S_S8192x2048 (constantI S_ 32 0#32)))
        (broadcastInDim S8192x2048 ![] bcast_S_S8192x2048 (cmpi .slt iDiv (constantI S_ 32 0#32))))
      (cmpi .ne iRem (broadcastInDim S8192x2048 ![] bcast_S_S8192x2048 (constantI S_ 32 0#32))))
    (addi iRem (broadcastInDim S8192x2048 ![] bcast_S_S8192x2048 iDiv))
    iRem

/-- The row index: a negative one would be wrapped by the number of rows. -/
def iRows : IVec S8192x2048 32 :=
  select (cmpi .slt iMod (broadcastInDim S8192x2048 ![] bcast_S_S8192x2048 (constantI S_ 32 0#32)))
    (addi iMod (broadcastInDim S8192x2048 ![] bcast_S_S8192x2048 (constantI S_ 32 8192#32)))
    iMod

/-- The column index: a negative one would be wrapped by the number of columns. -/
def iColsW : IVec S1x2048 32 :=
  select (cmpi .slt iCols (broadcastInDim S1x2048 ![] bcast_S_S1x2048 (constantI S_ 32 0#32)))
    (addi iCols (broadcastInDim S1x2048 ![] bcast_S_S1x2048 (constantI S_ 32 2048#32)))
    iCols

/-- The index pairs: at (p, q, 0) the row index, at (p, q, 1) the column index. -/
def iIdx : IVec S8192x2048x2 32 :=
  concatenate S8192x2048x2 2
    [⟨S8192x2048x1, broadcastInDim S8192x2048x1 ![0, 1] bcast_S8192x2048_S8192x2048x1_0_1 iRows⟩,
     ⟨S8192x2048x1, broadcastInDim S8192x2048x1 ![0, 1] bcast_S8192x2048_S8192x2048x1_0_1
        (broadcastInDim S8192x2048 ![0, 1] bcast_S1x2048_S8192x2048_0_1 iColsW)⟩]
    concatenates_S8192x2048x1_S8192x2048x1_S8192x2048x2_d2

variable (e1 e2 : FVec Ideal S8192x2048 .f32) (W : FVec Ideal S2048x2048 .f32) (V : FVec Ideal S4096x2048 .f32)
  (b : FVec Ideal S2048 .f32)

/-- The bilinear products, every row against every row of W, divided by the word of 2048. -/
def uArr : FVec Ideal S8192x2048 .f32 :=
  Host.divf
    (Host.dotGeneral dot_S8192x2048_S2048x2048_S8192x2048_1_0_0_1_n_n none (mulf e1 e2)
      (transpose S2048x2048 [1, 0] W transposes_S2048x2048_S2048x2048_1_0))
    (broadcastInDim S8192x2048 ![] bcast_S_S8192x2048 (constant (F := Ideal) S_ .f32 0x45000000#32))

/-- The feed-forward product of the joined rows with V. -/
def ffArr : FVec Ideal S8192x2048 .f32 :=
  Host.dotGeneral dot_S8192x4096_S4096x2048_S8192x2048_1_0_0_1_n_n none
    (concatenate S8192x4096 1 [⟨S8192x2048, e1⟩, ⟨S8192x2048, e2⟩] concatenates_S8192x2048_S8192x2048_S8192x4096_d1) V

/-- The reference's result: tanh of (the quotient gathered at the index pairs + the feed-forward product) + the bias row. -/
def refOut : FVec Ideal S8192x2048 .f32 :=
  Host.tanh
    (addf
      (addf (Host.gather gather_S8192x2048_S8192x2048x2_S8192x2048_n_01_n_n_01_2_11 (uArr e1 e2 W) iIdx) (ffArr e1 e2 V))
      (broadcastInDim S8192x2048 ![0, 1] bcast_S1x2048_S8192x2048_0_1 (broadcastInDim S1x2048 ![1] bcast_S2048_S1x2048_1 b)))

end Cert.ReferenceIdeal.RefValue

end
-- ==== Proof.RefOut.lean ====
/-
  The fold of the reference's operations at the result buffer is the composed array refOut of the five arguments, and at each
  argument buffer it is the argument: no operation writes an argument.

  The list is read in two stretches.  After the first (everything before the two index arrays are paired) the buffers the
  second stretch reads hold the named arrays: the divided bilinear products, the feed-forward product, the row indices and
  the column indices with their unit axis, and the bias untouched.  The second stretch, from ANY contents, leaves at the result
  buffer tanh of (the gather of the first at the paired indices + the second) + the bias row.
-/
import proofs.«176346_j20375324852317_2_alg».proof.Proof.RefOps
import proofs.«176346_j20375324852317_2_alg».proof.Proof.RefDefs

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

variable {F : FTy → Type} [FloatOps F]

/-- The operations up to and including the two index arrays given their unit axis: the 57 first ones. -/
abbrev opsA : List (HloOp τ sig (Elt F)) :=
  [ StableHlo.binary main_arg0 main_arg1 main_v0 ((fun a b => concatenate S8192x4096 1 [⟨S8192x2048, a⟩, ⟨S8192x2048, b⟩] concatenates_S8192x2048_S8192x2048_S8192x4096_d1) : (⟨S8192x2048, .f32⟩ : BufTy).Contents (Elt F) → (⟨S8192x2048, .f32⟩ : BufTy).Contents (Elt F) → (⟨S8192x4096, .f32⟩ : BufTy).Contents (Elt F)),
    StableHlo.binary main_v0 main_arg3 main_v1 ((fun l r => Host.dotGeneral dot_S8192x4096_S4096x2048_S8192x2048_1_0_0_1_n_n none l r) : (⟨S8192x4096, .f32⟩ : BufTy).Contents (Elt F) → (⟨S4096x2048, .f32⟩ : BufTy).Contents (Elt F) → (⟨S8192x2048, .f32⟩ : BufTy).Contents (Elt F)),
    StableHlo.binary main_arg0 main_arg1 main_v2 (mulf : (⟨S8192x2048, .f32⟩ : BufTy).Contents (Elt F) → (⟨S8192x2048, .f32⟩ : BufTy).Contents (Elt F) → (⟨S8192x2048, .f32⟩ : BufTy).Contents (Elt F)),
    StableHlo.unary main_arg2 main_v3 ((transpose S2048x2048 [1, 0] · transposes_S2048x2048_S2048x2048_1_0) : (⟨S2048x2048, .f32⟩ : BufTy).Contents (Elt F) → (⟨S2048x2048, .f32⟩ : BufTy).Contents (Elt F)),
    StableHlo.binary main_v2 main_v3 main_v4 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.nullary main_cst (constant S_ .f32 0x45000000#32),
    StableHlo.unary main_cst main_v5 (broadcastInDim S8192x2048 ![] bcast_S_S8192x2048 : (⟨S_, .f32⟩ : BufTy).Contents (Elt F) → (⟨S8192x2048, .f32⟩ : BufTy).Contents (Elt F)),
    StableHlo.binary main_v4 main_v5 main_v6 (Host.divf : (⟨S8192x2048, .f32⟩ : BufTy).Contents (Elt F) → (⟨S8192x2048, .f32⟩ : BufTy).Contents (Elt F) → (⟨S8192x2048, .f32⟩ : BufTy).Contents (Elt F)),
    StableHlo.nullary main_v7 (iotaInDim S2048 32 0),
    StableHlo.unary main_v7 main_v8 (broadcastInDim S1x2048 ![1] bcast_S2048_S1x2048_1 : (⟨S2048, .i32⟩ : BufTy).Contents (Elt F) → (⟨S1x2048, .i32⟩ : BufTy).Contents (Elt F)),
    StableHlo.nullary main_v9 (iotaInDim S8192 32 0),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.nullary main_c (constantI S_ 32 2048#32),
    StableHlo.unary main_c main_v11 (broadcastInDim S8192x1 ![] bcast_S_S8192x1 : (⟨S_, .i32⟩ : BufTy).Contents (Elt F) → (⟨S8192x1, .i32⟩ : BufTy).Contents (Elt F)),
    StableHlo.binary main_v10 main_v11 main_v12 (muli : (⟨S8192x1, .i32⟩ : BufTy).Contents (Elt F) → (⟨S8192x1, .i32⟩ : BufTy).Contents (Elt F) → (⟨S8192x1, .i32⟩ : BufTy).Contents (Elt F)),
    StableHlo.unary main_v12 main_v13 (broadcastInDim S8192x2048 ![0, 1] bcast_S8192x1_S8192x2048_0_1 : (⟨S8192x1, .i32⟩ : BufTy).Contents (Elt F) → (⟨S8192x2048, .i32⟩ : BufTy).Contents (Elt F)),
    StableHlo.unary main_v8 main_v14 (broadcastInDim S8192x2048 ![0, 1] bcast_S1x2048_S8192x2048_0_1 : (⟨S1x2048, .i32⟩ : BufTy).Contents (Elt F) → (⟨S8192x2048, .i32⟩ : BufTy).Contents (Elt F)),
    StableHlo.binary main_v13 main_v14 main_v15 (addi : (⟨S8192x2048, .i32⟩ : BufTy).Contents (Elt F) → (⟨S8192x2048, .i32⟩ : BufTy).Contents (Elt F) → (⟨S8192x2048, .i32⟩ : BufTy).Contents (Elt F)),
    StableHlo.nullary main_c_0 (constantI S_ 32 8192#32),
    StableHlo.TRef.unary (.of main_c_0) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192x2048 ![] bcast_S_S8192x2048),
    StableHlo.TRef.binary (.of main_v15) main_call0.v3 main_call0.v4 Host.remsi,
    StableHlo.TRef.nullary main_call0.c_1 (constantI S_ 32 0#32),
    StableHlo.TRef.unary main_call0.c_1 main_call0.v5 (broadcastInDim S8192x2048 ![] bcast_S_S8192x2048),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192x2048 ![] bcast_S_S8192x2048),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192x2048 ![] bcast_S_S8192x2048),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192x2048 ![] bcast_S_S8192x2048),
    StableHlo.TRef.binary main_call0.v4 main_call0.v13 main_call0.v14 addi,
    StableHlo.TRef.ternary main_call0.v12 main_call0.v14 main_call0.v4 main_call0.v15 select,
    StableHlo.nullary main_c_1 (constantI S_ 32 0#32),
    StableHlo.unary main_c_1 main_v17 (broadcastInDim S8192x2048 ![] bcast_S_S8192x2048 : (⟨S_, .i32⟩ : BufTy).Contents (Elt F) → (⟨S8192x2048, .i32⟩ : BufTy).Contents (Elt F)),
    StableHlo.binary main_v16 main_v17 main_v18 (cmpi .slt : (⟨S8192x2048, .i32⟩ : BufTy).Contents (Elt F) → (⟨S8192x2048, .i32⟩ : BufTy).Contents (Elt F) → (⟨S8192x2048, .i1⟩ : BufTy).Contents (Elt F)),
    StableHlo.nullary main_c_2 (constantI S_ 32 8192#32),
    StableHlo.unary main_c_2 main_v19 (broadcastInDim S8192x2048 ![] bcast_S_S8192x2048 : (⟨S_, .i32⟩ : BufTy).Contents (Elt F) → (⟨S8192x2048, .i32⟩ : BufTy).Contents (Elt F)),
    StableHlo.binary main_v16 main_v19 main_v20 (addi : (⟨S8192x2048, .i32⟩ : BufTy).Contents (Elt F) → (⟨S8192x2048, .i32⟩ : BufTy).Contents (Elt F) → (⟨S8192x2048, .i32⟩ : BufTy).Contents (Elt F)),
    StableHlo.ternary main_v18 main_v20 main_v16 main_v21 (select : (⟨S8192x2048, .i1⟩ : BufTy).Contents (Elt F) → (⟨S8192x2048, .i32⟩ : BufTy).Contents (Elt F) → (⟨S8192x2048, .i32⟩ : BufTy).Contents (Elt F) → (⟨S8192x2048, .i32⟩ : BufTy).Contents (Elt F)),
    StableHlo.nullary main_c_3 (constantI S_ 32 0#32),
    StableHlo.unary main_c_3 main_v22 (broadcastInDim S1x2048 ![] bcast_S_S1x2048 : (⟨S_, .i32⟩ : BufTy).Contents (Elt F) → (⟨S1x2048, .i32⟩ : BufTy).Contents (Elt F)),
    StableHlo.binary main_v8 main_v22 main_v23 (cmpi .slt : (⟨S1x2048, .i32⟩ : BufTy).Contents (Elt F) → (⟨S1x2048, .i32⟩ : BufTy).Contents (Elt F) → (⟨S1x2048, .i1⟩ : BufTy).Contents (Elt F)),
    StableHlo.nullary main_c_4 (constantI S_ 32 2048#32),
    StableHlo.unary main_c_4 main_v24 (broadcastInDim S1x2048 ![] bcast_S_S1x2048 : (⟨S_, .i32⟩ : BufTy).Contents (Elt F) → (⟨S1x2048, .i32⟩ : BufTy).Contents (Elt F)),
    StableHlo.binary main_v8 main_v24 main_v25 (addi : (⟨S1x2048, .i32⟩ : BufTy).Contents (Elt F) → (⟨S1x2048, .i32⟩ : BufTy).Contents (Elt F) → (⟨S1x2048, .i32⟩ : BufTy).Contents (Elt F)),
    StableHlo.ternary main_v23 main_v25 main_v8 main_v26 (select : (⟨S1x2048, .i1⟩ : BufTy).Contents (Elt F) → (⟨S1x2048, .i32⟩ : BufTy).Contents (Elt F) → (⟨S1x2048, .i32⟩ : BufTy).Contents (Elt F) → (⟨S1x2048, .i32⟩ : BufTy).Contents (Elt F)),
    StableHlo.unary main_v26 main_v27 (broadcastInDim S8192x2048 ![0, 1] bcast_S1x2048_S8192x2048_0_1 : (⟨S1x2048, .i32⟩ : BufTy).Contents (Elt F) → (⟨S8192x2048, .i32⟩ : BufTy).Contents (Elt F)),
    StableHlo.unary main_v21 main_v28 (broadcastInDim S8192x2048x1 ![0, 1] bcast_S8192x2048_S8192x2048x1_0_1 : (⟨S8192x2048, .i32⟩ : BufTy).Contents (Elt F) → (⟨S8192x2048x1, .i32⟩ : BufTy).Contents (Elt F)),
    StableHlo.unary main_v27 main_v29 (broadcastInDim S8192x2048x1 ![0, 1] bcast_S8192x2048_S8192x2048x1_0_1 : (⟨S8192x2048, .i32⟩ : BufTy).Contents (Elt F) → (⟨S8192x2048x1, .i32⟩ : BufTy).Contents (Elt F)) ]

/-- The 7 last ones: the pairing of the two index arrays, the gather, the two sums with the broadcast bias, tanh. -/
abbrev opsC : List (HloOp τ sig (Elt F)) :=
  [ StableHlo.binary main_v28 main_v29 main_v30 ((fun a b => concatenate S8192x2048x2 2 [⟨S8192x2048x1, a⟩, ⟨S8192x2048x1, b⟩] concatenates_S8192x2048x1_S8192x2048x1_S8192x2048x2_d2) : (⟨S8192x2048x1, .i32⟩ : BufTy).Contents (Elt F) → (⟨S8192x2048x1, .i32⟩ : BufTy).Contents (Elt F) → (⟨S8192x2048x2, .i32⟩ : BufTy).Contents (Elt F)),
    StableHlo.binary main_v6 main_v30 main_v31 ((fun x i => Host.gather gather_S8192x2048_S8192x2048x2_S8192x2048_n_01_n_n_01_2_11 x i) : (⟨S8192x2048, .f32⟩ : BufTy).Contents (Elt F) → (⟨S8192x2048x2, .i32⟩ : BufTy).Contents (Elt F) → (⟨S8192x2048, .f32⟩ : BufTy).Contents (Elt F)),
    StableHlo.binary main_v31 main_v1 main_v32 (addf : (⟨S8192x2048, .f32⟩ : BufTy).Contents (Elt F) → (⟨S8192x2048, .f32⟩ : BufTy).Contents (Elt F) → (⟨S8192x2048, .f32⟩ : BufTy).Contents (Elt F)),
    StableHlo.unary main_arg4 main_v33 (broadcastInDim S1x2048 ![1] bcast_S2048_S1x2048_1 : (⟨S2048, .f32⟩ : BufTy).Contents (Elt F) → (⟨S1x2048, .f32⟩ : BufTy).Contents (Elt F)),
    StableHlo.unary main_v33 main_v34 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v32 main_v34 main_v35 (addf : (⟨S8192x2048, .f32⟩ : BufTy).Contents (Elt F) → (⟨S8192x2048, .f32⟩ : BufTy).Contents (Elt F) → (⟨S8192x2048, .f32⟩ : BufTy).Contents (Elt F)),
    StableHlo.unary main_v35 main_v36 (Host.tanh : (⟨S8192x2048, .f32⟩ : BufTy).Contents (Elt F) → (⟨S8192x2048, .f32⟩ : BufTy).Contents (Elt F)) ]

/-- The program's list is the first stretch followed by the second. -/
theorem ops_split : (ops : List (HloOp τ sig (Elt F))) = opsA ++ opsC := rfl

/-- The contents after two stretches are the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## After the first stretch: the buffers the second stretch reads -/

theorem A_v28 (V : Valuation τ sig (Elt Ideal)) :
    after (opsA (F := Ideal)) V (main_v28 : DevRef τ sig)
      = broadcastInDim S8192x2048x1 ![0, 1] bcast_S8192x2048_S8192x2048x1_0_1 iRows := by
  after_results_simp
  all_goals rfl

theorem A_v29 (V : Valuation τ sig (Elt Ideal)) :
    after (opsA (F := Ideal)) V (main_v29 : DevRef τ sig)
      = broadcastInDim S8192x2048x1 ![0, 1] bcast_S8192x2048_S8192x2048x1_0_1
          (broadcastInDim S8192x2048 ![0, 1] bcast_S1x2048_S8192x2048_0_1 iColsW) := by
  after_results_simp
  all_goals rfl

theorem A_v6 (V : Valuation τ sig (Elt Ideal)) :
    after (opsA (F := Ideal)) V (main_v6 : DevRef τ sig)
      = uArr (V (main_arg0 : DevRef τ sig)) (V (main_arg1 : DevRef τ sig)) (V (main_arg2 : DevRef τ sig)) := by
  after_results_simp
  all_goals rfl

theorem A_v1 (V : Valuation τ sig (Elt Ideal)) :
    after (opsA (F := Ideal)) V (main_v1 : DevRef τ sig)
      = ffArr (V (main_arg0 : DevRef τ sig)) (V (main_arg1 : DevRef τ sig)) (V (main_arg3 : DevRef τ sig)) := by
  after_results_simp
  all_goals rfl

theorem A_arg4 (V : Valuation τ sig (Elt Ideal)) :
    after (opsA (F := Ideal)) V (main_arg4 : DevRef τ sig) = V (main_arg4 : DevRef τ sig) := by
  after_results_simp

/-! ## The second stretch, from any contents -/

theorem C_out (Fv : Valuation τ sig (Elt Ideal)) :
    @Eq (FVec Ideal S8192x2048 .f32) (after (opsC (F := Ideal)) Fv (main_v36 : DevRef τ sig))
        (Host.tanh (F := Ideal)
          (addf
            (addf
              (Host.gather gather_S8192x2048_S8192x2048x2_S8192x2048_n_01_n_n_01_2_11
                (Fv (main_v6 : DevRef τ sig) : FVec Ideal S8192x2048 .f32)
                (concatenate S8192x2048x2 2
                  [⟨S8192x2048x1, (Fv (main_v28 : DevRef τ sig) : IVec S8192x2048x1 32)⟩,
                   ⟨S8192x2048x1, (Fv (main_v29 : DevRef τ sig) : IVec S8192x2048x1 32)⟩]
                  concatenates_S8192x2048x1_S8192x2048x1_S8192x2048x2_d2))
              (Fv (main_v1 : DevRef τ sig) : FVec Ideal S8192x2048 .f32))
            (broadcastInDim S8192x2048 ![0, 1] bcast_S1x2048_S8192x2048_0_1
              (broadcastInDim S1x2048 ![1] bcast_S2048_S1x2048_1 (Fv (main_arg4 : DevRef τ sig) : FVec Ideal S2048 .f32))))) := by
  after_results_simp
  all_goals rfl

/-! ## The whole program -/

/-- Each operation's result read at its own buffer is its function of its operands' buffers; composed along the program, the
    result buffer holds refOut of the argument buffers. -/
theorem out_eq (V : Valuation τ sig (Elt Ideal)) :
    after (ops (F := Ideal)) V (main_v36 : DevRef τ sig)
      = refOut (V (main_arg0 : DevRef τ sig)) (V (main_arg1 : DevRef τ sig)) (V (main_arg2 : DevRef τ sig))
          (V (main_arg3 : DevRef τ sig)) (V (main_arg4 : DevRef τ sig)) := by
  rw [ops_split, after_append, C_out, A_v6, A_v28, A_v29, A_v1, A_arg4]
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp

end Cert.ReferenceIdeal.RefValue

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.RefWords.lean ====
/-
  32-bit word arithmetic behind the batch-mixing index.

  Every index word of the program is a natural number below 2^31 written as a 32-bit word: the largest is
  8191 * 2048 + 2047 = 16777215.  On such words the signed reading is the number itself, p * 2048 + q does not wrap, the
  truncated signed remainder by 8192 is the natural-number remainder, and the correction that moves a remainder to the divisor's
  sign does nothing (the remainder is not negative and neither is the divisor 8192).
-/
import Idealize.ShloMosaic.PureOps.Ideal
import Idealize.ShloMosaic.Lib.ValueIdx
import proofs.«176346_j20375324852317_2_alg».proof.Proof.LibGatherScatter

namespace Cert.ReferenceIdeal.RefValue

open Idealize.ShloMosaic Idealize.ShloMosaic.ValueIdx

/-- A natural number below 2^31, as a 32-bit word, reads back signed as itself. -/
theorem toInt_ofNat_lt {n : Nat} (h : n < 2147483648) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- The linear index p * 2048 + q of an entry of an 8192 x 2048 array does not wrap. -/
theorem lin_word (p : Fin 8192) (q : Fin 2048) :
    IntOp.addi (IntOp.muli (BitVec.ofNat 32 p.val) 2048#32) (BitVec.ofNat 32 q.val) = BitVec.ofNat 32 (2048 * p.val + q.val) := by
  unfold IntOp.addi IntOp.muli
  apply BitVec.eq_of_toNat_eq
  simp only [BitVec.toNat_add, BitVec.toNat_mul, BitVec.toNat_ofNat]
  have := p.isLt; have := q.isLt
  omega

/-- The host's signed remainder by 8192 of a word below 2^31 is the natural-number remainder: the divisor is neither zero
    nor -1, both signs are +, and the truncated remainder of non-negative numbers is the unsigned one. -/
theorem rem_word {n : Nat} (h : n < 2147483648) :
    IntOp.remsi .host (BitVec.ofNat 32 n) 8192#32 = BitVec.ofNat 32 (n % 8192) := by
  unfold IntOp.remsi
  have hc : ¬ IntOp.SDivCorner (BitVec.ofNat 32 n) 8192#32 := by
    unfold IntOp.SDivCorner
    rintro (h0 | ⟨_, h1⟩)
    · exact absurd h0 (by decide)
    · exact absurd h1 (by decide)
  rw [if_neg hc]
  have hm : (BitVec.ofNat 32 n).msb = false := by
    rw [BitVec.msb_eq_decide]
    simp only [BitVec.toNat_ofNat]
    have : n % 2 ^ 32 = n := Nat.mod_eq_of_lt (by omega)
    simp only [this, decide_eq_false_iff_not, not_le]
    omega
  have hy : (8192#32 : BitVec 32).msb = false := by decide
  rw [BitVec.srem, hm, hy]
  apply BitVec.eq_of_toNat_eq
  show ((BitVec.ofNat 32 n) % 8192#32).toNat = _
  rw [BitVec.toNat_umod]
  simp only [BitVec.toNat_ofNat, Nat.reducePow, Nat.reduceMod]
  omega

/-- The guard against a zero divisor keeps the divisor 8192. -/
theorem div_word : Scalar.select (IntOp.cmpi .eq 8192#32 0#32) 1#32 8192#32 = 8192#32 := by decide

/-- The divisor 8192 is not negative. -/
theorem div_sign : IntOp.cmpi .slt 8192#32 0#32 = 0#1 := by decide

/-- The correction of a truncated remainder to the divisor's sign, read at an index where the remainder is not negative and
    the divisor's sign bit is clear: the remainder is kept, whatever the other branch adds. -/
theorem mod_fix_apply {s : Shape} (r z z' d : IVec s 32) (sd : IVec s 1) (e : s.Idx) (hz : z e = 0#32) (hsd : sd e = 0#1)
    (h : 0 ≤ (r e).toInt) :
    select (andi (cmpi .ne (cmpi .slt r z) sd) (cmpi .ne r z')) (addi r d) r e = r e := by
  show Scalar.select (IntOp.andi (IntOp.cmpi .ne (IntOp.cmpi .slt (r e) (z e)) (sd e)) (IntOp.cmpi .ne (r e) (z' e)))
    (IntOp.addi (r e) (d e)) (r e) = r e
  rw [hz, hsd, Pegcn.Lib.cmpi_slt_zero_of_nonneg _ h]
  have h00 : IntOp.cmpi .ne (0#1) (0#1) = 0#1 := by decide
  have hand : ∀ x : BitVec 1, IntOp.andi 0#1 x = 0#1 := by intro x; unfold IntOp.andi; simp
  rw [h00, hand]
  exact select_zero _ _

end Cert.ReferenceIdeal.RefValue
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.RefIdx.lean ====
/-
  The integer arrays of the reference read at an entry, and the pair of indices the gather uses.

  At (p, q) the linear index is the word of 2048 p + q, its remainder by 8192 the word of (2048 p + q) mod 8192; none of the
  sign corrections fires (every word is a natural number below 2^31), so the pair at (p, q) is
  ((2048 p + q) mod 8192, q) = (2048 (p mod 4) + q, q): the specification's mixing row, and the column itself.  Both are
  inside the operand, so the gather's clamp keeps them.
-/
import proofs.«176346_j20375324852317_2_alg».proof.Proof.RefDefs
import proofs.«176346_j20375324852317_2_alg».proof.Proof.RefWords
import proofs.«176346_j20375324852317_2_alg».proof.Proof.Spec
import proofs.«176346_j20375324852317_2_alg».proof.Proof.LibHostRead
import proofs.«176346_j20375324852317_2_alg».proof.Proof.LibGatherScatter
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

open Cert.Bilinear Hmu.Lib Pegcn.Lib

/-- An 8192 x 2048 array given a trailing unit axis reads, at (p, q, 0), the array at (p, q). -/
theorem bcast_unit_apply {α : Type} (x : S8192x2048.Idx → α) (p : Fin 8192) (q : Fin 2048) (u : Fin 1) :
    broadcastInDim S8192x2048x1 ![0, 1] bcast_S8192x2048_S8192x2048x1_0_1 x (ix3 p q u) = x (ix2 p q) := by
  refine broadcastInDim_apply _ bcast_S8192x2048_S8192x2048x1_0_1 x _ (ix2 p q) fun ax => ?_
  match ax with
  | ⟨0, _⟩ => rfl
  | ⟨1, _⟩ => rfl

/-- The column numbers: (0, q) ↦ the word of q. -/
theorem iCols_apply (u : Fin 1) (q : Fin 2048) : iCols (ix2 u q) = BitVec.ofNat 32 q.val := by
  unfold iCols
  exact bcast_b_1b_apply _ bcast_S2048_S1x2048_1 u q

/-- The linear index at (p, q) is the word of 2048 p + q. -/
theorem iLin_apply (p : Fin 8192) (q : Fin 2048) : iLin (ix2 p q) = BitVec.ofNat 32 (2048 * p.val + q.val) := by
  unfold iLin
  have hrow : broadcastInDim S8192x2048 ![0, 1] bcast_S8192x1_S8192x2048_0_1
      (muli (broadcastInDim S8192x1 ![0] bcast_S8192_S8192x1_0 (iotaInDim S8192 32 0))
        (broadcastInDim S8192x1 ![] bcast_S_S8192x1 (constantI S_ 32 2048#32))) (ix2 p q)
      = IntOp.muli (BitVec.ofNat 32 p.val) 2048#32 := by
    refine (bcast_a1_ab_apply _ bcast_S8192x1_S8192x2048_0_1 p q).trans ?_
    show IntOp.muli (broadcastInDim S8192x1 ![0] bcast_S8192_S8192x1_0 (iotaInDim S8192 32 0) (ix2 p (0 : Fin 1))) 2048#32 = _
    rw [bcast_a_a1_apply _ bcast_S8192_S8192x1_0 p 0]
    rfl
  have hcol : broadcastInDim S8192x2048 ![0, 1] bcast_S1x2048_S8192x2048_0_1 iCols (ix2 p q) = BitVec.ofNat 32 q.val :=
    (bcast_1b_ab_apply _ bcast_S1x2048_S8192x2048_0_1 p q).trans (iCols_apply 0 q)
  show IntOp.addi _ _ = _
  rw [hrow, hcol]
  exact lin_word p q

/-- The divisor is 8192 … -/
theorem iDiv_apply (j : S_.Idx) : iDiv j = 8192#32 := div_word

/-- … so the remainder at (p, q) is the word of (2048 p + q) mod 8192. -/
theorem iRem_apply (p : Fin 8192) (q : Fin 2048) : iRem (ix2 p q) = BitVec.ofNat 32 ((2048 * p.val + q.val) % 8192) := by
  unfold iRem
  show IntOp.remsi .host (iLin (ix2 p q)) (broadcastInDim S8192x2048 ![] bcast_S_S8192x2048 iDiv (ix2 p q)) = _
  rw [iLin_apply, broadcastInDim_scalar_apply, iDiv_apply]
  exact rem_word (by have := p.isLt; have := q.isLt; omega)

/-- The remainder is not negative. -/
theorem iRem_nonneg (p : Fin 8192) (q : Fin 2048) : 0 ≤ (iRem (ix2 p q)).toInt := by
  rw [iRem_apply, toInt_ofNat_lt (by omega)]
  exact Int.natCast_nonneg _

/-- The correction to the divisor's sign keeps it … -/
theorem iMod_apply (p : Fin 8192) (q : Fin 2048) : iMod (ix2 p q) = iRem (ix2 p q) := by
  unfold iMod
  refine mod_fix_apply iRem _ _ _ _ (ix2 p q) rfl ?_ (iRem_nonneg p q)
  rw [broadcastInDim_scalar_apply]
  show IntOp.cmpi .slt (iDiv ix0) 0#32 = 0#1
  rw [iDiv_apply]
  exact div_sign

/-- … and so does the wrap of a negative row index. -/
theorem iRows_apply (p : Fin 8192) (q : Fin 2048) : iRows (ix2 p q) = BitVec.ofNat 32 ((2048 * p.val + q.val) % 8192) := by
  unfold iRows
  refine (wrap_apply iMod _ _ (ix2 p q) rfl ?_).trans ((iMod_apply p q).trans (iRem_apply p q))
  rw [iMod_apply]
  exact iRem_nonneg p q

/-- The wrap of a negative column index keeps the column number. -/
theorem iColsW_apply (u : Fin 1) (q : Fin 2048) : iColsW (ix2 u q) = BitVec.ofNat 32 q.val := by
  unfold iColsW
  refine (wrap_apply iCols _ _ (ix2 u q) rfl ?_).trans (iCols_apply u q)
  rw [iCols_apply, toInt_ofNat_lt (by have := q.isLt; omega)]
  exact Int.natCast_nonneg _

/-- The pair at (p, q): first the row index … -/
theorem iIdx_row (p : Fin 8192) (q : Fin 2048) :
    iIdx (ix3 p q (0 : Fin 2)) = BitVec.ofNat 32 ((2048 * p.val + q.val) % 8192) := by
  unfold iIdx
  refine (concatenate_pair_apply_left (t := S8192x2048x2) (s₁ := S8192x2048x1) (s₂ := S8192x2048x1) (2 : Fin 3) _ _
    concatenates_S8192x2048x1_S8192x2048x1_S8192x2048x2_d2
    (ix3 p q (0 : Fin 2)) rfl (ix3 p q (0 : Fin 1))
    (fun e => match e with | ⟨0, _⟩ => rfl | ⟨1, _⟩ => rfl | ⟨2, _⟩ => rfl)).trans ?_
  exact (bcast_unit_apply _ p q 0).trans (iRows_apply p q)

/-- … then the column index. -/
theorem iIdx_col (p : Fin 8192) (q : Fin 2048) : iIdx (ix3 p q (1 : Fin 2)) = BitVec.ofNat 32 q.val := by
  unfold iIdx
  refine (concatenate_pair_apply_right (t := S8192x2048x2) (s₁ := S8192x2048x1) (s₂ := S8192x2048x1) (2 : Fin 3) _ _
    concatenates_S8192x2048x1_S8192x2048x1_S8192x2048x2_d2
    (ix3 p q (1 : Fin 2)) rfl rfl (ix3 p q (0 : Fin 1))
    (fun e he => match e, he with | ⟨0, _⟩, _ => rfl | ⟨1, _⟩, _ => rfl | ⟨2, _⟩, he => absurd rfl he) rfl).trans ?_
  exact (bcast_unit_apply _ p q 0).trans ((bcast_1b_ab_apply _ bcast_S1x2048_S8192x2048_0_1 p q).trans (iColsW_apply 0 q))

/-- The clamped row index is the specification's mixing row: (2048 p + q) mod 8192 = 2048 (p mod 4) + q. -/
theorem row_eq (p : Fin 8192) (q : Fin 2048) (hlt) :
    (⟨min (iIdx (ix3 p q (0 : Fin 2))).toInt.toNat (8192 - 1), hlt⟩ : Fin 8192) = mixRow p q := by
  refine clamp_fin_eq _ _ ?_ hlt
  rw [iIdx_row, toInt_ofNat_lt (by omega)]
  show ((((2048 * p.val + q.val) % 8192 : Nat)) : Int) = ((2048 * (p.val % 4) + q.val : Nat) : Int)
  have := p.isLt; have := q.isLt
  omega

/-- The clamped column index is the column. -/
theorem col_eq (p : Fin 8192) (q : Fin 2048) (hlt) :
    (⟨min (iIdx (ix3 p q (1 : Fin 2))).toInt.toNat (2048 - 1), hlt⟩ : Fin 2048) = q := by
  refine clamp_fin_eq _ _ ?_ hlt
  rw [iIdx_col, toInt_ofNat_lt (by have := q.isLt; omega)]

end Cert.ReferenceIdeal.RefValue

end
-- ==== Proof.RefGather.lean ====
/-
  The reference's gather read at an entry.

  The operand is an 8192 x 2048 array, the start indices an 8192 x 2048 x 2 array of pairs (both operand axes collapsed, the
  start index map [0, 1], the index vector on axis 2, slices of one element, no offset and no batching axis): result entry
  (p, q) is the operand at (row, column), the two components of the pair at (p, q) read as signed integers and clamped into
  [0, 8191] and [0, 2047].
-/
import proofs.«176346_j20375324852317_2_alg».proof.Proof.Gen.ReferenceIdeal
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

private abbrev G := gather_S8192x2048_S8192x2048x2_S8192x2048_n_01_n_n_01_2_11

/-- Component k of the pair that result entry (p, q) reads sits at (p, q, k) of the start indices. -/
private theorem siIdx0 (p : Fin 8192) (q : Fin 2048) (h) :
    G.siIdx (ix2 p q) ⟨List.idxOf (0 : Fin 2) G.startIndexMap, h⟩ = ix3 p q (0 : Fin 2) := by
  funext b; refine Fin.ext ?_
  match b with
  | ⟨0, _⟩ => rfl
  | ⟨1, _⟩ => rfl
  | ⟨2, _⟩ => rfl

private theorem siIdx1 (p : Fin 8192) (q : Fin 2048) (h) :
    G.siIdx (ix2 p q) ⟨List.idxOf (1 : Fin 2) G.startIndexMap, h⟩ = ix3 p q (1 : Fin 2) := by
  funext b; refine Fin.ext ?_
  match b with
  | ⟨0, _⟩ => rfl
  | ⟨1, _⟩ => rfl
  | ⟨2, _⟩ => rfl

/-- THE GATHER AT (p, q): the operand at the clamped pair. -/
theorem gather_pair_apply {α : Type} {w : Nat} (x : S8192x2048.Idx → α) (idx : IVec S8192x2048x2 w) (p : Fin 8192) (q : Fin 2048) :
    Host.gather gather_S8192x2048_S8192x2048x2_S8192x2048_n_01_n_n_01_2_11 x idx (ix2 p q)
      = x (ix2 (⟨min (idx (ix3 p q (0 : Fin 2))).toInt.toNat (8192 - 1), by omega⟩ : Fin 8192)
            (⟨min (idx (ix3 p q (1 : Fin 2))).toInt.toNat (2048 - 1), by omega⟩ : Fin 2048)) := by
  unfold Host.gather
  congr 1
  funext a
  refine Fin.ext ?_
  show G.start (ix2 p q) idx a + G.batchCoord (ix2 p q) a + G.offCoord (ix2 p q) a = _
  have hb : a ∉ G.operandBatchingDims := List.not_mem_nil
  rw [G.batchCoord_eq_zero _ _ hb]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · have hc : (0 : Fin 2) ∈ G.collapsedSliceDims := List.mem_cons_self
    have hm : (0 : Fin 2) ∈ G.startIndexMap := List.mem_cons_self
    rw [G.offCoord_eq_zero _ _ (fun h => ((G.mem_sKept _).mp h).1 hc)]
    simp only [Nat.add_zero]
    unfold GatherDims.start
    rw [dif_pos hm, siIdx0]
    rfl
  · have hc : (1 : Fin 2) ∈ G.collapsedSliceDims := List.mem_cons_of_mem _ List.mem_cons_self
    have hm : (1 : Fin 2) ∈ G.startIndexMap := List.mem_cons_of_mem _ List.mem_cons_self
    rw [G.offCoord_eq_zero _ _ (fun h => ((G.mem_sKept _).mp h).1 hc)]
    simp only [Nat.add_zero]
    unfold GatherDims.start
    rw [dif_pos hm, siIdx1]
    rfl

end Cert.ReferenceIdeal.RefValue

end
-- ==== Proof.RefFloat.lean ====
/-
  The float arrays of the reference read at an entry, on the extended reals.

  * Two 8192 x 2048 arrays joined along the columns read, at (p, j), the first one for j < 2048 and the second one at j - 2048.
  * The host's product contracting the left operand's columns with the right operand's rows is, at (p, q), the plain sum over the
    contracted coordinate; with the joined array on the left it is the feed-forward product over the joined row, and with the
    entrywise product of the two batches on the left and the transposed W on the right it is the bilinear form of row p
    against row q of W.
  * The quotient by the broadcast word of 2048 is the extended reals' division by that word; the bias, made a row and repeated
    over the rows, reads the bias at the column.
-/
import proofs.«176346_j20375324852317_2_alg».proof.Proof.RefDefs
import proofs.«176346_j20375324852317_2_alg».proof.Proof.Spec
import proofs.«176346_j20375324852317_2_alg».proof.Proof.LibHostRead

noncomputable section

open scoped BigOperators

namespace Cert.ReferenceIdeal.RefValue

open Cert.ReferenceIdeal Cert.ReferenceIdeal.Gen Idealize.ShloMosaic Idealize.ShloMosaic.ValueIdx

open Cert.Bilinear

variable (e1 e2 : FVec Ideal S8192x2048 .f32) (W : FVec Ideal S2048x2048 .f32) (V : FVec Ideal S4096x2048 .f32)
  (b : FVec Ideal S2048 .f32)

/-- The joined array at (p, j) is the joined row of the specification. -/
theorem catArr_apply (p : Fin 8192) (j : Fin 4096) :
    concatenate S8192x4096 1 [⟨S8192x2048, e1⟩, ⟨S8192x2048, e2⟩] concatenates_S8192x2048_S8192x2048_S8192x4096_d1 (ix2 p j)
      = cat e1 e2 p j := by
  unfold cat
  split
  · next hlt =>
    exact concatenate_pair_apply_left (1 : Fin 2) e1 e2 concatenates_S8192x2048_S8192x2048_S8192x4096_d1 (ix2 p j) rfl
      (ix2 p (⟨j.val, hlt⟩ : Fin 2048)) (fun e => match e with | ⟨0, _⟩ => rfl | ⟨1, _⟩ => rfl)
  · next hge =>
    exact concatenate_pair_apply_right (1 : Fin 2) e1 e2 concatenates_S8192x2048_S8192x2048_S8192x4096_d1 (ix2 p j) rfl rfl
      (ix2 p (⟨j.val - 2048, by have := j.isLt; omega⟩ : Fin 2048))
      (fun e he => match e, he with | ⟨0, _⟩, _ => rfl | ⟨1, _⟩, he => absurd rfl he)
      (by show j.val - 2048 + 2048 = j.val; omega)

private abbrev D1 := dot_S8192x4096_S4096x2048_S8192x2048_1_0_0_1_n_n
private abbrev D2 := dot_S8192x2048_S2048x2048_S8192x2048_1_0_0_1_n_n

/-- The feed-forward product's left index at entry (p, q) and contracted coordinate j is (p, j) … -/
private theorem d1_lhsIdx (p : Fin 8192) (q : Fin 2048) (j : Fin 4096) :
    D1.lhsIdx (ix2 p q) ((contrEquiv1 D1 4096 rfl rfl).symm j) = ix2 p j := by
  have hk := contrEquiv1_symm_val D1 4096 rfl rfl j
  funext ax
  apply Fin.ext
  match ax with
  | ⟨0, _⟩ => rfl
  | ⟨1, _⟩ => exact (D1.lhsIdx_val_of_single (cl := 1) rfl _ _).trans hk

/-- … and its right index is (j, q). -/
private theorem d1_rhsIdx (p : Fin 8192) (q : Fin 2048) (j : Fin 4096) :
    D1.rhsIdx (ix2 p q) ((contrEquiv1 D1 4096 rfl rfl).symm j) = ix2 j q := by
  have hk := contrEquiv1_symm_val D1 4096 rfl rfl j
  funext ax
  apply Fin.ext
  match ax with
  | ⟨0, _⟩ => exact (D1.rhsIdx_val_of_single (cr := 0) rfl _ _).trans hk
  | ⟨1, _⟩ => rfl

/-- The same two facts for the bilinear product, whose contraction has 2048 terms. -/
private theorem d2_lhsIdx (p : Fin 8192) (q : Fin 2048) (j : Fin 2048) :
    D2.lhsIdx (ix2 p q) ((contrEquiv1 D2 2048 rfl rfl).symm j) = ix2 p j := by
  have hk := contrEquiv1_symm_val D2 2048 rfl rfl j
  funext ax
  apply Fin.ext
  match ax with
  | ⟨0, _⟩ => rfl
  | ⟨1, _⟩ => exact (D2.lhsIdx_val_of_single (cl := 1) rfl _ _).trans hk

private theorem d2_rhsIdx (p : Fin 8192) (q : Fin 2048) (j : Fin 2048) :
    D2.rhsIdx (ix2 p q) ((contrEquiv1 D2 2048 rfl rfl).symm j) = ix2 j q := by
  have hk := contrEquiv1_symm_val D2 2048 rfl rfl j
  funext ax
  apply Fin.ext
  match ax with
  | ⟨0, _⟩ => exact (D2.rhsIdx_val_of_single (cr := 0) rfl _ _).trans hk
  | ⟨1, _⟩ => rfl

/-- The feed-forward array at (p, q) is the specification's product over the joined row. -/
theorem ffArr_apply (p : Fin 8192) (q : Fin 2048) : ffArr e1 e2 V (ix2 p q) = ffCat e1 e2 V p q := by
  unfold ffArr ffCat
  refine (Ideal.dotGeneral_apply D1 none .single _ V (ix2 p q)).trans ?_
  rw [← Equiv.sum_comp (contrEquiv1 D1 4096 rfl rfl).symm]
  refine Finset.sum_congr rfl fun j _ => ?_
  rw [d1_lhsIdx, d1_rhsIdx, catArr_apply]

/-- The bilinear product at (r, q): row r of the two batches, multiplied entry by entry, against row q of W (the transposed
    W read at (j, q) is W at (q, j)). -/
theorem bilArr_apply (r : Fin 8192) (q : Fin 2048) :
    Host.dotGeneral dot_S8192x2048_S2048x2048_S8192x2048_1_0_0_1_n_n none (mulf e1 e2)
        (transpose S2048x2048 [1, 0] W transposes_S2048x2048_S2048x2048_1_0) (ix2 r q)
      = bil e1 e2 W r q := by
  unfold bil
  refine (Ideal.dotGeneral_apply D2 none .single _ _ (ix2 r q)).trans ?_
  rw [← Equiv.sum_comp (contrEquiv1 D2 2048 rfl rfl).symm]
  refine Finset.sum_congr rfl fun j _ => ?_
  rw [d2_lhsIdx, d2_rhsIdx,
    transpose_apply [1, 0] W transposes_S2048x2048_S2048x2048_1_0 (ix2 j q) (ix2 q j)
      (fun b => match b with | ⟨0, _⟩ => rfl | ⟨1, _⟩ => rfl)]
  rfl

/-- The divided array at (r, q): the bilinear form over the word of 2048. -/
theorem uArr_apply (r : Fin 8192) (q : Fin 2048) : uArr e1 e2 W (ix2 r q) = Ideal.div (bil e1 e2 W r q) w2048 := by
  unfold uArr
  show Ideal.div
      (Host.dotGeneral dot_S8192x2048_S2048x2048_S8192x2048_1_0_0_1_n_n none (mulf e1 e2)
        (transpose S2048x2048 [1, 0] W transposes_S2048x2048_S2048x2048_1_0) (ix2 r q)) w2048 = _
  rw [bilArr_apply]

/-- The bias as a row repeated over the rows reads the bias at the column. -/
theorem biasArr_apply (p : Fin 8192) (q : Fin 2048) :
    broadcastInDim S8192x2048 ![0, 1] bcast_S1x2048_S8192x2048_0_1 (broadcastInDim S1x2048 ![1] bcast_S2048_S1x2048_1 b) (ix2 p q)
      = b (ix1 q) :=
  Hmu.Lib.bcastCols_apply b bcast_S2048_S1x2048_1 bcast_S1x2048_S8192x2048_0_1 p q

end Cert.ReferenceIdeal.RefValue

end
-- ==== Proof.RefRun.lean ====
/-
  The reference's run: every weakly fair execution ends with the result buffer at the specification's function Gref of the five
  arguments, entry by entry, and the arguments unchanged.

  The composed array at (p, q): the gather reads the divided bilinear products at the pair of indices of (p, q), which is
  (mixing row of (p, q), q); that entry is the bilinear form of the mixing row against row q of W over the word of 2048; the
  feed-forward product at (p, q) is the sum over the joined row; the bias row reads the bias at q; tanh of their sum is Gref.
-/
import proofs.«176346_j20375324852317_2_alg».proof.Proof.RefOps
import proofs.«176346_j20375324852317_2_alg».proof.Proof.RefOut
import proofs.«176346_j20375324852317_2_alg».proof.Proof.RefIdx
import proofs.«176346_j20375324852317_2_alg».proof.Proof.RefGather
import proofs.«176346_j20375324852317_2_alg».proof.Proof.RefFloat
import proofs.«176346_j20375324852317_2_alg».proof.Proof.Spec

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

open Cert.Bilinear

/-- The composed array at (p, q) is the specification's value. -/
theorem refOut_apply (e1 e2 : FVec Ideal S8192x2048 .f32) (W : FVec Ideal S2048x2048 .f32) (V : FVec Ideal S4096x2048 .f32)
    (b : FVec Ideal S2048 .f32) (p : Fin 8192) (q : Fin 2048) :
    refOut e1 e2 W V b (ix2 p q) = Gref e1 e2 W V b p q := by
  unfold refOut Gref
  show Ideal.tanh
      ((Host.gather gather_S8192x2048_S8192x2048x2_S8192x2048_n_01_n_n_01_2_11 (uArr e1 e2 W) iIdx (ix2 p q)
          + ffArr e1 e2 V (ix2 p q))
        + broadcastInDim S8192x2048 ![0, 1] bcast_S1x2048_S8192x2048_0_1
            (broadcastInDim S1x2048 ![1] bcast_S2048_S1x2048_1 b) (ix2 p q)) = _
  rw [gather_pair_apply, row_eq, col_eq, uArr_apply, ffArr_apply, biasArr_apply]

/-- The composed array is the specification's function of the entry's two coordinates. -/
theorem refOut_eq (e1 e2 : FVec Ideal S8192x2048 .f32) (W : FVec Ideal S2048x2048 .f32) (V : FVec Ideal S4096x2048 .f32)
    (b : FVec Ideal S2048 .f32) :
    refOut e1 e2 W V b = fun i : S8192x2048.Idx => Gref e1 e2 W V b (i 0) (i 1) := by
  funext i
  obtain ⟨p, q, rfl⟩ : ∃ (p : Fin 8192) (q : Fin 2048), i = ix2 p q := ⟨i 0, i 1, eq_ix2 i⟩
  exact refOut_apply e1 e2 W V b p q

/-- On the one device, from any memory with zero counters: every weakly fair execution of the reference terminates with the
    result buffer at Gref of the arguments' launch contents and the five arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v36)
          = (fun i : S8192x2048.Idx => Cert.Bilinear.Gref (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c =>
      ⟨(h c main_v36).trans ((out_eq (launchContents m c)).trans (refOut_eq _ _ _ _ _)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c))⟩)
    (run_main (F := Ideal) m ρ)

end Cert.ReferenceIdeal.RefValue

end
-- ==== Proof.Bridge.lean ====
/-
  The one algebraic law between the two arrangements of the result (see the specification): a sum over the joined row of
  4096 entries is the sum over its first 2048 plus the sum over its last 2048; the word 0x3A000000 is 2^-11 and the word
  0x45000000 is 2048, and on EVERY extended real a product with 1/2048 is the quotient by 2048; addition commutes.  Nothing
  here asks an input to be finite.
-/
import proofs.«176346_j20375324852317_2_alg».proof.Proof.Spec

noncomputable section

open scoped BigOperators

namespace Cert.Bilinear

open Idealize.ShloMosaic Idealize.ShloMosaic.ValueIdx

/-- The word 0x45000000 denotes the real 2048. -/
theorem w2048_eq : w2048 = ((2048 : ℝ) : EReal) := by
  simp [w2048, Ideal.ofBits, Ideal.ieee, -EReal.coe_mul]; norm_num

/-- The word 0x3A000000 denotes the real 1/2048. -/
theorem wInv2048_eq : wInv2048 = ((1 / 2048 : ℝ) : EReal) := by
  simp [wInv2048, Ideal.ofBits, Ideal.ieee, -EReal.coe_mul]; norm_num

/-- Scaling by 2^-11 is dividing by 2048, on every extended real (the infinities included). -/
theorem mul_wInv2048 (x : EReal) : x * wInv2048 = Ideal.div x w2048 := by
  rw [w2048_eq, wInv2048_eq, Ideal.div_coe (by norm_num : (2048 : ℝ) ≠ 0)]

/-- A sum over 4096 positions is the sum over the first 2048 plus the sum over the last 2048. -/
theorem sum_fin_4096 (f : Fin 4096 → EReal) :
    ∑ j : Fin 4096, f j = (∑ j : Fin 2048, f ⟨j.val, by omega⟩) + ∑ j : Fin 2048, f ⟨2048 + j.val, by omega⟩ := by
  have h := Fin.sum_univ_add (a := 2048) (b := 2048) (fun j : Fin (2048 + 2048) => f ⟨j.val, by omega⟩)
  exact h

/-- The feed-forward product over the joined row is the two halves' products added. -/
theorem ffCat_eq_ffSplit (e1 e2 : SB.Idx → EReal) (V : SV.Idx → EReal) (p : Fin 8192) (q : Fin 2048) :
    ffCat e1 e2 V p q = ffSplit e1 e2 V p q := by
  unfold ffCat ffSplit
  rw [sum_fin_4096]
  refine congrArg₂ (· + ·) ?_ ?_
  · refine Finset.sum_congr rfl fun j _ => ?_
    have hj : j.val < 2048 := j.isLt
    simp only [cat, hj, dite_true]
  · refine Finset.sum_congr rfl fun j _ => ?_
    have hj : ¬ (2048 + j.val < 2048) := by omega
    have e : (⟨2048 + j.val - 2048, by omega⟩ : Fin 2048) = j := Fin.ext (by simp)
    simp only [cat, hj, dite_false, e]

/-- The kernel's arrangement and the reference's are one function. -/
theorem Gker_eq_Gref (e1 e2 : SB.Idx → EReal) (W : SW.Idx → EReal) (V : SV.Idx → EReal) (b : Sb.Idx → EReal)
    (p : Fin 8192) (q : Fin 2048) : Gker e1 e2 W V b p q = Gref e1 e2 W V b p q := by
  unfold Gker Gref
  rw [mul_wInv2048, ← ffCat_eq_ffSplit, add_comm (ffCat e1 e2 V p q)]

end Cert.Bilinear

end
-- ==== Proof.lean ====
/-
  The certificate: a two-kernel program against its jnp reference, equal on the extended reals.

  The result at (p, q) is  tanh ((u[(2048 p + q) mod 8192, q] + ([e1 | e2] V)[p, q]) + b[q])  with
  u[r, q] = (sum_j e1[r,j] e2[r,j] W[q,j]) / 2048.  Since (2048 p + q) mod 8192 = 2048 (p mod 4) + q, only four row blocks of
  u's diagonal-like entries are ever read: the first kernel computes exactly those 4 x 2048 numbers, accumulating the row sums
  over four column blocks and scaling by 2^-11; the second accumulates the product over sixteen blocks of the contraction,
  each block once for either batch, and adds row p mod 4 of the table and the bias under tanh.  The reference computes all
  of u, forms the index array in 32-bit integers (no word wraps: the largest is 8191*2048 + 2047) and gathers.

  Frames: every program terminates without a fault and leaves its five arguments as launched (the kernel programs through the
  run of their three segments, at the word-level and at the ideal instance alike; the reference through its run).  The
  idealization rewrote nothing, so `preserves` is `True`.  `algebraic`: both runs end at one function of the arguments,
  the kernel's arrangement and the reference's being equal by regrouping finite sums, x * 2^-11 = x / 2048 on every extended
  real, and commutativity of addition; the precondition is not used.
-/
import proofs.«176346_j20375324852317_2_alg».proof.Defs
import proofs.«176346_j20375324852317_2_alg».proof.Proof.Gen.Kernel
import proofs.«176346_j20375324852317_2_alg».proof.Proof.Gen.KernelIdeal
import proofs.«176346_j20375324852317_2_alg».proof.Proof.Gen.ReferenceIdeal
import proofs.«176346_j20375324852317_2_alg».proof.Proof.Gen.Pre_finite_inputs
import proofs.«176346_j20375324852317_2_alg».proof.Proof.Asm
import proofs.«176346_j20375324852317_2_alg».proof.Proof.WAsm
import proofs.«176346_j20375324852317_2_alg».proof.Proof.AsmValue
import proofs.«176346_j20375324852317_2_alg».proof.Proof.RefRun
import proofs.«176346_j20375324852317_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Asm.frame m ρ

/-- So does the idealized kernel program. -/
theorem frame_kernelIdeal : Cert.frame_KernelIdeal := fun m ρ _ => Cert.KernelIdeal.Asm.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both programs end at the same array: the kernel's arrangement of the
    specification at the launch arrays, which is the reference's. -/
theorem algebraic : Cert.algebraic_KernelIdeal_ReferenceIdeal := by
  intro m ρ m' ρ' _ hagree
  refine ⟨_, Cert.KernelIdeal.AsmValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  funext i
  exact (Cert.Bilinear.Gker_eq_Gref _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
